-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v19) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x512 : Shape := ⟨2, ![8192, 512]⟩
abbrev S128x512 : Shape := ⟨2, ![128, 512]⟩
abbrev S128 : Shape := ⟨1, ![128]⟩
abbrev S_ : Shape := ⟨0, ![]⟩

class Facts : Prop where
  bcast_S_S8192x512 : S_.BroadcastsInDim S8192x512 (![] : Fin 0 → Fin S8192x512.rank)
  reducesTo_S8192x512_S_d0_1 : S8192x512.ReducesTo [0, 1] S_
  h_S_ : 0 < S_.numel
  bcast_S_S128x512 : S_.BroadcastsInDim S128x512 (![] : Fin 0 → Fin S128x512.rank)
  reducesTo_S128x512_S_d0_1 : S128x512.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  main_v18

def fn {F : FTy → Type} [FloatOps F] (main_arg0 : FVec F S8192x512 .f32) (main_arg1 : FVec F S8192x512 .f32) (main_arg2 : FVec F S128x512 .f32) (main_arg3 : FVec F S128 .f32) : IVec S_ 1 :=
  let main_v0 : FVec F S8192x512 .f32 := Host.absf main_arg0
  let main_cst : FVec F S_ .f32 := constant S_ .f32 0x7F800000#32
  let main_v1 : FVec F S8192x512 .f32 := broadcastInDim S8192x512 ![] bcast_S_S8192x512 main_cst
  let main_v2 : IVec S8192x512 1 := cmpf .olt main_v0 main_v1
  let main_c : IVec S_ 1 := constantI S_ 1 1#1
  let main_v3 : IVec S_ 1 := (fun x v => Host.reduce IntOp.andi x v reducesTo_S8192x512_S_d0_1 h_S_) main_v2 main_c
  let main_v4 : FVec F S8192x512 .f32 := Host.absf main_arg1
  let main_cst_0 : FVec F S_ .f32 := constant S_ .f32 0x7F800000#32
  let main_v5 : FVec F S8192x512 .f32 := broadcastInDim S8192x512 ![] bcast_S_S8192x512 main_cst_0
  let main_v6 : IVec S8192x512 1 := cmpf .olt main_v4 main_v5
  let main_c_1 : IVec S_ 1 := constantI S_ 1 1#1
  let main_v7 : IVec S_ 1 := (fun x v => Host.reduce IntOp.andi x v reducesTo_S8192x512_S_d0_1 h_S_) main_v6 main_c_1
  let main_v8 : IVec S_ 1 := andi main_v3 main_v7
  let main_v9 : FVec F S128x512 .f32 := Host.absf main_arg2
  let main_cst_2 : FVec F S_ .f32 := constant S_ .f32 0x7F800000#32
  let main_v10 : FVec F S128x512 .f32 := broadcastInDim S128x512 ![] bcast_S_S128x512 main_cst_2
  let main_v11 : IVec S128x512 1 := cmpf .olt main_v9 main_v10
  let main_c_3 : IVec S_ 1 := constantI S_ 1 1#1
  let main_v12 : IVec S_ 1 := (fun x v => Host.reduce IntOp.andi x v reducesTo_S128x512_S_d0_1 h_S_) main_v11 main_c_3
  let main_v13 : IVec S_ 1 := andi main_v8 main_v12
  let main_v14 : FVec F S128 .f32 := Host.absf main_arg3
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_v13 main_v16
-- ==== Kernel.lean ====
abbrev S8192x512 : Shape := ⟨2, ![8192, 512]⟩
abbrev S128x512 : Shape := ⟨2, ![128, 512]⟩
abbrev S128 : Shape := ⟨1, ![128]⟩
abbrev S8192x128 : Shape := ⟨2, ![8192, 128]⟩
abbrev S1024x512 : Shape := ⟨2, ![1024, 512]⟩
abbrev S1024x128 : Shape := ⟨2, ![1024, 128]⟩
abbrev S1x128 : Shape := ⟨2, ![1, 128]⟩
abbrev S1024x1 : Shape := ⟨2, ![1024, 1]⟩
abbrev S512x128 : Shape := ⟨2, ![512, 128]⟩
abbrev S512x512 : Shape := ⟨2, ![512, 512]⟩
abbrev S1024 : Shape := ⟨1, ![1024]⟩

abbrev nBuf : Space → Nat
  | .hbm => 8
  | .vmem => 20
  | .smem => 0
  | _ => 0

abbrev bufTy : (tb : Table) → Fin (tcTables nBuf tb) → BufTy
  | .hbm, ⟨0, _⟩ => ⟨S8192x512, .f32⟩
  | .hbm, ⟨1, _⟩ => ⟨S8192x512, .f32⟩
  | .hbm, ⟨2, _⟩ => ⟨S128x512, .f32⟩
  | .hbm, ⟨3, _⟩ => ⟨S128, .f32⟩
  | .hbm, ⟨4, _⟩ => ⟨S8192x128, .bf16⟩
  | .hbm, ⟨5, _⟩ => ⟨S8192x128, .bf16⟩
  | .hbm, ⟨6, _⟩ => ⟨S8192x512, .bf16⟩
  | .hbm, ⟨7, _⟩ => ⟨S8192x512, .f32⟩
  | .local _ .vmem, ⟨0, _⟩ => ⟨S1024x512, .f32⟩
  | .local _ .vmem, ⟨1, _⟩ => ⟨S1024x512, .f32⟩
  | .local _ .vmem, ⟨2, _⟩ => ⟨S128x512, .f32⟩
  | .local _ .vmem, ⟨3, _⟩ => ⟨S128, .f32⟩
  | .local _ .vmem, ⟨4, _⟩ => ⟨S1024x128, .bf16⟩
  | .local _ .vmem, ⟨5, _⟩ => ⟨S1024x128, .bf16⟩
  | .local _ .vmem, ⟨6, _⟩ => ⟨S1024x512, .f32⟩
  | .local _ .vmem, ⟨7, _⟩ => ⟨S1024x512, .f32⟩
  | .local _ .vmem, ⟨8, _⟩ => ⟨S128x512, .f32⟩
  | .local _ .vmem, ⟨9, _⟩ => ⟨S128, .f32⟩
  | .local _ .vmem, ⟨10, _⟩ => ⟨S1024x128, .bf16⟩
  | .local _ .vmem, ⟨11, _⟩ => ⟨S1024x128, .bf16⟩
  | .local _ .vmem, ⟨12, _⟩ => ⟨S1024x128, .bf16⟩
  | .local _ .vmem, ⟨13, _⟩ => ⟨S1024x128, .bf16⟩
  | .local _ .vmem, ⟨14, _⟩ => ⟨S8192x128, .bf16⟩
  | .local _ .vmem, ⟨15, _⟩ => ⟨S8192x512, .bf16⟩
  | .local _ .vmem, ⟨16, _⟩ => ⟨S1024x512, .f32⟩
  | .local _ .vmem, ⟨17, _⟩ => ⟨S1024x512, .f32⟩
  | .local _ .vmem, ⟨18, _⟩ => ⟨S1024x512, .f32⟩
  | .local _ .vmem, ⟨19, _⟩ => ⟨S1024x1, .f32⟩
  | _, _ => ⟨S8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg2_0 : Ref sig .tc := ⟨.vmem, 15, rfl⟩
abbrev cc2_stg3_0 : Ref sig .tc := ⟨.vmem, 16, rfl⟩
abbrev cc2_stg3_1 : Ref sig .tc := ⟨.vmem, 17, rfl⟩
abbrev cc2_scratch0 : Ref sig .tc := ⟨.vmem, 18, rfl⟩
abbrev cc2_scratch1 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem3_1 : DmaSem sig := 11
abbrev cc2_sem0_0 : DmaSem sig := 12
abbrev cc2_sem0_1 : DmaSem sig := 13
abbrev cc2_sem1_0 : DmaSem sig := 14
abbrev cc2_sem2_0 : DmaSem sig := 15
abbrev cc2_sem3_0 : DmaSem sig := 16
abbrev cc2_sem3_1 : DmaSem sig := 17

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1024x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![8], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S1024x512 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128x512 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S1024x128 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨2, ![8, 16], ![false, false]⟩

def k2_mult1 (i : grid2.Coords) : BitVec 32 :=
  let arg1 : BitVec 32 := BitVec.ofNat 32 (i 1).val
  let c512_i32 : BitVec 32 := 512#32
  let v3 : BitVec 32 := Scalar.muli arg1 c512_i32
  v3
def k2_off1 (i : grid2.Coords) : Fin 2 → Nat :=
  let arg1 : BitVec 32 := BitVec.ofNat 32 (i 1).val
  let c512_i32 : BitVec 32 := 512#32
  let v3 : BitVec 32 := Scalar.muli arg1 c512_i32
  let v4 : BitVec 32 := v3
  let v5 : Index := Scalar.indexCast v4
  let c0 : Index := 0#32
  ![v5.toNat, 0]
def k2_off2 (i : grid2.Coords) : Fin 2 → Nat :=
  let arg1 : BitVec 32 := BitVec.ofNat 32 (i 1).val
  let c512_i32 : BitVec 32 := 512#32
  let v3 : BitVec 32 := Scalar.muli arg1 c512_i32
  let v4 : BitVec 32 := v3
  let v8 : Index := Scalar.indexCast v4
  let c0_1 : Index := 0#32
  ![v8.toNat, 0]
def k2_cond2 (i : grid2.Coords) : BitVec 1 :=
  let arg1 : BitVec 32 := BitVec.ofNat 32 (i 1).val
  let c15_i32 : BitVec 32 := 15#32
  let v31 : BitVec 1 := Scalar.cmpi .eq arg1 c15_i32
  let v32 : BitVec 32 := Scalar.extui v31
  let c0_i32_15 : BitVec 32 := 0#32
  let v33 : BitVec 1 := Scalar.cmpi .ne v32 c0_i32_15
  v33

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage2_0 : Fin 2 → Memref sig .tc .vmem S1024x128 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, false]

abbrev stage2_1 : Fin 1 → Memref sig .tc .vmem S8192x128 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false, false]

abbrev stage2_2 : Fin 1 → Memref sig .tc .vmem S8192x512 .bf16 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false, false]

abbrev stage2_3 : Fin 2 → Memref sig .tc .vmem S1024x512 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true, false]

class Facts₀ : Prop where
  inb_S1024x512_S1024x512_0_0 : ∀ a, (![0, 0] : Fin 2 → Nat) a + S1024x512.size a ≤ S1024x512.size a
  h_S1024x512 : 0 < S1024x512.numel
  bitsLt_bf16_f32 : FTy.bits .bf16 < FTy.bits .f32
  inb_S128x512_S128x512_0_0 : ∀ a, (![0, 0] : Fin 2 → Nat) a + S128x512.size a ≤ S128x512.size a
  h_S128x512 : 0 < S128x512.numel
  inb_S128_S128_0 : ∀ a, (![0] : Fin 1 → Nat) a + S128.size a ≤ S128.size a
  h_S128 : 0 < S128.numel
  shapeCasts_S128_S1x128 : S128.ShapeCasts S1x128
  broadcasts_S1x128_S1024x128 : S1x128.Broadcasts S1024x128
  inb_S1024x128_S1024x128_0_0 : ∀ a, (![0, 0] : Fin 2 → Nat) a + S1024x128.size a ≤ S1024x128.size a
  h_S1024x128 : 0 < S1024x128.numel
  packedbf16_S1024x128_S1024x128_0_0 : (Rect.unit (s := S1024x128) ![0, 0] S1024x128.size inb_S1024x128_S1024x128_0_0).PackedRows (EltTy.packing .bf16)
  shapeCasts_S1024x512_S1024x512 : S1024x512.ShapeCasts S1024x512
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  h_S512x128 : 0 < S512x128.numel
  shapeCasts_S512x128_S512x128 : S512x128.ShapeCasts S512x128
  h_S512x512 : 0 < S512x512.numel
  shapeCasts_S512x512_S512x512 : S512x512.ShapeCasts S512x512
  shapeCasts_S1024x128_S1024x128 : S1024x128.ShapeCasts S1024x128
  reduces_S1024x512_S1024 : S1024x512.Reduces [1] S1024
  shapeCasts_S1024_S1024x1 : S1024.ShapeCasts S1024x1
  broadcasts_S1024x1_S1024x512 : S1024x1.Broadcasts S1024x512
  dot_S1024x512_S128x512_S1024x128_1_1_0_0_n_n_wf : DotDims.WF S1024x512 S128x512 S1024x128 [1] [1] [0] [0] [] []
  dot_S1024x128_S512x128_S1024x512_1_1_0_0_n_n_wf : DotDims.WF S1024x128 S512x128 S1024x512 [1] [1] [0] [0] [] []
  dot_S1024x512_S512x512_S1024x512_1_0_0_1_n_n_wf : DotDims.WF S1024x512 S512x512 S1024x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x512.size a ≤ S8192x512.size a
  hwx0_0 : ∀ i : grid0.Coords, EltTy.bits .f32 = 32 ∨ (Rect.block (s := S8192x512) S1024x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x512.size a ≤ S128x512.size a
  hwx0_1 : ∀ i : grid0.Coords, EltTy.bits .f32 = 32 ∨ (Rect.block (s := S128x512) S128x512.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128.size a ≤ S128.size a
  hwx0_2 : ∀ i : grid0.Coords, EltTy.bits .f32 = 32 ∨ (Rect.block (s := S128) S128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x128.size a ≤ S8192x128.size a
  hwx0_3 : ∀ i : grid0.Coords, EltTy.bits .bf16 = 32 ∨ (Rect.block (s := S8192x128) S1024x128.size (cc0_transform_3 i) (hinb0_3 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x512.size a ≤ S8192x512.size a
  hwx1_0 : ∀ i : grid1.Coords, EltTy.bits .f32 = 32 ∨ (Rect.block (s := S8192x512) S1024x512.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x512.size a ≤ S128x512.size a
  hwx1_1 : ∀ i : grid1.Coords, EltTy.bits .f32 = 32 ∨ (Rect.block (s := S128x512) S128x512.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128.size a ≤ S128.size a
  hwx1_2 : ∀ i : grid1.Coords, EltTy.bits .f32 = 32 ∨ (Rect.block (s := S128) S128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1024x128.size a ≤ S8192x128.size a
  hwx1_3 : ∀ i : grid1.Coords, EltTy.bits .bf16 = 32 ∨ (Rect.block (s := S8192x128) S1024x128.size (cc1_transform_3 i) (hinb1_3 i)).WholeWords (EltTy.packing .bf16)
  hrank2 : 0 < grid2.rank
  k2_mult1_dvd : ∀ i : grid2.Coords, 512 ∣ (k2_mult1 i).toNat
  k2_off1_inb : ∀ i : grid2.Coords, ∀ a, (k2_off1 i) a + S512x128.size a ≤ S8192x128.size a
  k2_off2_inb : ∀ i : grid2.Coords, ∀ a, (k2_off2 i) a + S512x512.size a ≤ S8192x512.size a
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1024x128.size a ≤ S8192x128.size a
  hwx2_0 : ∀ i : grid2.Coords, EltTy.bits .bf16 = 32 ∨ (Rect.block (s := S8192x128) S1024x128.size (cc2_transform_0 i) (hinb2_0 i)).WholeWords (EltTy.packing .bf16)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S8192x128.size a ≤ S8192x128.size a
  hwx2_1 : ∀ i : grid2.Coords, EltTy.bits .bf16 = 32 ∨ (Rect.block (s := S8192x128) S8192x128.size (cc2_transform_1 i) (hinb2_1 i)).WholeWords (EltTy.packing .bf16)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S8192x512.size a ≤ S8192x512.size a
  hwx2_2 : ∀ i : grid2.Coords, EltTy.bits .bf16 = 32 ∨ (Rect.block (s := S8192x512) S8192x512.size (cc2_transform_2 i) (hinb2_2 i)).WholeWords (EltTy.packing .bf16)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S1024x512.size a ≤ S8192x512.size a
  hwx2_3 : ∀ i : grid2.Coords, EltTy.bits .f32 = 32 ∨ (Rect.block (s := S8192x512) S1024x512.size (cc2_transform_3 i) (hinb2_3 i)).WholeWords (EltTy.packing .f32)

variable [Facts₀]

def dot_S1024x512_S128x512_S1024x128_1_1_0_0_n_n : DotDims S1024x512 S128x512 S1024x128 where
  lhsContracting := [1]
  rhsContracting := [1]
  lhsNonContracting := [0]
  rhsNonContracting := [0]
  lhsBatch := []
  rhsBatch := []
  wf := dot_S1024x512_S128x512_S1024x128_1_1_0_0_n_n_wf
def dot_S1024x128_S512x128_S1024x512_1_1_0_0_n_n : DotDims S1024x128 S512x128 S1024x512 where
  lhsContracting := [1]
  rhsContracting := [1]
  lhsNonContracting := [0]
  rhsNonContracting := [0]
  lhsBatch := []
  rhsBatch := []
  wf := dot_S1024x128_S512x128_S1024x512_1_1_0_0_n_n_wf
def dot_S1024x512_S512x512_S1024x512_1_0_0_1_n_n : DotDims S1024x512 S512x512 S1024x512 where
  lhsContracting := [1]
  rhsContracting := [0]
  lhsNonContracting := [0]
  rhsNonContracting := [1]
  lhsBatch := []
  rhsBatch := []
  wf := dot_S1024x512_S512x512_S1024x512_1_0_0_1_n_n_wf

abbrev win0_0 : Pipeline.Window sig grid0 :=
  Pipeline.Window.ofSpec (Memref.whole main_arg0) S1024x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v0) S1024x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_arg1) S1024x512.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg2) S128x512.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg3) S128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v1) S1024x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v0) S1024x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v1) S8192x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v2) S8192x512.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v3) S1024x512.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev idle2 : Fin 4 → grid2.Coords → Bool := fun | 0 => fun _ => false | 1 => fun _ => false | 2 => fun _ => false | 3 => fun i => !(k2_cond2 i == 1#1) | ⟨_ + 4, h⟩ => absurd h (Nat.not_lt.2 (Nat.le_add_left _ _))

class Facts : Prop extends Facts₀ where

variable [Facts]
-- ==== ReferenceIdeal.lean ====
abbrev S8192x512 : Shape := ⟨2, ![8192, 512]⟩
abbrev S128x512 : Shape := ⟨2, ![128, 512]⟩
abbrev S128 : Shape := ⟨1, ![128]⟩
abbrev S8192x128 : Shape := ⟨2, ![8192, 128]⟩
abbrev S1x128 : Shape := ⟨2, ![1, 128]⟩
abbrev S8192x8192 : Shape := ⟨2, ![8192, 8192]⟩
abbrev S_ : Shape := ⟨0, ![]⟩
abbrev S8192 : Shape := ⟨1, ![8192]⟩
abbrev S8192x1 : Shape := ⟨2, ![8192, 1]⟩

abbrev nBuf : Space → Nat
  | .hbm => 27
  | .vmem => 0
  | .smem => 0
  | _ => 0

abbrev bufTy : (tb : Table) → Fin (tcTables nBuf tb) → BufTy
  | .hbm, ⟨0, _⟩ => ⟨S8192x512, .f32⟩
  | .hbm, ⟨1, _⟩ => ⟨S8192x512, .f32⟩
  | .hbm, ⟨2, _⟩ => ⟨S128x512, .f32⟩
  | .hbm, ⟨3, _⟩ => ⟨S128, .f32⟩
  | .hbm, ⟨4, _⟩ => ⟨S8192x128, .f32⟩
  | .hbm, ⟨5, _⟩ => ⟨S1x128, .f32⟩
  | .hbm, ⟨6, _⟩ => ⟨S8192x128, .f32⟩
  | .hbm, ⟨7, _⟩ => ⟨S8192x128, .f32⟩
  | .hbm, ⟨8, _⟩ => ⟨S8192x128, .f32⟩
  | .hbm, ⟨9, _⟩ => ⟨S1x128, .f32⟩
  | .hbm, ⟨10, _⟩ => ⟨S8192x128, .f32⟩
  | .hbm, ⟨11, _⟩ => ⟨S8192x128, .f32⟩
  | .hbm, ⟨12, _⟩ => ⟨S8192x8192, .f32⟩
  | .hbm, ⟨13, _⟩ => ⟨S_, .f32⟩
  | .hbm, ⟨14, _⟩ => ⟨S8192x8192, .f32⟩
  | .hbm, ⟨15, _⟩ => ⟨S8192x8192, .f32⟩
  | .hbm, ⟨16, _⟩ => ⟨S8192x8192, .f32⟩
  | .hbm, ⟨17, _⟩ => ⟨S_, .f32⟩
  | .hbm, ⟨18, _⟩ => ⟨S8192, .f32⟩
  | .hbm, ⟨19, _⟩ => ⟨S8192x1, .f32⟩
  | .hbm, ⟨20, _⟩ => ⟨S8192x1, .f32⟩
  | .hbm, ⟨21, _⟩ => ⟨S_, .f32⟩
  | .hbm, ⟨22, _⟩ => ⟨S8192x1, .f32⟩
  | .hbm, ⟨23, _⟩ => ⟨S8192x1, .f32⟩
  | .hbm, ⟨24, _⟩ => ⟨S8192x8192, .f32⟩
  | .hbm, ⟨25, _⟩ => ⟨S8192x8192, .f32⟩
  | .hbm, ⟨26, _⟩ => ⟨S8192x512, .f32⟩
  | _, _ => ⟨S8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_cst : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_cst_0 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_cst_1 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩

abbrev nD : Nat := 1
abbrev τ : Topo := Topo.v7x

variable {F : FTy → Type} [FloatOps F]

class Facts₀ : Prop where
  bcast_S128_S1x128_1 : S128.BroadcastsInDim S1x128 (![1] : Fin 1 → Fin S1x128.rank)
  bcast_S1x128_S8192x128_0_1 : S1x128.BroadcastsInDim S8192x128 (![0, 1] : Fin 2 → Fin S8192x128.rank)
  bcast_S_S8192x8192 : S_.BroadcastsInDim S8192x8192 (![] : Fin 0 → Fin S8192x8192.rank)
  reducesTo_S8192x8192_S8192_d1 : S8192x8192.ReducesTo [1] S8192
  h_S_ : 0 < S_.numel
  bcast_S8192_S8192x1_0 : S8192.BroadcastsInDim S8192x1 (![0] : Fin 1 → Fin S8192x1.rank)
  bcast_S_S8192x1 : S_.BroadcastsInDim S8192x1 (![] : Fin 0 → Fin S8192x1.rank)
  bcast_S8192x1_S8192x8192_0_1 : S8192x1.BroadcastsInDim S8192x8192 (![0, 1] : Fin 2 → Fin S8192x8192.rank)
  dot_S8192x512_S128x512_S8192x128_1_1_0_0_n_n_wf : DotDims.WF S8192x512 S128x512 S8192x128 [1] [1] [0] [0] [] []
  dot_S8192x128_S8192x128_S8192x8192_1_1_0_0_n_n_wf : DotDims.WF S8192x128 S8192x128 S8192x8192 [1] [1] [0] [0] [] []
  dot_S8192x8192_S8192x512_S8192x512_1_0_0_1_n_n_wf : DotDims.WF S8192x8192 S8192x512 S8192x512 [1] [0] [0] [1] [] []

variable [Facts₀]

def dot_S8192x512_S128x512_S8192x128_1_1_0_0_n_n : DotDims S8192x512 S128x512 S8192x128 where
  lhsContracting := [1]
  rhsContracting := [1]
  lhsNonContracting := [0]
  rhsNonContracting := [0]
  lhsBatch := []
  rhsBatch := []
  wf := dot_S8192x512_S128x512_S8192x128_1_1_0_0_n_n_wf
def dot_S8192x128_S8192x128_S8192x8192_1_1_0_0_n_n : DotDims S8192x128 S8192x128 S8192x8192 where
  lhsContracting := [1]
  rhsContracting := [1]
  lhsNonContracting := [0]
  rhsNonContracting := [0]
  lhsBatch := []
  rhsBatch := []
  wf := dot_S8192x128_S8192x128_S8192x8192_1_1_0_0_n_n_wf
def dot_S8192x8192_S8192x512_S8192x512_1_0_0_1_n_n : DotDims S8192x8192 S8192x512 S8192x512 where
  lhsContracting := [1]
  rhsContracting := [0]
  lhsNonContracting := [0]
  rhsNonContracting := [1]
  lhsBatch := []
  rhsBatch := []
  wf := dot_S8192x8192_S8192x512_S8192x512_1_0_0_1_n_n_wf

class Facts : Prop extends Facts₀ where

variable [Facts]
-- ==== Proof.ProjFrame.lean ====
/- The class-A halves of the two projection kernels (custom calls 0 and 1 of @main), at any float model.
   Both regions run the same body on a grid of 8 points: a [1024,512] row block of the activations, the whole
   [128,512] weight matrix and the whole [128] bias come in, and the [1024,128] row block
   `round(round x · (round w)ᵀ + b)` goes out at every point. Per region, at a parameter `V` (the core's buffer
   contents when the region is entered): each window's block at a point, the output buffer after the body as a
   function of the three input blocks, the body's triple, the pipeline's proof data and the body obligation. -/
import proofs.«123942_j56169582297517_2_alg».proof.Proof.Gen.KernelIdeal.Launch
import proofs.«123942_j56169582297517_2_alg».proof.Proof.Gen.KernelIdeal.Skeleton
import proofs.«123942_j56169582297517_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of 1024 × 128 indices: the structural check recurses once per coordinate
set_option maxRecDepth 16384

noncomputable section

namespace Cert.KernelIdeal.Proj

open Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the core's buffer contents when a region is entered: the parameter both regions' halves are stated at
variable (V : (c : Dev nD) → (b : Ref sig .tc) → Buf (Elt F) ((c : Thread nD τ).loc b))

/-! # Region 0: the projection kernel of custom call 0, at the entry contents `V` -/

/-! ## The windows' blocks -/

/-- Window `w`'s block at grid point `t`: the part of its array, as the region finds it, that the window's
    index map selects there. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The row block of the activations (window 0): its staging buffer holds the block of the point at every point,
    for any proof data whose array is `V`'s and whose body leaves the block where it was. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The weight matrix (window 1) is one block, the whole array, brought in at the first point only; at a later
    point the block index has not moved, so the buffer still holds the block of the point. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- The bias vector (window 2), likewise one block brought in once. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: each buffer is read, and the output written, whole -/

abbrev rX0 : Rect S1024x512 := Rect.unit (s := S1024x512) ![0, 0] S1024x512.size inb_S1024x512_S1024x512_0_0
abbrev rW0 : Rect S128x512 := Rect.unit (s := S128x512) ![0, 0] S128x512.size inb_S128x512_S128x512_0_0
abbrev rB0 : Rect S128 := Rect.unit (s := S128) ![0] S128.size inb_S128_S128_0
abbrev rO0 : Rect S1024x128 := Rect.unit (s := S1024x128) ![0, 0] S1024x128.size inb_S1024x128_S1024x128_0_0

/-! ## What the body leaves in the output window's buffer -/

/-- The output buffer after the body, as a function of the three input blocks: the one store, of the rounded
    `x · wᵀ + b` of the three loads, laid over the whole buffer. -/
def out0_3 (x0 : Vec F S1024x512 .f32) (x1 : Vec F S128x512 .f32) (x2 : Vec F S128 .f32) : Vec F S1024x128 .bf16 :=
  View.canon [⟨rO0, k0_pay1 (View.ld x0 rX0) (View.ld x1 rW0) (View.ld x2 rB0)⟩]

/-- The one store's rectangle is the whole buffer, so it covers every index. -/
theorem cover0_3 (p0 : Vec F S1024x128 .bf16) (y : S1024x128.Idx) :
    ∃ pc ∈ ([⟨rO0, p0⟩] : List (View.Piece (Elt F) S1024x128 .bf16)), y ∈ pc.1.set :=
  View.cover_of_tiled [⟨rO0, p0⟩] S1024x128.size (by rfl) y

/-! ## The body's triple -/

set_option maxHeartbeats 1000000 in
/-- The kernel body on whole staging memrefs — the three inputs' at read contents `x0 x1 x2`, the output's at
    anything — runs to the continuation holding the inputs' as they were and the output's at `out0_3 x0 x1 x2`.
    The body also loads the output buffer before storing into it; nothing depends on that value. -/
theorem sound_kernel0 (c : Dev nD) (E : Set ℕ) (i : grid0.Coords)
    (arg1 : Memref sig .tc .vmem S1024x512 .f32) (harg1 : arg1.IsWhole) (arg2 : Memref sig .tc .vmem S128x512 .f32) (harg2 : arg2.IsWhole)
    (arg3 : Memref sig .tc .vmem S128 .f32) (harg3 : arg3.IsWhole) (arg4 : Memref sig .tc .vmem S1024x128 .bf16) (harg4 : arg4.IsWhole)
    (x0 : Vec F S1024x512 .f32) (x1 : Vec F S128x512 .f32) (x2 : Vec F S128 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out0_3 x0 x1 x2)) -∗ K ⟨⟩))
      ⊢ wp frame (wpE (defs₀ (F := F)) Variants.none c none) E (cc0_kernel i arg1 harg1 arg2 harg2 arg3 harg3 arg4 harg4) K := by
  simp only [cc0_kernel_eq_skeleton]; unfold cc0_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0_3 _)

/-! ## The pipeline's proof data -/

/-- The proof data of pipeline 0 on core `c`: the arrays as the region finds them; after the body at point `t`
    each input's buffer still at its block and the output's at `out0_3` of the three input blocks; the invariant
    is the rest of the core's state, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

/-- The proof data's arrays are the region-entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = out0_3 (iblk0 V c 0 t) (iblk0 V c 1 t) (iblk0 V c 2 t) := by dsimp only [dat0]

/-- Each input's current staging buffer holds its block at every point. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-! ## The body obligation, at a generic point -/

/-- What the body is called with at point `t`: the invariant, what the core owes, and the four windows' current
    staging memrefs, each at what the pipeline left in it. -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

/-- The body at any point: the inputs' memrefs hold their blocks, so the body's triple applies; the invariant and
    what the core owes pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation0 (c : Dev nD) : BodyObligation (dat0 (F := F) V c) (defs₀ (F := F)) Variants.none () Set.univ := fun t => by
  rw [bigSep_W0, bigSep_W0]
  exact sound_body0 V c t

/-! # Region 1: the projection kernel of custom call 1, at the entry contents `V` -/

/-! ## The windows' blocks -/

/-- Window `w`'s block at grid point `t`: the part of its array, as the region finds it, that the window's
    index map selects there. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The row block of the activations (window 0): its staging buffer holds the block of the point at every point,
    for any proof data whose array is `V`'s and whose body leaves the block where it was. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- The weight matrix (window 1) is one block, the whole array, brought in at the first point only; at a later
    point the block index has not moved, so the buffer still holds the block of the point. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- The bias vector (window 2), likewise one block brought in once. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses: each buffer is read, and the output written, whole -/

abbrev rX1 : Rect S1024x512 := Rect.unit (s := S1024x512) ![0, 0] S1024x512.size inb_S1024x512_S1024x512_0_0
abbrev rW1 : Rect S128x512 := Rect.unit (s := S128x512) ![0, 0] S128x512.size inb_S128x512_S128x512_0_0
abbrev rB1 : Rect S128 := Rect.unit (s := S128) ![0] S128.size inb_S128_S128_0
abbrev rO1 : Rect S1024x128 := Rect.unit (s := S1024x128) ![0, 0] S1024x128.size inb_S1024x128_S1024x128_0_0

/-! ## What the body leaves in the output window's buffer -/

/-- The output buffer after the body, as a function of the three input blocks: the one store, of the rounded
    `x · wᵀ + b` of the three loads, laid over the whole buffer. -/
def out1_3 (x0 : Vec F S1024x512 .f32) (x1 : Vec F S128x512 .f32) (x2 : Vec F S128 .f32) : Vec F S1024x128 .bf16 :=
  View.canon [⟨rO1, k1_pay1 (View.ld x0 rX1) (View.ld x1 rW1) (View.ld x2 rB1)⟩]

/-- The one store's rectangle is the whole buffer, so it covers every index. -/
theorem cover1_3 (p0 : Vec F S1024x128 .bf16) (y : S1024x128.Idx) :
    ∃ pc ∈ ([⟨rO1, p0⟩] : List (View.Piece (Elt F) S1024x128 .bf16)), y ∈ pc.1.set :=
  View.cover_of_tiled [⟨rO1, p0⟩] S1024x128.size (by rfl) y

/-! ## The body's triple -/

set_option maxHeartbeats 1000000 in
/-- The kernel body on whole staging memrefs — the three inputs' at read contents `x0 x1 x2`, the output's at
    anything — runs to the continuation holding the inputs' as they were and the output's at `out1_3 x0 x1 x2`.
    The body also loads the output buffer before storing into it; nothing depends on that value. -/
theorem sound_kernel1 (c : Dev nD) (E : Set ℕ) (i : grid1.Coords)
    (arg1 : Memref sig .tc .vmem S1024x512 .f32) (harg1 : arg1.IsWhole) (arg2 : Memref sig .tc .vmem S128x512 .f32) (harg2 : arg2.IsWhole)
    (arg3 : Memref sig .tc .vmem S128 .f32) (harg3 : arg3.IsWhole) (arg4 : Memref sig .tc .vmem S1024x128 .bf16) (harg4 : arg4.IsWhole)
    (x0 : Vec F S1024x512 .f32) (x1 : Vec F S128x512 .f32) (x2 : Vec F S128 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out1_3 x0 x1 x2)) -∗ K ⟨⟩))
      ⊢ wp frame (wpE (defs₀ (F := F)) Variants.none c none) E (cc1_kernel i arg1 harg1 arg2 harg2 arg3 harg3 arg4 harg4) K := by
  simp only [cc1_kernel_eq_skeleton]; unfold cc1_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover1_3 _)

/-! ## The pipeline's proof data -/

/-- The proof data of pipeline 1 on core `c`: the arrays as the region finds them; after the body at point `t`
    each input's buffer still at its block and the output's at `out1_3` of the three input blocks; the invariant
    is the rest of the core's state, untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 (iblk1 V c 0 t) (iblk1 V c 1 t) (iblk1 V c 2 t)
  Φ _ := Pipeline.ΦA spec1 c
  q _ := fullShare
  owed _ := 0

/-- The proof data's arrays are the region-entry contents. -/
theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = out1_3 (iblk1 V c 0 t) (iblk1 V c 1 t) (iblk1 V c 2 t) := by dsimp only [dat1]

/-- Each input's current staging buffer holds its block at every point. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-! ## The body obligation, at a generic point -/

/-- What the body is called with at point `t`: the invariant, what the core owes, and the four windows' current
    staging memrefs, each at what the pipeline left in it. -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

/-- The body at any point: the inputs' memrefs hold their blocks, so the body's triple applies; the invariant and
    what the core owes pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3]
  iintro ⟨HΦ, Ho, ⟨%d0, H0⟩, ⟨%d1, H1⟩, ⟨%d2, H2⟩, ⟨%d3, H3⟩⟩
  iapply (sound_kernel1 c Set.univ _ _ _ _ _ _ _ _ _ (iblk1 V c 0 t) (iblk1 V c 1 t) (iblk1 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Proj

end
-- ==== Proof.AttnShared.lean ====
/-
  The third region: the tiled attention kernel on a grid of 8 row blocks × 16 key tiles. What its three
  control cases share: the two conditions of the body (first key tile: the running totals are reset; last key
  tile: the quotient is stored) in closed form over the grid; where the output window is idle (every tile but
  the last of a row block: nothing is stored into it and nothing written back); the staging and scratch memrefs;
  and the region's rest state split into the other regions' staging buffers, the two scratch buffers (the
  running total of s·S and the running total of s²) and the generator register.
-/
import proofs.«123942_j56169582297517_2_alg».proof.Proof.Gen.KernelIdeal.Launch
import proofs.«123942_j56169582297517_2_alg».proof.Proof.Gen.KernelIdeal.Skeleton
import proofs.«123942_j56169582297517_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Attn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's two conditions, over the grid -/

/-- "This is the first key tile of the row block": the condition under which the running totals are reset. -/
abbrev cond2_0 (i : grid2.Coords) : Prop := (Scalar.cmpi .ne (Scalar.extui (Scalar.cmpi .eq (BitVec.ofNat 32 (i 1).val) 0#32)) 0#32) = 1#1
/-- It holds at the points ≡ 0 (mod 16). -/
theorem hcond2_0 : ∀ t : Fin cfg2.N, cond2_0 (grid2.coords t) ↔ t.val % 16 = 0 :=
  (by decide +kernel : ∀ t : Fin grid2.N, cond2_0 (grid2.coords t) ↔ t.val % 16 = 0)

/-- "This is the last key tile of the row block": the condition under which the quotient is stored. -/
abbrev cond2_1 (i : grid2.Coords) : Prop := k2_cond2 i = 1#1
/-- It holds at the points ≡ 15 (mod 16). -/
theorem hcond2_1 : ∀ t : Fin cfg2.N, cond2_1 (grid2.coords t) ↔ t.val % 16 = 15 :=
  (by decide +kernel : ∀ t : Fin grid2.N, cond2_1 (grid2.coords t) ↔ t.val % 16 = 15)

/-! ## Where the windows are idle -/

theorem liveAt2_0 : ∀ t : Fin cfg2.N, cfg2.idle 0 (grid2.coords t) = false := by decide +kernel
theorem liveAt2_1 : ∀ t : Fin cfg2.N, cfg2.idle 1 (grid2.coords t) = false := by decide +kernel
theorem liveAt2_2 : ∀ t : Fin cfg2.N, cfg2.idle 2 (grid2.coords t) = false := by decide +kernel
/-- Off the last key tile nothing is stored into the output window, and its block is not written back. -/
theorem idleAt2_3 : ∀ t : Fin cfg2.N, ¬cond2_1 (grid2.coords t) → cfg2.idle 3 (grid2.coords t) = true := by decide +kernel
theorem noFlush2_3 : ∀ t : Fin cfg2.N, ¬cond2_1 (grid2.coords t) → (cfg2.win 3).flush t = false := by decide +kernel
/-- At the last key tile the output window is stored whole. -/
theorem liveAt2_3 : ∀ t : Fin cfg2.N, cond2_1 (grid2.coords t) → cfg2.idle 3 (grid2.coords t) = false := by decide +kernel

/-! ## The memrefs the body is called with -/

/-- One staging buffer of the output window, through which its contents are stated. -/
abbrev VO2_3 : View sig .tc .vmem S1024x512 .f32 := (Memref.whole cc2_stg3_0 : Memref sig .tc .vmem S1024x512 .f32).view
abbrev ms2_0 (t : Fin cfg2.N) : Memref sig .tc .vmem S1024x128 .bf16 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S8192x128 .bf16 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S8192x512 .bf16 := win2_2.stage (cfg2.slots t 2)
abbrev hs2_2 (t : Fin cfg2.N) : (ms2_2 t).IsWhole := hstage2_2 ((cfg2.slots t 2).cast nbuf2_2)
abbrev ms2_3 (t : Fin cfg2.N) : Memref sig .tc .vmem S1024x512 .f32 := win2_3.stage (cfg2.slots t 3)
abbrev hs2_3 (t : Fin cfg2.N) : (ms2_3 t).IsWhole := hstage2_3 ((cfg2.slots t 3).cast nbuf2_3)
/-- The running total of s·S (a [1024, 512] scratch) and the running total of s² (a [1024, 1] scratch). -/
abbrev scM2_0 : Memref sig .tc .vmem S1024x512 .f32 := Memref.whole cc2_scratch0
abbrev scM2_1 : Memref sig .tc .vmem S1024x1 .f32 := Memref.whole cc2_scratch1
abbrev VS2_0 : View sig .tc .vmem S1024x512 .f32 := scM2_0.view
abbrev VS2_1 : View sig .tc .vmem S1024x1 .f32 := scM2_1.view

/-! ## The region's rest state -/

/-- The staging buffers of the two projection regions, each whole at some contents: this region never touches them. -/
def stgRest (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg3_1), ((c : Thread nD τ).loc cc1_stg3_1) ↦{fullShare} f))

/-- The rest state the region is handed opens into those buffers, the two scratch buffers at some contents, and the
    generator register at some state. -/
theorem PhiA_split (c : Dev nD) :
    (Pipeline.ΦA spec2 c : sProp 𝕄) ⊢ iprop(stgRest (F := F) c ∗ (∃ d, owns (c : Thread nD τ) scM2_0 fullShare d) ∗ (∃ d, owns (c : Thread nD τ) scM2_1 fullShare d) ∗ (∃ r, prngReg c r)) := by
  unfold Pipeline.ΦA stgRest; rw [scopedRest2_eq]; simp only [scM2_0, scM2_1, owns_whole]
  iintro ⟨⟨B0, B1, B2, B3, B4, B5, B6, B7, B8, B9, B10, B11, S0, S1⟩, Hg⟩
  isplitl [B0 B1 B2 B3 B4 B5 B6 B7 B8 B9 B10 B11]
  · isplitl [B0]; · iexact B0
    isplitl [B1]; · iexact B1
    isplitl [B2]; · iexact B2
    isplitl [B3]; · iexact B3
    isplitl [B4]; · iexact B4
    isplitl [B5]; · iexact B5
    isplitl [B6]; · iexact B6
    isplitl [B7]; · iexact B7
    isplitl [B8]; · iexact B8
    isplitl [B9]; · iexact B9
    isplitl [B10]; · iexact B10
    iexact B11
  isplitl [S0]; · iexact S0
  isplitl [S1]; · iexact S1
  iexact Hg

/-- And closes back from them. -/
theorem PhiA_join (c : Dev nD) :
    iprop(stgRest (F := F) c ∗ (∃ d, owns (c : Thread nD τ) scM2_0 fullShare d) ∗ (∃ d, owns (c : Thread nD τ) scM2_1 fullShare d) ∗ (∃ r, prngReg c r)) ⊢ (Pipeline.ΦA spec2 c : sProp 𝕄) := by
  unfold Pipeline.ΦA stgRest; rw [scopedRest2_eq]; simp only [scM2_0, scM2_1, owns_whole]
  iintro ⟨⟨B0, B1, B2, B3, B4, B5, B6, B7, B8, B9, B10, B11⟩, S0, S1, Hg⟩
  isplitr [Hg]
  · isplitl [B0]; · iexact B0
    isplitl [B1]; · iexact B1
    isplitl [B2]; · iexact B2
    isplitl [B3]; · iexact B3
    isplitl [B4]; · iexact B4
    isplitl [B5]; · iexact B5
    isplitl [B6]; · iexact B6
    isplitl [B7]; · iexact B7
    isplitl [B8]; · iexact B8
    isplitl [B9]; · iexact B9
    isplitl [B10]; · iexact B10
    isplitl [B11]; · iexact B11
    isplitl [S0]; · iexact S0
    iexact S1
  iexact Hg

end Cert.KernelIdeal.Attn

end
-- ==== Proof.AttnRunA.lean ====
/-
  The attention kernel's body at the FIRST key tile of a row block (the totals are reset to zero, then this tile is added; nothing is stored into the output window): its triple, run by the symbolic executor over the body's skeleton, with
  the pieces each buffer ends with as the witness the run finds.
-/
import proofs.«123942_j56169582297517_2_alg».proof.Proof.AttnShared

set_option maxRecDepth 16384

noncomputable section

namespace Cert.KernelIdeal.Attn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- On whole staging memrefs — the query block, the resident keys and the resident values at their contents, the output window's buffer handed back untouched, the two scratch totals at anything —
    the body runs to the continuation holding the inputs as they were and each buffer it stored into with its pieces written. -/
noncomputable def kernelRun2_A (c : Dev nD) (i : grid2.Coords) (arg2 : Memref sig .tc .vmem S1024x128 .bf16) (harg2 : arg2.IsWhole) (arg3 : Memref sig .tc .vmem S8192x128 .bf16) (harg3 : arg3.IsWhole) (arg4 : Memref sig .tc .vmem S8192x512 .bf16) (harg4 : arg4.IsWhole) (arg5 : Memref sig .tc .vmem S1024x512 .f32) (harg5 : arg5.IsWhole) (arg6 : Memref sig .tc .vmem S1024x512 .f32) (harg6 : arg6.IsWhole) (arg7 : Memref sig .tc .vmem S1024x1 .f32) (harg7 : arg7.IsWhole) (hc0 : cond2_0 i) (hc1 : ¬cond2_1 i)
    (x0 : Vec F S1024x128 .bf16) (x1 : Vec F S8192x128 .bf16) (x2 : Vec F S8192x512 .bf16) :
    Σ' (L3 : List (View.Piece (Elt F) S1024x512 .f32)) (LS0 : List (View.Piece (Elt F) S1024x512 .f32)), { LS1 : List (View.Piece (Elt F) S1024x1 .f32) //
      ∀ (xi3 : Vec F S1024x512 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ (∃ d, owns (c : Thread nD τ) arg6 fullShare d) ∗ (∃ d, owns (c : Thread nD τ) arg7 fullShare d)
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS0) ∗ (∃ f, arg7.view.loc (c : Thread nD τ) ↦[arg7.view.set]{fullShare} arg7.view.writes (Elt F) f LS1)) -∗ K ⟨⟩))
          ⊢ wp frame (wpE (defs₀ (F := F)) Variants.none c none) E (cc2_kernel i arg2 harg2 arg3 harg3 arg4 harg4 arg5 harg5 arg6 harg6 arg7 harg7) K } := by
  refine ⟨[], ?_, ?_, fun xi3 E K => ?run⟩
  case run =>
    simp only [cc2_kernel_eq_skeleton]; unfold cc2_kernel_skel
    simp only [k2_part1_eq_skeleton]
    unfold owns
    iintro ⟨⟨%f0, %hf0, H0⟩, ⟨%f1, %hf1, H1⟩, ⟨%f2, %hf2, H2⟩, ⟨%f3, %hf3, H3⟩, ⟨%ds0, %fs0, -, HS0⟩, ⟨%ds1, %fs1, -, HS1⟩, Hk⟩
    obtain rfl := harg2.eq_unread hf0; obtain rfl := harg3.eq_unread hf1; obtain rfl := harg4.eq_unread hf2; obtain rfl := harg5.eq_unread hf3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [HS0]; · iexists _; iexact HS0
    iexists _; iexact HS1

end Cert.KernelIdeal.Attn

end
-- ==== Proof.AttnRunB.lean ====
/-
  The attention kernel's body at a MIDDLE key tile of a row block (this tile is added onto the totals the tile before left; nothing is stored into the output window): its triple, run by the symbolic executor over the body's skeleton, with
  the pieces each buffer ends with as the witness the run finds.
-/
import proofs.«123942_j56169582297517_2_alg».proof.Proof.AttnRunA

set_option maxRecDepth 16384

noncomputable section

namespace Cert.KernelIdeal.Attn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- On whole staging memrefs — the query block, the resident keys and the resident values at their contents, the output window's buffer handed back untouched, the two scratch totals at what the tile before left —
    the body runs to the continuation holding the inputs as they were and each buffer it stored into with its pieces written. -/
noncomputable def kernelRun2_B (c : Dev nD) (i : grid2.Coords) (arg2 : Memref sig .tc .vmem S1024x128 .bf16) (harg2 : arg2.IsWhole) (arg3 : Memref sig .tc .vmem S8192x128 .bf16) (harg3 : arg3.IsWhole) (arg4 : Memref sig .tc .vmem S8192x512 .bf16) (harg4 : arg4.IsWhole) (arg5 : Memref sig .tc .vmem S1024x512 .f32) (harg5 : arg5.IsWhole) (arg6 : Memref sig .tc .vmem S1024x512 .f32) (harg6 : arg6.IsWhole) (arg7 : Memref sig .tc .vmem S1024x1 .f32) (harg7 : arg7.IsWhole) (hc0 : ¬cond2_0 i) (hc1 : ¬cond2_1 i)
    (x0 : Vec F S1024x128 .bf16) (x1 : Vec F S8192x128 .bf16) (x2 : Vec F S8192x512 .bf16) (xs0 : Vec F S1024x512 .f32) (xs1 : Vec F S1024x1 .f32) :
    Σ' (L3 : List (View.Piece (Elt F) S1024x512 .f32)) (LS0 : List (View.Piece (Elt F) S1024x512 .f32)), { LS1 : List (View.Piece (Elt F) S1024x1 .f32) //
      ∀ (xi3 : Vec F S1024x512 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ owns (c : Thread nD τ) arg6 fullShare xs0 ∗ owns (c : Thread nD τ) arg7 fullShare xs1
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS0) ∗ (∃ f, arg7.view.loc (c : Thread nD τ) ↦[arg7.view.set]{fullShare} arg7.view.writes (Elt F) f LS1)) -∗ K ⟨⟩))
          ⊢ wp frame (wpE (defs₀ (F := F)) Variants.none c none) E (cc2_kernel i arg2 harg2 arg3 harg3 arg4 harg4 arg5 harg5 arg6 harg6 arg7 harg7) K } := by
  refine ⟨[], ?_, ?_, fun xi3 E K => ?run⟩
  case run =>
    simp only [cc2_kernel_eq_skeleton]; unfold cc2_kernel_skel
    simp only [k2_part1_eq_skeleton]
    unfold owns
    iintro ⟨⟨%f0, %hf0, H0⟩, ⟨%f1, %hf1, H1⟩, ⟨%f2, %hf2, H2⟩, ⟨%f3, %hf3, H3⟩, ⟨%fs0, %hfs0, HS0⟩, ⟨%fs1, %hfs1, HS1⟩, Hk⟩
    obtain rfl := harg2.eq_unread hf0; obtain rfl := harg3.eq_unread hf1; obtain rfl := harg4.eq_unread hf2; obtain rfl := harg5.eq_unread hf3; obtain rfl := harg6.eq_unread hfs0; obtain rfl := harg7.eq_unread hfs1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [HS0]; · iexists _; iexact HS0
    iexists _; iexact HS1

end Cert.KernelIdeal.Attn

end
-- ==== Proof.AttnRunC.lean ====
/-
  The attention kernel's body at the LAST key tile of a row block (this tile is added onto the totals the tile before left, and the total of s·S divided by max(sqrt(total of s²), ε) is stored whole into the output window): its triple, run by the symbolic executor over the body's skeleton, with
  the pieces each buffer ends with as the witness the run finds.
-/
import proofs.«123942_j56169582297517_2_alg».proof.Proof.AttnRunB

set_option maxRecDepth 16384

noncomputable section

namespace Cert.KernelIdeal.Attn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- On whole staging memrefs — the query block, the resident keys and the resident values at their contents, the output window's buffer at anything, the two scratch totals at what the tile before left —
    the body runs to the continuation holding the inputs as they were and each buffer it stored into with its pieces written. -/
noncomputable def kernelRun2_C (c : Dev nD) (i : grid2.Coords) (arg2 : Memref sig .tc .vmem S1024x128 .bf16) (harg2 : arg2.IsWhole) (arg3 : Memref sig .tc .vmem S8192x128 .bf16) (harg3 : arg3.IsWhole) (arg4 : Memref sig .tc .vmem S8192x512 .bf16) (harg4 : arg4.IsWhole) (arg5 : Memref sig .tc .vmem S1024x512 .f32) (harg5 : arg5.IsWhole) (arg6 : Memref sig .tc .vmem S1024x512 .f32) (harg6 : arg6.IsWhole) (arg7 : Memref sig .tc .vmem S1024x1 .f32) (harg7 : arg7.IsWhole) (hc0 : ¬cond2_0 i) (hc1 : cond2_1 i)
    (x0 : Vec F S1024x128 .bf16) (x1 : Vec F S8192x128 .bf16) (x2 : Vec F S8192x512 .bf16) (xs0 : Vec F S1024x512 .f32) (xs1 : Vec F S1024x1 .f32) :
    Σ' (L3 : List (View.Piece (Elt F) S1024x512 .f32)) (LS0 : List (View.Piece (Elt F) S1024x512 .f32)), { LS1 : List (View.Piece (Elt F) S1024x1 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ owns (c : Thread nD τ) arg6 fullShare xs0 ∗ owns (c : Thread nD τ) arg7 fullShare xs1
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f LS0) ∗ (∃ f, arg7.view.loc (c : Thread nD τ) ↦[arg7.view.set]{fullShare} arg7.view.writes (Elt F) f LS1)) -∗ K ⟨⟩))
          ⊢ wp frame (wpE (defs₀ (F := F)) Variants.none c none) E (cc2_kernel i arg2 harg2 arg3 harg3 arg4 harg4 arg5 harg5 arg6 harg6 arg7 harg7) K } := by
  refine ⟨?_, ?_, ?_, fun E K => ?run⟩
  case run =>
    simp only [cc2_kernel_eq_skeleton]; unfold cc2_kernel_skel
    simp only [k2_part1_eq_skeleton]
    unfold owns
    iintro ⟨⟨%f0, %hf0, H0⟩, ⟨%f1, %hf1, H1⟩, ⟨%f2, %hf2, H2⟩, ⟨%d3, %f3, -, H3⟩, ⟨%fs0, %hfs0, HS0⟩, ⟨%fs1, %hfs1, HS1⟩, Hk⟩
    obtain rfl := harg2.eq_unread hf0; obtain rfl := harg3.eq_unread hf1; obtain rfl := harg4.eq_unread hf2; obtain rfl := harg6.eq_unread hfs0; obtain rfl := harg7.eq_unread hfs1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    isplitl [HS0]; · iexists _; iexact HS0
    iexists _; iexact HS1

end Cert.KernelIdeal.Attn

end
-- ==== Proof.AttnFrame.lean ====
/-
  The attention region's proof data. After the body at grid point t = 16·a + k (row block a, key tile k) the two
  scratch buffers hold the totals of s·S and of s² over the tiles 0..k of row block a; the output window's buffer is
  stored only at k = 15. `outsAt2` states this by recursion on the point — the first tile of a row block starts
  from zero, every later tile from what the tile before left —, the invariant `PhiS` carries the two scratch buffers
  at those contents from one point to the next, and the body obligation is a case split on k = 0 / 0 < k < 15 / k = 15.
-/
import proofs.«123942_j56169582297517_2_alg».proof.Proof.AttnRunC

set_option maxRecDepth 16384

noncomputable section

namespace Cert.KernelIdeal.Attn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Each input window's current staging buffer holds its block at every point, fetched there or not. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-! ## What each case leaves -/

/-- First key tile: the totals after it (the pieces the run found, read back). -/
def accA (c : Dev nD) (t : Fin cfg2.N) (h0 : t.val % 16 = 0) (h1 : ¬t.val % 16 = 15) : Vec F S1024x512 .f32 :=
  VS2_0.read (Elt F) (VS2_0.writes (Elt F) VS2_0.junk (kernelRun2_A c (grid2.coords t) (ms2_0 t) (hs2_0 t) (ms2_1 t) (hs2_1 t) (ms2_2 t) (hs2_2 t) (ms2_3 t) (hs2_3 t) scM2_0 (Memref.isWhole_whole _) scM2_1 (Memref.isWhole_whole _) ((hcond2_0 t).mpr h0) (fun h => h1 ((hcond2_1 t).mp h)) (iblk2 V c 0 t) (iblk2 V c 1 t) (iblk2 V c 2 t)).2.1)
def ssA (c : Dev nD) (t : Fin cfg2.N) (h0 : t.val % 16 = 0) (h1 : ¬t.val % 16 = 15) : Vec F S1024x1 .f32 :=
  VS2_1.read (Elt F) (VS2_1.writes (Elt F) VS2_1.junk (kernelRun2_A c (grid2.coords t) (ms2_0 t) (hs2_0 t) (ms2_1 t) (hs2_1 t) (ms2_2 t) (hs2_2 t) (ms2_3 t) (hs2_3 t) scM2_0 (Memref.isWhole_whole _) scM2_1 (Memref.isWhole_whole _) ((hcond2_0 t).mpr h0) (fun h => h1 ((hcond2_1 t).mp h)) (iblk2 V c 0 t) (iblk2 V c 1 t) (iblk2 V c 2 t)).2.2.1)
theorem coverA0 (c : Dev nD) (t : Fin cfg2.N) (h0 : t.val % 16 = 0) (h1 : ¬t.val % 16 = 15) (y : S1024x512.Idx) :
    ∃ pc ∈ (kernelRun2_A c (grid2.coords t) (ms2_0 t) (hs2_0 t) (ms2_1 t) (hs2_1 t) (ms2_2 t) (hs2_2 t) (ms2_3 t) (hs2_3 t) scM2_0 (Memref.isWhole_whole _) scM2_1 (Memref.isWhole_whole _) ((hcond2_0 t).mpr h0) (fun h => h1 ((hcond2_1 t).mp h)) (iblk2 V c 0 t) (iblk2 V c 1 t) (iblk2 V c 2 t)).2.1, y ∈ pc.1.set :=
  View.cover_of_tiledL _ S1024x512.size (by sl_kernel_rfl) y
theorem coverA1 (c : Dev nD) (t : Fin cfg2.N) (h0 : t.val % 16 = 0) (h1 : ¬t.val % 16 = 15) (y : S1024x1.Idx) :
    ∃ pc ∈ (kernelRun2_A c (grid2.coords t) (ms2_0 t) (hs2_0 t) (ms2_1 t) (hs2_1 t) (ms2_2 t) (hs2_2 t) (ms2_3 t) (hs2_3 t) scM2_0 (Memref.isWhole_whole _) scM2_1 (Memref.isWhole_whole _) ((hcond2_0 t).mpr h0) (fun h => h1 ((hcond2_1 t).mp h)) (iblk2 V c 0 t) (iblk2 V c 1 t) (iblk2 V c 2 t)).2.2.1, y ∈ pc.1.set :=
  View.cover_of_tiledL _ S1024x1.size (by sl_kernel_rfl) y

/-- A middle key tile, over the totals `xs0`, `xs1` the tile before left. -/
def accB (c : Dev nD) (t : Fin cfg2.N) (h0 : ¬t.val % 16 = 0) (h1 : ¬t.val % 16 = 15) (xs0 : Vec F S1024x512 .f32) (xs1 : Vec F S1024x1 .f32) : Vec F S1024x512 .f32 :=
  VS2_0.read (Elt F) (VS2_0.writes (Elt F) VS2_0.junk (kernelRun2_B c (grid2.coords t) (ms2_0 t) (hs2_0 t) (ms2_1 t) (hs2_1 t) (ms2_2 t) (hs2_2 t) (ms2_3 t) (hs2_3 t) scM2_0 (Memref.isWhole_whole _) scM2_1 (Memref.isWhole_whole _) (fun h => h0 ((hcond2_0 t).mp h)) (fun h => h1 ((hcond2_1 t).mp h)) (iblk2 V c 0 t) (iblk2 V c 1 t) (iblk2 V c 2 t) xs0 xs1).2.1)
def ssB (c : Dev nD) (t : Fin cfg2.N) (h0 : ¬t.val % 16 = 0) (h1 : ¬t.val % 16 = 15) (xs0 : Vec F S1024x512 .f32) (xs1 : Vec F S1024x1 .f32) : Vec F S1024x1 .f32 :=
  VS2_1.read (Elt F) (VS2_1.writes (Elt F) VS2_1.junk (kernelRun2_B c (grid2.coords t) (ms2_0 t) (hs2_0 t) (ms2_1 t) (hs2_1 t) (ms2_2 t) (hs2_2 t) (ms2_3 t) (hs2_3 t) scM2_0 (Memref.isWhole_whole _) scM2_1 (Memref.isWhole_whole _) (fun h => h0 ((hcond2_0 t).mp h)) (fun h => h1 ((hcond2_1 t).mp h)) (iblk2 V c 0 t) (iblk2 V c 1 t) (iblk2 V c 2 t) xs0 xs1).2.2.1)
theorem coverB0 (c : Dev nD) (t : Fin cfg2.N) (h0 : ¬t.val % 16 = 0) (h1 : ¬t.val % 16 = 15) (xs0 : Vec F S1024x512 .f32) (xs1 : Vec F S1024x1 .f32) (y : S1024x512.Idx) :
    ∃ pc ∈ (kernelRun2_B c (grid2.coords t) (ms2_0 t) (hs2_0 t) (ms2_1 t) (hs2_1 t) (ms2_2 t) (hs2_2 t) (ms2_3 t) (hs2_3 t) scM2_0 (Memref.isWhole_whole _) scM2_1 (Memref.isWhole_whole _) (fun h => h0 ((hcond2_0 t).mp h)) (fun h => h1 ((hcond2_1 t).mp h)) (iblk2 V c 0 t) (iblk2 V c 1 t) (iblk2 V c 2 t) xs0 xs1).2.1, y ∈ pc.1.set :=
  View.cover_of_tiledL _ S1024x512.size (by sl_kernel_rfl) y
theorem coverB1 (c : Dev nD) (t : Fin cfg2.N) (h0 : ¬t.val % 16 = 0) (h1 : ¬t.val % 16 = 15) (xs0 : Vec F S1024x512 .f32) (xs1 : Vec F S1024x1 .f32) (y : S1024x1.Idx) :
    ∃ pc ∈ (kernelRun2_B c (grid2.coords t) (ms2_0 t) (hs2_0 t) (ms2_1 t) (hs2_1 t) (ms2_2 t) (hs2_2 t) (ms2_3 t) (hs2_3 t) scM2_0 (Memref.isWhole_whole _) scM2_1 (Memref.isWhole_whole _) (fun h => h0 ((hcond2_0 t).mp h)) (fun h => h1 ((hcond2_1 t).mp h)) (iblk2 V c 0 t) (iblk2 V c 1 t) (iblk2 V c 2 t) xs0 xs1).2.2.1, y ∈ pc.1.set :=
  View.cover_of_tiledL _ S1024x1.size (by sl_kernel_rfl) y

/-- The last key tile, over the totals the tile before left: the totals after it, and the quotient it stores. -/
def accC (c : Dev nD) (t : Fin cfg2.N) (h0 : ¬t.val % 16 = 0) (h1 : t.val % 16 = 15) (xs0 : Vec F S1024x512 .f32) (xs1 : Vec F S1024x1 .f32) : Vec F S1024x512 .f32 :=
  VS2_0.read (Elt F) (VS2_0.writes (Elt F) VS2_0.junk (kernelRun2_C c (grid2.coords t) (ms2_0 t) (hs2_0 t) (ms2_1 t) (hs2_1 t) (ms2_2 t) (hs2_2 t) (ms2_3 t) (hs2_3 t) scM2_0 (Memref.isWhole_whole _) scM2_1 (Memref.isWhole_whole _) (fun h => h0 ((hcond2_0 t).mp h)) ((hcond2_1 t).mpr h1) (iblk2 V c 0 t) (iblk2 V c 1 t) (iblk2 V c 2 t) xs0 xs1).2.1)
def ssC (c : Dev nD) (t : Fin cfg2.N) (h0 : ¬t.val % 16 = 0) (h1 : t.val % 16 = 15) (xs0 : Vec F S1024x512 .f32) (xs1 : Vec F S1024x1 .f32) : Vec F S1024x1 .f32 :=
  VS2_1.read (Elt F) (VS2_1.writes (Elt F) VS2_1.junk (kernelRun2_C c (grid2.coords t) (ms2_0 t) (hs2_0 t) (ms2_1 t) (hs2_1 t) (ms2_2 t) (hs2_2 t) (ms2_3 t) (hs2_3 t) scM2_0 (Memref.isWhole_whole _) scM2_1 (Memref.isWhole_whole _) (fun h => h0 ((hcond2_0 t).mp h)) ((hcond2_1 t).mpr h1) (iblk2 V c 0 t) (iblk2 V c 1 t) (iblk2 V c 2 t) xs0 xs1).2.2.1)
def outC (c : Dev nD) (t : Fin cfg2.N) (h0 : ¬t.val % 16 = 0) (h1 : t.val % 16 = 15) (xs0 : Vec F S1024x512 .f32) (xs1 : Vec F S1024x1 .f32) : Vec F S1024x512 .f32 :=
  VO2_3.read (Elt F) (VO2_3.writes (Elt F) VO2_3.junk (kernelRun2_C c (grid2.coords t) (ms2_0 t) (hs2_0 t) (ms2_1 t) (hs2_1 t) (ms2_2 t) (hs2_2 t) (ms2_3 t) (hs2_3 t) scM2_0 (Memref.isWhole_whole _) scM2_1 (Memref.isWhole_whole _) (fun h => h0 ((hcond2_0 t).mp h)) ((hcond2_1 t).mpr h1) (iblk2 V c 0 t) (iblk2 V c 1 t) (iblk2 V c 2 t) xs0 xs1).1)
theorem coverC0 (c : Dev nD) (t : Fin cfg2.N) (h0 : ¬t.val % 16 = 0) (h1 : t.val % 16 = 15) (xs0 : Vec F S1024x512 .f32) (xs1 : Vec F S1024x1 .f32) (y : S1024x512.Idx) :
    ∃ pc ∈ (kernelRun2_C c (grid2.coords t) (ms2_0 t) (hs2_0 t) (ms2_1 t) (hs2_1 t) (ms2_2 t) (hs2_2 t) (ms2_3 t) (hs2_3 t) scM2_0 (Memref.isWhole_whole _) scM2_1 (Memref.isWhole_whole _) (fun h => h0 ((hcond2_0 t).mp h)) ((hcond2_1 t).mpr h1) (iblk2 V c 0 t) (iblk2 V c 1 t) (iblk2 V c 2 t) xs0 xs1).2.1, y ∈ pc.1.set :=
  View.cover_of_tiledL _ S1024x512.size (by sl_kernel_rfl) y
theorem coverC1 (c : Dev nD) (t : Fin cfg2.N) (h0 : ¬t.val % 16 = 0) (h1 : t.val % 16 = 15) (xs0 : Vec F S1024x512 .f32) (xs1 : Vec F S1024x1 .f32) (y : S1024x1.Idx) :
    ∃ pc ∈ (kernelRun2_C c (grid2.coords t) (ms2_0 t) (hs2_0 t) (ms2_1 t) (hs2_1 t) (ms2_2 t) (hs2_2 t) (ms2_3 t) (hs2_3 t) scM2_0 (Memref.isWhole_whole _) scM2_1 (Memref.isWhole_whole _) (fun h => h0 ((hcond2_0 t).mp h)) ((hcond2_1 t).mpr h1) (iblk2 V c 0 t) (iblk2 V c 1 t) (iblk2 V c 2 t) xs0 xs1).2.2.1, y ∈ pc.1.set :=
  View.cover_of_tiledL _ S1024x1.size (by sl_kernel_rfl) y
theorem coverC3 (c : Dev nD) (t : Fin cfg2.N) (h0 : ¬t.val % 16 = 0) (h1 : t.val % 16 = 15) (xs0 : Vec F S1024x512 .f32) (xs1 : Vec F S1024x1 .f32) (y : S1024x512.Idx) :
    ∃ pc ∈ (kernelRun2_C c (grid2.coords t) (ms2_0 t) (hs2_0 t) (ms2_1 t) (hs2_1 t) (ms2_2 t) (hs2_2 t) (ms2_3 t) (hs2_3 t) scM2_0 (Memref.isWhole_whole _) scM2_1 (Memref.isWhole_whole _) (fun h => h0 ((hcond2_0 t).mp h)) ((hcond2_1 t).mpr h1) (iblk2 V c 0 t) (iblk2 V c 1 t) (iblk2 V c 2 t) xs0 xs1).1, y ∈ pc.1.set :=
  View.cover_of_tiledL _ S1024x512.size (by sl_kernel_rfl) y

/-- The output window's buffer where the body stores nothing: a placeholder nothing consults. -/
def idleOut : Vec F S1024x512 .f32 := VO2_3.read (Elt F) VO2_3.junk

/-! ## Point by point -/

/-- (the output window's buffer, the total of s·S, the total of s²) after the body at position `n`. -/
def outsAt2 (c : Dev nD) : (n : ℕ) → n < cfg2.N → Vec F S1024x512 .f32 × Vec F S1024x512 .f32 × Vec F S1024x1 .f32
  | 0, hn => (idleOut, accA V c ⟨0, hn⟩ (Nat.zero_mod _) (show ¬0 % 16 = 15 by decide), ssA V c ⟨0, hn⟩ (Nat.zero_mod _) (show ¬0 % 16 = 15 by decide))
  | n + 1, hn =>
    if h0 : (n + 1) % 16 = 0 then
      (idleOut, accA V c ⟨n + 1, hn⟩ h0 (show ¬(n + 1) % 16 = 15 by omega), ssA V c ⟨n + 1, hn⟩ h0 (show ¬(n + 1) % 16 = 15 by omega))
    else
      if h1 : (n + 1) % 16 = 15 then
        (outC V c ⟨n + 1, hn⟩ h0 h1 (outsAt2 c n (Nat.lt_of_succ_lt hn)).2.1 (outsAt2 c n (Nat.lt_of_succ_lt hn)).2.2,
         accC V c ⟨n + 1, hn⟩ h0 h1 (outsAt2 c n (Nat.lt_of_succ_lt hn)).2.1 (outsAt2 c n (Nat.lt_of_succ_lt hn)).2.2,
         ssC V c ⟨n + 1, hn⟩ h0 h1 (outsAt2 c n (Nat.lt_of_succ_lt hn)).2.1 (outsAt2 c n (Nat.lt_of_succ_lt hn)).2.2)
      else
        (idleOut,
         accB V c ⟨n + 1, hn⟩ h0 h1 (outsAt2 c n (Nat.lt_of_succ_lt hn)).2.1 (outsAt2 c n (Nat.lt_of_succ_lt hn)).2.2,
         ssB V c ⟨n + 1, hn⟩ h0 h1 (outsAt2 c n (Nat.lt_of_succ_lt hn)).2.1 (outsAt2 c n (Nat.lt_of_succ_lt hn)).2.2)

/-- At a first key tile. -/
theorem outsAt2_A (c : Dev nD) (t : Fin cfg2.N) (h0 : t.val % 16 = 0) (h1 : ¬t.val % 16 = 15) :
    outsAt2 V c t.val t.isLt = (idleOut, accA V c t h0 h1, ssA V c t h0 h1) := by
  obtain ⟨n, hn⟩ := t
  cases n with
  | zero => exact rfl
  | succ n => exact (dif_pos h0).trans rfl

/-- At a middle key tile: over what the point before left. -/
theorem outsAt2_B (c : Dev nD) (t : Fin cfg2.N) (h0 : ¬t.val % 16 = 0) (h1 : ¬t.val % 16 = 15) :
    outsAt2 V c t.val t.isLt = (idleOut,
      accB V c t h0 h1 (outsAt2 V c (t.val - 1) (Nat.lt_of_le_of_lt (Nat.sub_le _ _) t.isLt)).2.1 (outsAt2 V c (t.val - 1) (Nat.lt_of_le_of_lt (Nat.sub_le _ _) t.isLt)).2.2,
      ssB V c t h0 h1 (outsAt2 V c (t.val - 1) (Nat.lt_of_le_of_lt (Nat.sub_le _ _) t.isLt)).2.1 (outsAt2 V c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans ((dif_neg h1).trans rfl)

/-- At a last key tile: over what the point before left. -/
theorem outsAt2_C (c : Dev nD) (t : Fin cfg2.N) (h0 : ¬t.val % 16 = 0) (h1 : t.val % 16 = 15) :
    outsAt2 V c t.val t.isLt = (outC V c t h0 h1 (outsAt2 V c (t.val - 1) (Nat.lt_of_le_of_lt (Nat.sub_le _ _) t.isLt)).2.1 (outsAt2 V c (t.val - 1) (Nat.lt_of_le_of_lt (Nat.sub_le _ _) t.isLt)).2.2,
      accC V c t h0 h1 (outsAt2 V c (t.val - 1) (Nat.lt_of_le_of_lt (Nat.sub_le _ _) t.isLt)).2.1 (outsAt2 V c (t.val - 1) (Nat.lt_of_le_of_lt (Nat.sub_le _ _) t.isLt)).2.2,
      ssC V c t h0 h1 (outsAt2 V c (t.val - 1) (Nat.lt_of_le_of_lt (Nat.sub_le _ _) t.isLt)).2.1 (outsAt2 V c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans ((dif_pos h1).trans rfl)

/-! ## The invariant between points -/

/-- Before the first point the rest state as handed over; afterwards the two scratch buffers at the totals the point
    before left, beside the other regions' staging buffers and the generator register. -/
def PhiS (c : Dev nD) : (n : ℕ) → n ≤ cfg2.N → sProp 𝕄
  | 0, _ => Pipeline.ΦA spec2 c
  | n + 1, hn => iprop(stgRest (F := F) c ∗ owns (c : Thread nD τ) scM2_0 fullShare ((outsAt2 V c n hn).2.1) ∗ owns (c : Thread nD τ) scM2_1 fullShare ((outsAt2 V c n hn).2.2) ∗ (∃ r, prngReg c r))

theorem PhiS_zero (c : Dev nD) (n : ℕ) (h : n ≤ cfg2.N) (hz : n = 0) : PhiS V c n h = Pipeline.ΦA spec2 c := by
  subst hz; rfl
theorem PhiS_succ (c : Dev nD) (n : ℕ) (hn : n < cfg2.N) :
    PhiS V c (n + 1) hn = iprop(stgRest (F := F) c ∗ owns (c : Thread nD τ) scM2_0 fullShare ((outsAt2 V c n hn).2.1) ∗ owns (c : Thread nD τ) scM2_1 fullShare ((outsAt2 V c n hn).2.2) ∗ (∃ r, prngReg c r)) := rfl
theorem PhiS_pos (c : Dev nD) (n : ℕ) (h : n ≤ cfg2.N) (hz : n ≠ 0) :
    PhiS V c n h = iprop(stgRest (F := F) c ∗ owns (c : Thread nD τ) scM2_0 fullShare ((outsAt2 V c (n - 1) (by omega)).2.1) ∗ owns (c : Thread nD τ) scM2_1 fullShare ((outsAt2 V c (n - 1) (by omega)).2.2) ∗ (∃ r, prngReg c r)) := by
  cases n with
  | zero => exact absurd rfl hz
  | succ n => rfl

/-! ## The proof data -/

/-- The arrays as the region finds them; after the body each input's buffer at its block and the output's at
    `outsAt2`'s first component; the invariant `PhiS`; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => (outsAt2 V c t.val t.isLt).1
  Φ t := PhiS V c t.val (Nat.le_of_lt_succ t.isLt)
  q _ := fullShare
  owed _ := 0

theorem A_eq2 (c : Dev nD) (w : Fin cfg2.W) : (dat2 V c).A w = V c (Pipeline.arrRef spec2 w) := by
  dsimp only [dat2]
theorem PhiS_castSucc (c : Dev nD) (t : Fin cfg2.N) :
    (dat2 V c).Φ t.castSucc = PhiS V c t.val (Nat.le_of_lt t.isLt) := by
  dsimp only [dat2]; simp only [Fin.coe_castSucc]
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = (outsAt2 V c t.val t.isLt).1 := by dsimp only [dat2]
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d

/-- An input window's buffer is handed back at its block. -/
theorem leaves2_0 (c : Dev nD) (t : Fin cfg2.N) : (dat2 V c).leavesExact 0 t = owns (c : Thread nD τ) (ms2_0 t) fullShare (iblk2 V c 0 t) := by
  have h : (dat2 V c).leavesExact 0 t = owns (c : Thread nD τ) (ms2_0 t) fullShare ((dat2 V c).after 0 t) := by
    unfold Dat.leavesExact; rw [liveAt2_0 t]
  rw [h, after2_0]
theorem leaves2_1 (c : Dev nD) (t : Fin cfg2.N) : (dat2 V c).leavesExact 1 t = owns (c : Thread nD τ) (ms2_1 t) fullShare (iblk2 V c 1 t) := by
  have h : (dat2 V c).leavesExact 1 t = owns (c : Thread nD τ) (ms2_1 t) fullShare ((dat2 V c).after 1 t) := by
    unfold Dat.leavesExact; rw [liveAt2_1 t]
  rw [h, after2_1]
theorem leaves2_2 (c : Dev nD) (t : Fin cfg2.N) : (dat2 V c).leavesExact 2 t = owns (c : Thread nD τ) (ms2_2 t) fullShare (iblk2 V c 2 t) := by
  have h : (dat2 V c).leavesExact 2 t = owns (c : Thread nD τ) (ms2_2 t) fullShare ((dat2 V c).after 2 t) := by
    unfold Dat.leavesExact; rw [liveAt2_2 t]
  rw [h, after2_2]
/-- At a last key tile the output window's buffer is handed back at what the point stored. -/
theorem leaves2_3_last (c : Dev nD) (t : Fin cfg2.N) (h1 : cond2_1 (grid2.coords t)) :
    (dat2 V c).leavesExact 3 t = owns (c : Thread nD τ) (ms2_3 t) fullShare ((outsAt2 V c t.val t.isLt).1) := by
  have h : (dat2 V c).leavesExact 3 t = owns (c : Thread nD τ) (ms2_3 t) fullShare ((dat2 V c).after 3 t) := by
    unfold Dat.leavesExact; rw [liveAt2_3 t h1]
  rw [h, after2_3]

/-! ## The body obligation -/

def bodyPre2 (c : Dev nD) (t : Fin cfg2.N) : sProp 𝕄 :=
  iprop((dat2 V c).Φ t.castSucc ∗ (dat2 V c).owesAt () t.castSucc
    ∗ (∃ d, owns (c : Thread nD τ) (ms2_0 t) fullShare ((dat2 V c).before 0 t d))
    ∗ (∃ d, owns (c : Thread nD τ) (ms2_1 t) fullShare ((dat2 V c).before 1 t d))
    ∗ (∃ d, owns (c : Thread nD τ) (ms2_2 t) fullShare ((dat2 V c).before 2 t d))
    ∗ (∃ d, owns (c : Thread nD τ) (ms2_3 t) fullShare ((dat2 V c).before 3 t d)))

def bodyPost2 (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t
    ∗ (dat2 V c).leavesExact 3 t)

set_option maxHeartbeats 8000000 in
/-- The body at any point: the inputs' buffers hold their blocks; the point's key tile says which case it is in; the
    invariant hands the body the two scratch totals at what the point before left (at anything before the very first
    point) and takes them back at this point's. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2]
  rw [show (dat2 V c).owesAt () t.succ = (dat2 V c).owesAt () t.castSucc from rfl]
  rw [show (dat2 V c).Φ t.succ = PhiS V c (t.val + 1) t.isLt from rfl, PhiS_succ]
  have hN : t.val < 128 := lt_of_lt_of_eq t.isLt (show cfg2.N = 128 from N_2)
  by_cases h0 : t.val % 16 = 0
  · have h1 : ¬t.val % 16 = 15 := by omega
    rw [leaves2_0, leaves2_1, leaves2_2]
    rw [Dat.leavesExact_idle (dat2 V c) 3 t (idleAt2_3 t (fun h => h1 ((hcond2_1 t).mp h))) (noFlush2_3 t (fun h => h1 ((hcond2_1 t).mp h)))]
    rw [outsAt2_A V c t h0 h1]
    unfold accA ssA; (try dsimp only)
    by_cases hz : t.val = 0
    · rw [PhiS_castSucc V c t, PhiS_zero V c _ _ hz]
      iintro ⟨HΦ, Ho, ⟨%d0, H0⟩, ⟨%d1, H1⟩, ⟨%d2, H2⟩, ⟨%d3, H3⟩⟩
      ihave HΦ' := (PhiA_split (F := F) c) $$ HΦ
      icases HΦ' with ⟨HR, HS0, HS1, Hg⟩
      iapply ((kernelRun2_A c (grid2.coords t) (ms2_0 t) (hs2_0 t) (ms2_1 t) (hs2_1 t) (ms2_2 t) (hs2_2 t) (ms2_3 t) (hs2_3 t) scM2_0 (Memref.isWhole_whole _) scM2_1 (Memref.isWhole_whole _) ((hcond2_0 t).mpr h0) (fun h => h1 ((hcond2_1 t).mp h)) (iblk2 V c 0 t) (iblk2 V c 1 t) (iblk2 V c 2 t)).2.2.2 _ Set.univ _)
      isplitl [H0]; · iexact H0
      isplitl [H1]; · iexact H1
      isplitl [H2]; · iexact H2
      isplitl [H3]; · iexact H3
      isplitl [HS0]; · iexact HS0
      isplitl [HS1]; · iexact HS1
      iintro ⟨H0, H1, H2, H3, ⟨%es0, HS0⟩, ⟨%es1, HS1⟩⟩
      isplitl [HR HS0 HS1 Hg]
      · isplitl [HR]; · iexact HR
        isplitl [HS0]
        · unfold owns; iexists _; isplitr
          swap; · iexact HS0
          ipureintro; exact View.read_writes_of_cover _ _ _ _ _ (coverA0 V c t h0 h1)
        isplitl [HS1]
        · unfold owns; iexists _; isplitr
          swap; · iexact HS1
          ipureintro; exact View.read_writes_of_cover _ _ _ _ _ (coverA1 V c t h0 h1)
        iexact Hg
      isplitl [Ho]; · iexact Ho
      isplitl [H0]; · iexact H0
      isplitl [H1]; · iexact H1
      isplitl [H2]; · iexact H2
      iexists _; iexact H3
    · rw [PhiS_castSucc V c t, PhiS_pos V c _ _ hz]
      iintro ⟨⟨HR, HS0, HS1, Hg⟩, Ho, ⟨%d0, H0⟩, ⟨%d1, H1⟩, ⟨%d2, H2⟩, ⟨%d3, H3⟩⟩
      iapply ((kernelRun2_A c (grid2.coords t) (ms2_0 t) (hs2_0 t) (ms2_1 t) (hs2_1 t) (ms2_2 t) (hs2_2 t) (ms2_3 t) (hs2_3 t) scM2_0 (Memref.isWhole_whole _) scM2_1 (Memref.isWhole_whole _) ((hcond2_0 t).mpr h0) (fun h => h1 ((hcond2_1 t).mp h)) (iblk2 V c 0 t) (iblk2 V c 1 t) (iblk2 V c 2 t)).2.2.2 _ Set.univ _)
      isplitl [H0]; · iexact H0
      isplitl [H1]; · iexact H1
      isplitl [H2]; · iexact H2
      isplitl [H3]; · iexact H3
      isplitl [HS0]; · iexists _; iexact HS0
      isplitl [HS1]; · iexists _; iexact HS1
      iintro ⟨H0, H1, H2, H3, ⟨%es0, HS0⟩, ⟨%es1, HS1⟩⟩
      isplitl [HR HS0 HS1 Hg]
      · isplitl [HR]; · iexact HR
        isplitl [HS0]
        · unfold owns; iexists _; isplitr
          swap; · iexact HS0
          ipureintro; exact View.read_writes_of_cover _ _ _ _ _ (coverA0 V c t h0 h1)
        isplitl [HS1]
        · unfold owns; iexists _; isplitr
          swap; · iexact HS1
          ipureintro; exact View.read_writes_of_cover _ _ _ _ _ (coverA1 V c t h0 h1)
        iexact Hg
      isplitl [Ho]; · iexact Ho
      isplitl [H0]; · iexact H0
      isplitl [H1]; · iexact H1
      isplitl [H2]; · iexact H2
      iexists _; iexact H3
  · have hz : t.val ≠ 0 := fun h => h0 (by rw [h])
    by_cases h1 : t.val % 16 = 15
    · rw [leaves2_0, leaves2_1, leaves2_2]
      rw [leaves2_3_last V c t ((hcond2_1 t).mpr h1)]
      rw [outsAt2_C V c t h0 h1]
      unfold outC accC ssC; (try dsimp only)
      rw [PhiS_castSucc V c t, PhiS_pos V c _ _ hz]
      iintro ⟨⟨HR, HS0, HS1, Hg⟩, Ho, ⟨%d0, H0⟩, ⟨%d1, H1⟩, ⟨%d2, H2⟩, ⟨%d3, H3⟩⟩
      iapply ((kernelRun2_C c (grid2.coords t) (ms2_0 t) (hs2_0 t) (ms2_1 t) (hs2_1 t) (ms2_2 t) (hs2_2 t) (ms2_3 t) (hs2_3 t) scM2_0 (Memref.isWhole_whole _) scM2_1 (Memref.isWhole_whole _) (fun h => h0 ((hcond2_0 t).mp h)) ((hcond2_1 t).mpr h1) (iblk2 V c 0 t) (iblk2 V c 1 t) (iblk2 V c 2 t) _ _).2.2.2 Set.univ _)
      isplitl [H0]; · iexact H0
      isplitl [H1]; · iexact H1
      isplitl [H2]; · iexact H2
      isplitl [H3]; · iexists _; iexact H3
      isplitl [HS0]; · iexact HS0
      isplitl [HS1]; · iexact HS1
      iintro ⟨H0, H1, H2, ⟨%e3, H3⟩, ⟨%es0, HS0⟩, ⟨%es1, HS1⟩⟩
      isplitl [HR HS0 HS1 Hg]
      · isplitl [HR]; · iexact HR
        isplitl [HS0]
        · unfold owns; iexists _; isplitr
          swap; · iexact HS0
          ipureintro; exact View.read_writes_of_cover _ _ _ _ _ (coverC0 V c t h0 h1 _ _)
        isplitl [HS1]
        · unfold owns; iexists _; isplitr
          swap; · iexact HS1
          ipureintro; exact View.read_writes_of_cover _ _ _ _ _ (coverC1 V c t h0 h1 _ _)
        iexact Hg
      isplitl [Ho]; · iexact Ho
      isplitl [H0]; · iexact H0
      isplitl [H1]; · iexact H1
      isplitl [H2]; · iexact H2
      unfold owns; iexists _; isplitr
      swap; · iexact H3
      ipureintro; exact View.read_writes_of_cover _ _ _ _ _ (coverC3 V c t h0 h1 _ _)
    · rw [leaves2_0, leaves2_1, leaves2_2]
      rw [Dat.leavesExact_idle (dat2 V c) 3 t (idleAt2_3 t (fun h => h1 ((hcond2_1 t).mp h))) (noFlush2_3 t (fun h => h1 ((hcond2_1 t).mp h)))]
      rw [outsAt2_B V c t h0 h1]
      unfold accB ssB; (try dsimp only)
      rw [PhiS_castSucc V c t, PhiS_pos V c _ _ hz]
      iintro ⟨⟨HR, HS0, HS1, Hg⟩, Ho, ⟨%d0, H0⟩, ⟨%d1, H1⟩, ⟨%d2, H2⟩, ⟨%d3, H3⟩⟩
      iapply ((kernelRun2_B c (grid2.coords t) (ms2_0 t) (hs2_0 t) (ms2_1 t) (hs2_1 t) (ms2_2 t) (hs2_2 t) (ms2_3 t) (hs2_3 t) scM2_0 (Memref.isWhole_whole _) scM2_1 (Memref.isWhole_whole _) (fun h => h0 ((hcond2_0 t).mp h)) (fun h => h1 ((hcond2_1 t).mp h)) (iblk2 V c 0 t) (iblk2 V c 1 t) (iblk2 V c 2 t) _ _).2.2.2 _ Set.univ _)
      isplitl [H0]; · iexact H0
      isplitl [H1]; · iexact H1
      isplitl [H2]; · iexact H2
      isplitl [H3]; · iexact H3
      isplitl [HS0]; · iexact HS0
      isplitl [HS1]; · iexact HS1
      iintro ⟨H0, H1, H2, H3, ⟨%es0, HS0⟩, ⟨%es1, HS1⟩⟩
      isplitl [HR HS0 HS1 Hg]
      · isplitl [HR]; · iexact HR
        isplitl [HS0]
        · unfold owns; iexists _; isplitr
          swap; · iexact HS0
          ipureintro; exact View.read_writes_of_cover _ _ _ _ _ (coverB0 V c t h0 h1 _ _)
        isplitl [HS1]
        · unfold owns; iexists _; isplitr
          swap; · iexact HS1
          ipureintro; exact View.read_writes_of_cover _ _ _ _ _ (coverB1 V c t h0 h1 _ _)
        iexact Hg
      isplitl [Ho]; · iexact Ho
      isplitl [H0]; · iexact H0
      isplitl [H1]; · iexact H1
      isplitl [H2]; · iexact H2
      iexists _; iexact H3

/-- The library's body obligation, at every point. -/
theorem body_obligation2 (c : Dev nD) : BodyObligation (dat2 (F := F) V c) (defs₀ (F := F)) Variants.none () Set.univ := fun t => by
  rw [bigSep_W2, bigSep_W2]
  exact sound_body2 V c t

/-- What the region is handed is the invariant before the first point. -/
theorem hin2 (c : Dev nD) : Pipeline.ΦA spec2 c ⊢ (dat2 V c).Φ 0 := by
  rw [show (dat2 V c).Φ 0 = PhiS V c 0 (Nat.zero_le _) from rfl, PhiS_zero V c 0 _ rfl]
  try exact Idealize.SL.BI.Entails.refl _

/-- After the last point the invariant gives the rest state back: the totals' names are forgotten. -/
theorem hout2 (c : Dev nD) : (dat2 V c).Φ (Fin.last cfg2.N) ⊢ Pipeline.ΦA spec2 c := by
  rw [show (dat2 V c).Φ (Fin.last cfg2.N) = PhiS V c (Fin.last cfg2.N).val (Nat.le_of_lt_succ (Fin.last cfg2.N).isLt) from rfl,
    PhiS_pos V c _ _ (by rw [Fin.val_last]; have : cfg2.N = 128 := N_2; omega)]
  iintro ⟨HR, HS0, HS1, Hg⟩
  iapply (PhiA_join (F := F) c)
  isplitl [HR]; · iexact HR
  isplitl [HS0]; · iexists _; iexact HS0
  isplitl [HS1]; · iexists _; iexact HS1
  iexact Hg

end Cert.KernelIdeal.Attn

end
-- ==== Proof.Run.lean ====
/-
  The whole run of @main: projection region, projection region, one host conversion, attention region. The buffer
  contents at every boundary are a fold from the launch memory — a region's arrays at what its write-backs leave, a host
  stretch's result by the operations' composed term —; each region is a segment over the thread state "every unscoped
  buffer at the boundary's contents, the generator register at some state, nothing owed"; the launch over the four
  segments ends with every unscoped buffer at the last boundary's contents.
-/
import proofs.«123942_j56169582297517_2_alg».proof.Proof.ProjFrame
import proofs.«123942_j56169582297517_2_alg».proof.Proof.AttnFrame

set_option maxRecDepth 16384

noncomputable section

namespace Cert.KernelIdeal.Run

open Cert.KernelIdeal Cert.KernelIdeal.Gen Cert.KernelIdeal
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- Core `c`'s buffers at launch: the first projection region is entered from them. -/
abbrev W0 : Dev nD → Valuation τ sig (Elt F) := fun c b => (s₀ m ρ).mem ((c : Dev nD), b)
abbrev V0 : (c : Dev nD) → (b : Ref sig .tc) → Buf (Elt F) ((c : Thread nD τ).loc b) := fun c b => W0 m ρ c b
/-- After the first projection region: its arrays at what the pipeline leaves, every other buffer as entered. -/
def W1 (c : Dev nD) : Valuation τ sig (Elt F) :=
  Pipeline.withArrays spec0 c (W0 m ρ c) fun w => (Proj.dat0 (V0 m ρ) c).arrAt w cfg0.N
theorem W1_arr (c : Dev nD) (w : Fin cfg0.W) :
    W1 m ρ c (Proc.devRef .tc (Pipeline.arrRef spec0 w)) = (Proj.dat0 (V0 m ρ) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m ρ c (Proc.devRef .tc b) = W0 m ρ c (Proc.devRef .tc b) := by
  unfold W1; exact Pipeline.withArrays_of_ne spec0 c _ _ b hb
abbrev V1 : (c : Dev nD) → (b : Ref sig .tc) → Buf (Elt F) ((c : Thread nD τ).loc b) := fun c b => W1 m ρ c b
theorem hF0 (c : Dev nD) (w : Fin cfg0.W) : (Proj.dat0 (V0 m ρ) c).arrAt w cfg0.N = V1 m ρ c (Pipeline.arrRef spec0 w) :=
  (W1_arr m ρ c w).symm
theorem hrest0 (c : Dev nD) : ∀ b, b ∉ Finset.univ.image (Pipeline.arrRef spec0) → V1 m ρ c b = V0 m ρ c b :=
  fun b hb => W1_of_ne m ρ c b fun w e => hb (Finset.mem_image.mpr ⟨w, Finset.mem_univ _, e⟩)
/-- After the second projection region. -/
def W2 (c : Dev nD) : Valuation τ sig (Elt F) :=
  Pipeline.withArrays spec1 c (W1 m ρ c) fun w => (Proj.dat1 (V1 m ρ) c).arrAt w cfg1.N
theorem W2_arr (c : Dev nD) (w : Fin cfg1.W) :
    W2 m ρ c (Proc.devRef .tc (Pipeline.arrRef spec1 w)) = (Proj.dat1 (V1 m ρ) c).arrAt w cfg1.N := by
  unfold W2; exact Pipeline.withArrays_arr spec1 launch1.win.arr_inj c _ _ w
theorem W2_of_ne (c : Dev nD) (b : Ref sig .tc) (hb : ∀ w, Pipeline.arrRef spec1 w ≠ b) :
    W2 m ρ c (Proc.devRef .tc b) = W1 m ρ c (Proc.devRef .tc b) := by
  unfold W2; exact Pipeline.withArrays_of_ne spec1 c _ _ b hb
abbrev V2 : (c : Dev nD) → (b : Ref sig .tc) → Buf (Elt F) ((c : Thread nD τ).loc b) := fun c b => W2 m ρ c b
theorem hF1 (c : Dev nD) (w : Fin cfg1.W) : (Proj.dat1 (V1 m ρ) c).arrAt w cfg1.N = V2 m ρ c (Pipeline.arrRef spec1 w) :=
  (W2_arr m ρ c w).symm
theorem hrest1 (c : Dev nD) : ∀ b, b ∉ Finset.univ.image (Pipeline.arrRef spec1) → V2 m ρ c b = V1 m ρ c b :=
  fun b hb => W2_of_ne m ρ c b fun w e => hb (Finset.mem_image.mpr ⟨w, Finset.mem_univ _, e⟩)
/-- After the host conversion of the second argument (the attention region's entry). -/
abbrev W3 : Dev nD → Valuation τ sig (Elt F) := fun c => StableHlo.after hostOps2 (W2 m ρ c)
abbrev V3 : (c : Dev nD) → (b : Ref sig .tc) → Buf (Elt F) ((c : Thread nD τ).loc b) := fun c b => W3 m ρ c b
/-- After the attention region. -/
def W4 (c : Dev nD) : Valuation τ sig (Elt F) :=
  Pipeline.withArrays spec2 c (W3 m ρ c) fun w => (Attn.dat2 (V3 m ρ) c).arrAt w cfg2.N
theorem W4_arr (c : Dev nD) (w : Fin cfg2.W) :
    W4 m ρ c (Proc.devRef .tc (Pipeline.arrRef spec2 w)) = (Attn.dat2 (V3 m ρ) c).arrAt w cfg2.N := by
  unfold W4; exact Pipeline.withArrays_arr spec2 launch2.win.arr_inj c _ _ w
theorem W4_of_ne (c : Dev nD) (b : Ref sig .tc) (hb : ∀ w, Pipeline.arrRef spec2 w ≠ b) :
    W4 m ρ c (Proc.devRef .tc b) = W3 m ρ c (Proc.devRef .tc b) := by
  unfold W4; exact Pipeline.withArrays_of_ne spec2 c _ _ b hb
abbrev V4 : (c : Dev nD) → (b : Ref sig .tc) → Buf (Elt F) ((c : Thread nD τ).loc b) := fun c b => W4 m ρ c b
theorem hF2 (c : Dev nD) (w : Fin cfg2.W) : (Attn.dat2 (V3 m ρ) c).arrAt w cfg2.N = V4 m ρ c (Pipeline.arrRef spec2 w) :=
  (W4_arr m ρ c w).symm
theorem hrest2 (c : Dev nD) : ∀ b, b ∉ Finset.univ.image (Pipeline.arrRef spec2) → V4 m ρ c b = V3 m ρ c b :=
  fun b hb => W4_of_ne m ρ c b fun w e => hb (Finset.mem_image.mpr ⟨w, Finset.mem_univ _, e⟩)

/-! ## The arguments end as launched -/

theorem W1_main_arg0 (c : Dev nD) : W1 m ρ c (Proc.devRef .tc main_arg0) = m ((c : Thread nD τ).loc main_arg0) :=
  (W1_arr m ρ c 0).trans (((Proj.dat0 (V0 m ρ) c).arrAt_in 0 rfl _).trans (Proj.A_eq0 (V0 m ρ) c 0))
theorem W1_main_arg1 (c : Dev nD) : W1 m ρ c (Proc.devRef .tc main_arg1) = m ((c : Thread nD τ).loc main_arg1) :=
  W1_of_ne m ρ c main_arg1 (by decide)
theorem W1_main_arg2 (c : Dev nD) : W1 m ρ c (Proc.devRef .tc main_arg2) = m ((c : Thread nD τ).loc main_arg2) :=
  (W1_arr m ρ c 1).trans (((Proj.dat0 (V0 m ρ) c).arrAt_in 1 rfl _).trans (Proj.A_eq0 (V0 m ρ) c 1))
theorem W1_main_arg3 (c : Dev nD) : W1 m ρ c (Proc.devRef .tc main_arg3) = m ((c : Thread nD τ).loc main_arg3) :=
  (W1_arr m ρ c 2).trans (((Proj.dat0 (V0 m ρ) c).arrAt_in 2 rfl _).trans (Proj.A_eq0 (V0 m ρ) c 2))
theorem W2_main_arg0 (c : Dev nD) : W2 m ρ c (Proc.devRef .tc main_arg0) = m ((c : Thread nD τ).loc main_arg0) :=
  (W2_of_ne m ρ c main_arg0 (by decide)).trans (W1_main_arg0 m ρ c)
theorem W2_main_arg1 (c : Dev nD) : W2 m ρ c (Proc.devRef .tc main_arg1) = m ((c : Thread nD τ).loc main_arg1) :=
  ((W2_arr m ρ c 0).trans (((Proj.dat1 (V1 m ρ) c).arrAt_in 0 rfl _).trans (Proj.A_eq1 (V1 m ρ) c 0))).trans (W1_main_arg1 m ρ c)
theorem W2_main_arg2 (c : Dev nD) : W2 m ρ c (Proc.devRef .tc main_arg2) = m ((c : Thread nD τ).loc main_arg2) :=
  ((W2_arr m ρ c 1).trans (((Proj.dat1 (V1 m ρ) c).arrAt_in 1 rfl _).trans (Proj.A_eq1 (V1 m ρ) c 1))).trans (W1_main_arg2 m ρ c)
theorem W2_main_arg3 (c : Dev nD) : W2 m ρ c (Proc.devRef .tc main_arg3) = m ((c : Thread nD τ).loc main_arg3) :=
  ((W2_arr m ρ c 2).trans (((Proj.dat1 (V1 m ρ) c).arrAt_in 2 rfl _).trans (Proj.A_eq1 (V1 m ρ) c 2))).trans (W1_main_arg3 m ρ c)
/-- The host conversion writes only its own result buffer. -/
theorem W3_of_ne_v2 (c : Dev nD) (b : Ref sig .tc) (hb : b ≠ main_v2) : W3 m ρ c (Proc.devRef .tc b) = W2 m ρ c (Proc.devRef .tc b) :=
  StableHlo.after_of_forall_not_mem (b := Proc.devRef .tc b) _ _ (List.forall_iff_forall_mem.mp (by
    simp only [hostOps2, List.Forall, StableHlo.unary_writes, Finset.mem_singleton]
    exact StableHlo.devRef_ne_of_ne hb))
theorem W4_main_arg0 (c : Dev nD) : W4 m ρ c (Proc.devRef .tc main_arg0) = m ((c : Thread nD τ).loc main_arg0) :=
  (W4_of_ne m ρ c main_arg0 (by decide)).trans ((W3_of_ne_v2 m ρ c main_arg0 (by decide)).trans (W2_main_arg0 m ρ c))
theorem W4_main_arg1 (c : Dev nD) : W4 m ρ c (Proc.devRef .tc main_arg1) = m ((c : Thread nD τ).loc main_arg1) :=
  (W4_of_ne m ρ c main_arg1 (by decide)).trans ((W3_of_ne_v2 m ρ c main_arg1 (by decide)).trans (W2_main_arg1 m ρ c))
theorem W4_main_arg2 (c : Dev nD) : W4 m ρ c (Proc.devRef .tc main_arg2) = m ((c : Thread nD τ).loc main_arg2) :=
  (W4_of_ne m ρ c main_arg2 (by decide)).trans ((W3_of_ne_v2 m ρ c main_arg2 (by decide)).trans (W2_main_arg2 m ρ c))
theorem W4_main_arg3 (c : Dev nD) : W4 m ρ c (Proc.devRef .tc main_arg3) = m ((c : Thread nD τ).loc main_arg3) :=
  (W4_of_ne m ρ c main_arg3 (by decide)).trans ((W3_of_ne_v2 m ρ c main_arg3 (by decide)).trans (W2_main_arg3 m ρ c))

/-! ## The proof data family and the thread state -/

abbrev adm : (p : Fin 3) → (pcfgs (F := F) p).Adm := fun p => (cfgs p).toPCfg_adm
/-- Every pipeline's proof data, each at its region's entry contents. -/
def pdats : (p : Fin 3) → (c : Dev nD) → Dat τ (Elt F) Unit ℕ (UR sig nD τ) ℕ (Pipeline.pin (pcfgs (F := F)) adm p) c
  | ⟨0, _⟩ => fun c => Proj.dat0 (V0 m ρ) c
  | ⟨1, _⟩ => fun c => Proj.dat1 (V1 m ρ) c
  | ⟨2, _⟩ => fun c => Attn.dat2 (V3 m ρ) c
abbrev 𝒱₀ : Variants := Variants.none
abbrev L : GSem nD τ sig → Finset Unit := fun _ => ∅
abbrev lv : GSem nD τ sig → Unit → ℕ := fun _ _ => 0
/-- What rides beside the buffers through every segment: the generator register at some state and the core's `owes` at nothing. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem convert_fresh : (hostOps2 : List (HloOp τ sig (Elt F))).Forall fun op => op.fresh = ∅ := by
  simp only [List.Forall]; repeat' constructor
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W4 m ρ c) ∗ ∃ r, prngReg c r)

/-! ## The regions as segments -/

set_option backward.isDefEq.respectTransparency.types false in
/-- Region 0 over the thread state: entered with every unscoped buffer at `W0`, left with them at `W1`: its
    arrays split out of the unscoped buffers and put back at what the pipeline leaves; the generator register into the
    region's rest state and out; nothing owed; no semaphore of the kernel's own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (Proj.body_obligation0 (V0 m ρ) c).loose
  hwaits := Pipeline.hwaits_of_owed_zero _ _ _ _ L lv 0 fun _ _ => rfl
  pre c := iprop(StableHlo.held (c : Thread nD τ) (Pipeline.ucRefs τ sig) (W0 m ρ c) ∗ R c)
  post c := iprop(StableHlo.held (c : Thread nD τ) (Pipeline.ucRefs τ sig) (W1 m ρ c) ∗ R c)
  X c := iprop(∃ r, prngReg c r)
  Y c := iprop(∃ r, prngReg c r)
  Z c := Pipeline.unscopedRest (Ix := Unit) (Name := ℕ) (U := UR sig nD τ) (Lvl := ℕ) spec0 c (V0 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V0 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V0 m ρ c) (V1 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered with every unscoped buffer at `W1`, left with them at `W2`: its
    arrays split out of the unscoped buffers and put back at what the pipeline leaves; the generator register into the
    region's rest state and out; nothing owed; no semaphore of the kernel's own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (Proj.body_obligation1 (V1 m ρ) c).loose
  hwaits := Pipeline.hwaits_of_owed_zero _ _ _ _ L lv 1 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec1 c (V1 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V1 m ρ c) (V2 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 over the thread state: entered with every unscoped buffer at `W3`, left with them at `W4`: its
    arrays split out of the unscoped buffers and put back at what the pipeline leaves; the generator register into the
    region's rest state and out; nothing owed; no semaphore of the kernel's own. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (Attn.body_obligation2 (V3 m ρ) c).loose
  hwaits := Pipeline.hwaits_of_owed_zero _ _ _ _ L lv 2 fun _ _ => rfl
  pre c := iprop(StableHlo.held (c : Thread nD τ) (Pipeline.ucRefs τ sig) (W3 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec2 c (V3 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (Attn.hin2 (V3 m ρ) c); unfold Pipeline.ΦA
    iintro ⟨Hp, -, Hr⟩
    isplitl [Hr]; · iexact Hr
    iexact Hp
  hout c := by
    rw [Pipeline.ownSems0_none]; refine BIBase.Entails.trans (Attn.hout2 (V3 m ρ) c) ?_; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V3 m ρ c) (V4 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

abbrev segs : List (Pipeline.Seg (pcfgs (F := F)) adm (pdats m ρ) () defs₀ 𝒱₀ L lv) :=
  [ .region (reg0 m ρ),
    .region (reg1 m ρ),
    .host (hseg hostOps2 hostOps2_sub convert_fresh (W2 m ρ)),
    .region (reg2 m ρ) ]
theorem main_run (c : Dev nD) : main (F := F) c = Pipeline.Seg.run (segs m ρ) := (main_chain c).trans (by chain_rfl)

set_option backward.isDefEq.respectTransparency.types false in
/-- From any memory with zero counters every weakly fair execution of @main terminates, nothing faulting, and every
    final state holds every unscoped buffer at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W4 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c => h c)

/-- The frame: the run ends with every argument array as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨(h c _ (mem_uc main_arg0 (by decide))).trans (W4_main_arg0 m ρ c),
     (h c _ (mem_uc main_arg1 (by decide))).trans (W4_main_arg1 m ρ c),
     (h c _ (mem_uc main_arg2 (by decide))).trans (W4_main_arg2 m ρ c),
     (h c _ (mem_uc main_arg3 (by decide))).trans (W4_main_arg3 m ρ c)⟩) (run_all m ρ)

/-- The same run, with the result array named: what the attention region's write-backs leave. -/
theorem run_result : θ_run defs (onTc (τ := τ) (main (F := F))) ⟨m, fun _ => 0, ρ⟩ (fun r => ∀ c : Dev nD,
      r.2.mem ((c.tc : Thread nD τ).loc main_v3) = (Attn.dat2 (V3 m ρ) c).arrAt 3 cfg2.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨(h c _ (mem_uc main_v3 (by decide))).trans (W4_arr m ρ c 3),
     (h c _ (mem_uc main_arg0 (by decide))).trans (W4_main_arg0 m ρ c),
     (h c _ (mem_uc main_arg1 (by decide))).trans (W4_main_arg1 m ρ c),
     (h c _ (mem_uc main_arg2 (by decide))).trans (W4_main_arg2 m ρ c),
     (h c _ (mem_uc main_arg3 (by decide))).trans (W4_main_arg3 m ρ c)⟩) (run_all m ρ)

end Cert.KernelIdeal.Run

end
-- ==== Proof.Word.ProjFrame.lean ====
/- The class-A halves of the two projection kernels (custom calls 0 and 1 of @main), at any float model.
   Both regions run the same body on a grid of 8 points: a [1024,512] row block of the activations, the whole
   [128,512] weight matrix and the whole [128] bias come in, and the [1024,128] row block
   `round(round x · (round w)ᵀ + b)` goes out at every point. Per region, at a parameter `V` (the core's buffer
   contents when the region is entered): each window's block at a point, the output buffer after the body as a
   function of the three input blocks, the body's triple, the pipeline's proof data and the body obligation. -/
import proofs.«123942_j56169582297517_2_alg».proof.Proof.Gen.Kernel.Launch
import proofs.«123942_j56169582297517_2_alg».proof.Proof.Gen.Kernel.Skeleton
import proofs.«123942_j56169582297517_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of 1024 × 128 indices: the structural check recurses once per coordinate
set_option maxRecDepth 16384

noncomputable section

namespace Cert.Kernel.Proj

open Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the core's buffer contents when a region is entered: the parameter both regions' halves are stated at
variable (V : (c : Dev nD) → (b : Ref sig .tc) → Buf (Elt F) ((c : Thread nD τ).loc b))

/-! # Region 0: the projection kernel of custom call 0, at the entry contents `V` -/

/-! ## The windows' blocks -/

/-- Window `w`'s block at grid point `t`: the part of its array, as the region finds it, that the window's
    index map selects there. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The row block of the activations (window 0): its staging buffer holds the block of the point at every point,
    for any proof data whose array is `V`'s and whose body leaves the block where it was. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The weight matrix (window 1) is one block, the whole array, brought in at the first point only; at a later
    point the block index has not moved, so the buffer still holds the block of the point. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- The bias vector (window 2), likewise one block brought in once. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: each buffer is read, and the output written, whole -/

abbrev rX0 : Rect S1024x512 := Rect.unit (s := S1024x512) ![0, 0] S1024x512.size inb_S1024x512_S1024x512_0_0
abbrev rW0 : Rect S128x512 := Rect.unit (s := S128x512) ![0, 0] S128x512.size inb_S128x512_S128x512_0_0
abbrev rB0 : Rect S128 := Rect.unit (s := S128) ![0] S128.size inb_S128_S128_0
abbrev rO0 : Rect S1024x128 := Rect.unit (s := S1024x128) ![0, 0] S1024x128.size inb_S1024x128_S1024x128_0_0

/-! ## What the body leaves in the output window's buffer -/

/-- The output buffer after the body, as a function of the three input blocks: the one store, of the rounded
    `x · wᵀ + b` of the three loads, laid over the whole buffer. -/
def out0_3 (x0 : Vec F S1024x512 .f32) (x1 : Vec F S128x512 .f32) (x2 : Vec F S128 .f32) : Vec F S1024x128 .bf16 :=
  View.canon [⟨rO0, k0_pay1 (View.ld x0 rX0) (View.ld x1 rW0) (View.ld x2 rB0)⟩]

/-- The one store's rectangle is the whole buffer, so it covers every index. -/
theorem cover0_3 (p0 : Vec F S1024x128 .bf16) (y : S1024x128.Idx) :
    ∃ pc ∈ ([⟨rO0, p0⟩] : List (View.Piece (Elt F) S1024x128 .bf16)), y ∈ pc.1.set :=
  View.cover_of_tiled [⟨rO0, p0⟩] S1024x128.size (by rfl) y

/-! ## The body's triple -/

set_option maxHeartbeats 1000000 in
/-- The kernel body on whole staging memrefs — the three inputs' at read contents `x0 x1 x2`, the output's at
    anything — runs to the continuation holding the inputs' as they were and the output's at `out0_3 x0 x1 x2`.
    The body also loads the output buffer before storing into it; nothing depends on that value. -/
theorem sound_kernel0 (c : Dev nD) (E : Set ℕ) (i : grid0.Coords)
    (arg1 : Memref sig .tc .vmem S1024x512 .f32) (harg1 : arg1.IsWhole) (arg2 : Memref sig .tc .vmem S128x512 .f32) (harg2 : arg2.IsWhole)
    (arg3 : Memref sig .tc .vmem S128 .f32) (harg3 : arg3.IsWhole) (arg4 : Memref sig .tc .vmem S1024x128 .bf16) (harg4 : arg4.IsWhole)
    (x0 : Vec F S1024x512 .f32) (x1 : Vec F S128x512 .f32) (x2 : Vec F S128 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out0_3 x0 x1 x2)) -∗ K ⟨⟩))
      ⊢ wp frame (wpE (defs₀ (F := F)) Variants.none c none) E (cc0_kernel i arg1 harg1 arg2 harg2 arg3 harg3 arg4 harg4) K := by
  simp only [cc0_kernel_eq_skeleton]; unfold cc0_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0_3 _)

/-! ## The pipeline's proof data -/

/-- The proof data of pipeline 0 on core `c`: the arrays as the region finds them; after the body at point `t`
    each input's buffer still at its block and the output's at `out0_3` of the three input blocks; the invariant
    is the rest of the core's state, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

/-- The proof data's arrays are the region-entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = out0_3 (iblk0 V c 0 t) (iblk0 V c 1 t) (iblk0 V c 2 t) := by dsimp only [dat0]

/-- Each input's current staging buffer holds its block at every point. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-! ## The body obligation, at a generic point -/

/-- What the body is called with at point `t`: the invariant, what the core owes, and the four windows' current
    staging memrefs, each at what the pipeline left in it. -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

/-- The body at any point: the inputs' memrefs hold their blocks, so the body's triple applies; the invariant and
    what the core owes pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation0 (c : Dev nD) : BodyObligation (dat0 (F := F) V c) (defs₀ (F := F)) Variants.none () Set.univ := fun t => by
  rw [bigSep_W0, bigSep_W0]
  exact sound_body0 V c t

/-! # Region 1: the projection kernel of custom call 1, at the entry contents `V` -/

/-! ## The windows' blocks -/

/-- Window `w`'s block at grid point `t`: the part of its array, as the region finds it, that the window's
    index map selects there. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The row block of the activations (window 0): its staging buffer holds the block of the point at every point,
    for any proof data whose array is `V`'s and whose body leaves the block where it was. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- The weight matrix (window 1) is one block, the whole array, brought in at the first point only; at a later
    point the block index has not moved, so the buffer still holds the block of the point. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- The bias vector (window 2), likewise one block brought in once. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses: each buffer is read, and the output written, whole -/

abbrev rX1 : Rect S1024x512 := Rect.unit (s := S1024x512) ![0, 0] S1024x512.size inb_S1024x512_S1024x512_0_0
abbrev rW1 : Rect S128x512 := Rect.unit (s := S128x512) ![0, 0] S128x512.size inb_S128x512_S128x512_0_0
abbrev rB1 : Rect S128 := Rect.unit (s := S128) ![0] S128.size inb_S128_S128_0
abbrev rO1 : Rect S1024x128 := Rect.unit (s := S1024x128) ![0, 0] S1024x128.size inb_S1024x128_S1024x128_0_0

/-! ## What the body leaves in the output window's buffer -/

/-- The output buffer after the body, as a function of the three input blocks: the one store, of the rounded
    `x · wᵀ + b` of the three loads, laid over the whole buffer. -/
def out1_3 (x0 : Vec F S1024x512 .f32) (x1 : Vec F S128x512 .f32) (x2 : Vec F S128 .f32) : Vec F S1024x128 .bf16 :=
  View.canon [⟨rO1, k1_pay1 (View.ld x0 rX1) (View.ld x1 rW1) (View.ld x2 rB1)⟩]

/-- The one store's rectangle is the whole buffer, so it covers every index. -/
theorem cover1_3 (p0 : Vec F S1024x128 .bf16) (y : S1024x128.Idx) :
    ∃ pc ∈ ([⟨rO1, p0⟩] : List (View.Piece (Elt F) S1024x128 .bf16)), y ∈ pc.1.set :=
  View.cover_of_tiled [⟨rO1, p0⟩] S1024x128.size (by rfl) y

/-! ## The body's triple -/

set_option maxHeartbeats 1000000 in
/-- The kernel body on whole staging memrefs — the three inputs' at read contents `x0 x1 x2`, the output's at
    anything — runs to the continuation holding the inputs' as they were and the output's at `out1_3 x0 x1 x2`.
    The body also loads the output buffer before storing into it; nothing depends on that value. -/
theorem sound_kernel1 (c : Dev nD) (E : Set ℕ) (i : grid1.Coords)
    (arg1 : Memref sig .tc .vmem S1024x512 .f32) (harg1 : arg1.IsWhole) (arg2 : Memref sig .tc .vmem S128x512 .f32) (harg2 : arg2.IsWhole)
    (arg3 : Memref sig .tc .vmem S128 .f32) (harg3 : arg3.IsWhole) (arg4 : Memref sig .tc .vmem S1024x128 .bf16) (harg4 : arg4.IsWhole)
    (x0 : Vec F S1024x512 .f32) (x1 : Vec F S128x512 .f32) (x2 : Vec F S128 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out1_3 x0 x1 x2)) -∗ K ⟨⟩))
      ⊢ wp frame (wpE (defs₀ (F := F)) Variants.none c none) E (cc1_kernel i arg1 harg1 arg2 harg2 arg3 harg3 arg4 harg4) K := by
  simp only [cc1_kernel_eq_skeleton]; unfold cc1_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover1_3 _)

/-! ## The pipeline's proof data -/

/-- The proof data of pipeline 1 on core `c`: the arrays as the region finds them; after the body at point `t`
    each input's buffer still at its block and the output's at `out1_3` of the three input blocks; the invariant
    is the rest of the core's state, untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 (iblk1 V c 0 t) (iblk1 V c 1 t) (iblk1 V c 2 t)
  Φ _ := Pipeline.ΦA spec1 c
  q _ := fullShare
  owed _ := 0

/-- The proof data's arrays are the region-entry contents. -/
theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = out1_3 (iblk1 V c 0 t) (iblk1 V c 1 t) (iblk1 V c 2 t) := by dsimp only [dat1]

/-- Each input's current staging buffer holds its block at every point. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-! ## The body obligation, at a generic point -/

/-- What the body is called with at point `t`: the invariant, what the core owes, and the four windows' current
    staging memrefs, each at what the pipeline left in it. -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

/-- The body at any point: the inputs' memrefs hold their blocks, so the body's triple applies; the invariant and
    what the core owes pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3]
  iintro ⟨HΦ, Ho, ⟨%d0, H0⟩, ⟨%d1, H1⟩, ⟨%d2, H2⟩, ⟨%d3, H3⟩⟩
  iapply (sound_kernel1 c Set.univ _ _ _ _ _ _ _ _ _ (iblk1 V c 0 t) (iblk1 V c 1 t) (iblk1 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.Kernel.Proj

end
-- ==== Proof.Word.AttnShared.lean ====
/-
  The third region: the tiled attention kernel on a grid of 8 row blocks × 16 key tiles. What its three
  control cases share: the two conditions of the body (first key tile: the running totals are reset; last key
  tile: the quotient is stored) in closed form over the grid; where the output window is idle (every tile but
  the last of a row block: nothing is stored into it and nothing written back); the staging and scratch memrefs;
  and the region's rest state split into the other regions' staging buffers, the two scratch buffers (the
  running total of s·S and the running total of s²) and the generator register.
-/
import proofs.«123942_j56169582297517_2_alg».proof.Proof.Gen.Kernel.Launch
import proofs.«123942_j56169582297517_2_alg».proof.Proof.Gen.Kernel.Skeleton
import proofs.«123942_j56169582297517_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Attn

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's two conditions, over the grid -/

/-- "This is the first key tile of the row block": the condition under which the running totals are reset. -/
abbrev cond2_0 (i : grid2.Coords) : Prop := (Scalar.cmpi .ne (Scalar.extui (Scalar.cmpi .eq (BitVec.ofNat 32 (i 1).val) 0#32)) 0#32) = 1#1
/-- It holds at the points ≡ 0 (mod 16). -/
theorem hcond2_0 : ∀ t : Fin cfg2.N, cond2_0 (grid2.coords t) ↔ t.val % 16 = 0 :=
  (by decide +kernel : ∀ t : Fin grid2.N, cond2_0 (grid2.coords t) ↔ t.val % 16 = 0)

/-- "This is the last key tile of the row block": the condition under which the quotient is stored. -/
abbrev cond2_1 (i : grid2.Coords) : Prop := k2_cond2 i = 1#1
/-- It holds at the points ≡ 15 (mod 16). -/
theorem hcond2_1 : ∀ t : Fin cfg2.N, cond2_1 (grid2.coords t) ↔ t.val % 16 = 15 :=
  (by decide +kernel : ∀ t : Fin grid2.N, cond2_1 (grid2.coords t) ↔ t.val % 16 = 15)

/-! ## Where the windows are idle -/

theorem liveAt2_0 : ∀ t : Fin cfg2.N, cfg2.idle 0 (grid2.coords t) = false := by decide +kernel
theorem liveAt2_1 : ∀ t : Fin cfg2.N, cfg2.idle 1 (grid2.coords t) = false := by decide +kernel
theorem liveAt2_2 : ∀ t : Fin cfg2.N, cfg2.idle 2 (grid2.coords t) = false := by decide +kernel
/-- Off the last key tile nothing is stored into the output window, and its block is not written back. -/
theorem idleAt2_3 : ∀ t : Fin cfg2.N, ¬cond2_1 (grid2.coords t) → cfg2.idle 3 (grid2.coords t) = true := by decide +kernel
theorem noFlush2_3 : ∀ t : Fin cfg2.N, ¬cond2_1 (grid2.coords t) → (cfg2.win 3).flush t = false := by decide +kernel
/-- At the last key tile the output window is stored whole. -/
theorem liveAt2_3 : ∀ t : Fin cfg2.N, cond2_1 (grid2.coords t) → cfg2.idle 3 (grid2.coords t) = false := by decide +kernel

/-! ## The memrefs the body is called with -/

/-- One staging buffer of the output window, through which its contents are stated. -/
abbrev VO2_3 : View sig .tc .vmem S1024x512 .f32 := (Memref.whole cc2_stg3_0 : Memref sig .tc .vmem S1024x512 .f32).view
abbrev ms2_0 (t : Fin cfg2.N) : Memref sig .tc .vmem S1024x128 .bf16 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S8192x128 .bf16 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S8192x512 .bf16 := win2_2.stage (cfg2.slots t 2)
abbrev hs2_2 (t : Fin cfg2.N) : (ms2_2 t).IsWhole := hstage2_2 ((cfg2.slots t 2).cast nbuf2_2)
abbrev ms2_3 (t : Fin cfg2.N) : Memref sig .tc .vmem S1024x512 .f32 := win2_3.stage (cfg2.slots t 3)
abbrev hs2_3 (t : Fin cfg2.N) : (ms2_3 t).IsWhole := hstage2_3 ((cfg2.slots t 3).cast nbuf2_3)
/-- The running total of s·S (a [1024, 512] scratch) and the running total of s² (a [1024, 1] scratch). -/
abbrev scM2_0 : Memref sig .tc .vmem S1024x512 .f32 := Memref.whole cc2_scratch0
abbrev scM2_1 : Memref sig .tc .vmem S1024x1 .f32 := Memref.whole cc2_scratch1
abbrev VS2_0 : View sig .tc .vmem S1024x512 .f32 := scM2_0.view
abbrev VS2_1 : View sig .tc .vmem S1024x1 .f32 := scM2_1.view

/-! ## The region's rest state -/

/-- The staging buffers of the two projection regions, each whole at some contents: this region never touches them. -/
def stgRest (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg3_1), ((c : Thread nD τ).loc cc1_stg3_1) ↦{fullShare} f))

/-- The rest state the region is handed opens into those buffers, the two scratch buffers at some contents, and the
    generator register at some state. -/
theorem PhiA_split (c : Dev nD) :
    (Pipeline.ΦA spec2 c : sProp 𝕄) ⊢ iprop(stgRest (F := F) c ∗ (∃ d, owns (c : Thread nD τ) scM2_0 fullShare d) ∗ (∃ d, owns (c : Thread nD τ) scM2_1 fullShare d) ∗ (∃ r, prngReg c r)) := by
  unfold Pipeline.ΦA stgRest; rw [scopedRest2_eq]; simp only [scM2_0, scM2_1, owns_whole]
  iintro ⟨⟨B0, B1, B2, B3, B4, B5, B6, B7, B8, B9, B10, B11, S0, S1⟩, Hg⟩
  isplitl [B0 B1 B2 B3 B4 B5 B6 B7 B8 B9 B10 B11]
  · isplitl [B0]; · iexact B0
    isplitl [B1]; · iexact B1
    isplitl [B2]; · iexact B2
    isplitl [B3]; · iexact B3
    isplitl [B4]; · iexact B4
    isplitl [B5]; · iexact B5
    isplitl [B6]; · iexact B6
    isplitl [B7]; · iexact B7
    isplitl [B8]; · iexact B8
    isplitl [B9]; · iexact B9
    isplitl [B10]; · iexact B10
    iexact B11
  isplitl [S0]; · iexact S0
  isplitl [S1]; · iexact S1
  iexact Hg

/-- And closes back from them. -/
theorem PhiA_join (c : Dev nD) :
    iprop(stgRest (F := F) c ∗ (∃ d, owns (c : Thread nD τ) scM2_0 fullShare d) ∗ (∃ d, owns (c : Thread nD τ) scM2_1 fullShare d) ∗ (∃ r, prngReg c r)) ⊢ (Pipeline.ΦA spec2 c : sProp 𝕄) := by
  unfold Pipeline.ΦA stgRest; rw [scopedRest2_eq]; simp only [scM2_0, scM2_1, owns_whole]
  iintro ⟨⟨B0, B1, B2, B3, B4, B5, B6, B7, B8, B9, B10, B11⟩, S0, S1, Hg⟩
  isplitr [Hg]
  · isplitl [B0]; · iexact B0
    isplitl [B1]; · iexact B1
    isplitl [B2]; · iexact B2
    isplitl [B3]; · iexact B3
    isplitl [B4]; · iexact B4
    isplitl [B5]; · iexact B5
    isplitl [B6]; · iexact B6
    isplitl [B7]; · iexact B7
    isplitl [B8]; · iexact B8
    isplitl [B9]; · iexact B9
    isplitl [B10]; · iexact B10
    isplitl [B11]; · iexact B11
    isplitl [S0]; · iexact S0
    iexact S1
  iexact Hg

end Cert.Kernel.Attn

end
-- ==== Proof.Word.AttnRunA.lean ====
/-
  The attention kernel's body at the FIRST key tile of a row block (the totals are reset to zero, then this tile is added; nothing is stored into the output window): its triple, run by the symbolic executor over the body's skeleton, with
  the pieces each buffer ends with as the witness the run finds.
-/
import proofs.«123942_j56169582297517_2_alg».proof.Proof.Word.AttnShared

set_option maxRecDepth 16384

noncomputable section

namespace Cert.Kernel.Attn

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- On whole staging memrefs — the query block, the resident keys and the resident values at their contents, the output window's buffer handed back untouched, the two scratch totals at anything —
    the body runs to the continuation holding the inputs as they were and each buffer it stored into with its pieces written. -/
noncomputable def kernelRun2_A (c : Dev nD) (i : grid2.Coords) (arg2 : Memref sig .tc .vmem S1024x128 .bf16) (harg2 : arg2.IsWhole) (arg3 : Memref sig .tc .vmem S8192x128 .bf16) (harg3 : arg3.IsWhole) (arg4 : Memref sig .tc .vmem S8192x512 .bf16) (harg4 : arg4.IsWhole) (arg5 : Memref sig .tc .vmem S1024x512 .f32) (harg5 : arg5.IsWhole) (arg6 : Memref sig .tc .vmem S1024x512 .f32) (harg6 : arg6.IsWhole) (arg7 : Memref sig .tc .vmem S1024x1 .f32) (harg7 : arg7.IsWhole) (hc0 : cond2_0 i) (hc1 : ¬cond2_1 i)
    (x0 : Vec F S1024x128 .bf16) (x1 : Vec F S8192x128 .bf16) (x2 : Vec F S8192x512 .bf16) :
    Σ' (L3 : List (View.Piece (Elt F) S1024x512 .f32)) (LS0 : List (View.Piece (Elt F) S1024x512 .f32)), { LS1 : List (View.Piece (Elt F) S1024x1 .f32) //
      ∀ (xi3 : Vec F S1024x512 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ (∃ d, owns (c : Thread nD τ) arg6 fullShare d) ∗ (∃ d, owns (c : Thread nD τ) arg7 fullShare d)
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS0) ∗ (∃ f, arg7.view.loc (c : Thread nD τ) ↦[arg7.view.set]{fullShare} arg7.view.writes (Elt F) f LS1)) -∗ K ⟨⟩))
          ⊢ wp frame (wpE (defs₀ (F := F)) Variants.none c none) E (cc2_kernel i arg2 harg2 arg3 harg3 arg4 harg4 arg5 harg5 arg6 harg6 arg7 harg7) K } := by
  refine ⟨[], ?_, ?_, fun xi3 E K => ?run⟩
  case run =>
    simp only [cc2_kernel_eq_skeleton]; unfold cc2_kernel_skel
    simp only [k2_part1_eq_skeleton]
    unfold owns
    iintro ⟨⟨%f0, %hf0, H0⟩, ⟨%f1, %hf1, H1⟩, ⟨%f2, %hf2, H2⟩, ⟨%f3, %hf3, H3⟩, ⟨%ds0, %fs0, -, HS0⟩, ⟨%ds1, %fs1, -, HS1⟩, Hk⟩
    obtain rfl := harg2.eq_unread hf0; obtain rfl := harg3.eq_unread hf1; obtain rfl := harg4.eq_unread hf2; obtain rfl := harg5.eq_unread hf3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [HS0]; · iexists _; iexact HS0
    iexists _; iexact HS1

end Cert.Kernel.Attn

end
-- ==== Proof.Word.AttnRunB.lean ====
/-
  The attention kernel's body at a MIDDLE key tile of a row block (this tile is added onto the totals the tile before left; nothing is stored into the output window): its triple, run by the symbolic executor over the body's skeleton, with
  the pieces each buffer ends with as the witness the run finds.
-/
import proofs.«123942_j56169582297517_2_alg».proof.Proof.Word.AttnRunA

set_option maxRecDepth 16384

noncomputable section

namespace Cert.Kernel.Attn

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- On whole staging memrefs — the query block, the resident keys and the resident values at their contents, the output window's buffer handed back untouched, the two scratch totals at what the tile before left —
    the body runs to the continuation holding the inputs as they were and each buffer it stored into with its pieces written. -/
noncomputable def kernelRun2_B (c : Dev nD) (i : grid2.Coords) (arg2 : Memref sig .tc .vmem S1024x128 .bf16) (harg2 : arg2.IsWhole) (arg3 : Memref sig .tc .vmem S8192x128 .bf16) (harg3 : arg3.IsWhole) (arg4 : Memref sig .tc .vmem S8192x512 .bf16) (harg4 : arg4.IsWhole) (arg5 : Memref sig .tc .vmem S1024x512 .f32) (harg5 : arg5.IsWhole) (arg6 : Memref sig .tc .vmem S1024x512 .f32) (harg6 : arg6.IsWhole) (arg7 : Memref sig .tc .vmem S1024x1 .f32) (harg7 : arg7.IsWhole) (hc0 : ¬cond2_0 i) (hc1 : ¬cond2_1 i)
    (x0 : Vec F S1024x128 .bf16) (x1 : Vec F S8192x128 .bf16) (x2 : Vec F S8192x512 .bf16) (xs0 : Vec F S1024x512 .f32) (xs1 : Vec F S1024x1 .f32) :
    Σ' (L3 : List (View.Piece (Elt F) S1024x512 .f32)) (LS0 : List (View.Piece (Elt F) S1024x512 .f32)), { LS1 : List (View.Piece (Elt F) S1024x1 .f32) //
      ∀ (xi3 : Vec F S1024x512 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ owns (c : Thread nD τ) arg6 fullShare xs0 ∗ owns (c : Thread nD τ) arg7 fullShare xs1
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS0) ∗ (∃ f, arg7.view.loc (c : Thread nD τ) ↦[arg7.view.set]{fullShare} arg7.view.writes (Elt F) f LS1)) -∗ K ⟨⟩))
          ⊢ wp frame (wpE (defs₀ (F := F)) Variants.none c none) E (cc2_kernel i arg2 harg2 arg3 harg3 arg4 harg4 arg5 harg5 arg6 harg6 arg7 harg7) K } := by
  refine ⟨[], ?_, ?_, fun xi3 E K => ?run⟩
  case run =>
    simp only [cc2_kernel_eq_skeleton]; unfold cc2_kernel_skel
    simp only [k2_part1_eq_skeleton]
    unfold owns
    iintro ⟨⟨%f0, %hf0, H0⟩, ⟨%f1, %hf1, H1⟩, ⟨%f2, %hf2, H2⟩, ⟨%f3, %hf3, H3⟩, ⟨%fs0, %hfs0, HS0⟩, ⟨%fs1, %hfs1, HS1⟩, Hk⟩
    obtain rfl := harg2.eq_unread hf0; obtain rfl := harg3.eq_unread hf1; obtain rfl := harg4.eq_unread hf2; obtain rfl := harg5.eq_unread hf3; obtain rfl := harg6.eq_unread hfs0; obtain rfl := harg7.eq_unread hfs1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [HS0]; · iexists _; iexact HS0
    iexists _; iexact HS1

end Cert.Kernel.Attn

end
-- ==== Proof.Word.AttnRunC.lean ====
/-
  The attention kernel's body at the LAST key tile of a row block (this tile is added onto the totals the tile before left, and the total of s·S divided by max(sqrt(total of s²), ε) is stored whole into the output window): its triple, run by the symbolic executor over the body's skeleton, with
  the pieces each buffer ends with as the witness the run finds.
-/
import proofs.«123942_j56169582297517_2_alg».proof.Proof.Word.AttnRunB

set_option maxRecDepth 16384

noncomputable section

namespace Cert.Kernel.Attn

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- On whole staging memrefs — the query block, the resident keys and the resident values at their contents, the output window's buffer at anything, the two scratch totals at what the tile before left —
    the body runs to the continuation holding the inputs as they were and each buffer it stored into with its pieces written. -/
noncomputable def kernelRun2_C (c : Dev nD) (i : grid2.Coords) (arg2 : Memref sig .tc .vmem S1024x128 .bf16) (harg2 : arg2.IsWhole) (arg3 : Memref sig .tc .vmem S8192x128 .bf16) (harg3 : arg3.IsWhole) (arg4 : Memref sig .tc .vmem S8192x512 .bf16) (harg4 : arg4.IsWhole) (arg5 : Memref sig .tc .vmem S1024x512 .f32) (harg5 : arg5.IsWhole) (arg6 : Memref sig .tc .vmem S1024x512 .f32) (harg6 : arg6.IsWhole) (arg7 : Memref sig .tc .vmem S1024x1 .f32) (harg7 : arg7.IsWhole) (hc0 : ¬cond2_0 i) (hc1 : cond2_1 i)
    (x0 : Vec F S1024x128 .bf16) (x1 : Vec F S8192x128 .bf16) (x2 : Vec F S8192x512 .bf16) (xs0 : Vec F S1024x512 .f32) (xs1 : Vec F S1024x1 .f32) :
    Σ' (L3 : List (View.Piece (Elt F) S1024x512 .f32)) (LS0 : List (View.Piece (Elt F) S1024x512 .f32)), { LS1 : List (View.Piece (Elt F) S1024x1 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ owns (c : Thread nD τ) arg6 fullShare xs0 ∗ owns (c : Thread nD τ) arg7 fullShare xs1
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f LS0) ∗ (∃ f, arg7.view.loc (c : Thread nD τ) ↦[arg7.view.set]{fullShare} arg7.view.writes (Elt F) f LS1)) -∗ K ⟨⟩))
          ⊢ wp frame (wpE (defs₀ (F := F)) Variants.none c none) E (cc2_kernel i arg2 harg2 arg3 harg3 arg4 harg4 arg5 harg5 arg6 harg6 arg7 harg7) K } := by
  refine ⟨?_, ?_, ?_, fun E K => ?run⟩
  case run =>
    simp only [cc2_kernel_eq_skeleton]; unfold cc2_kernel_skel
    simp only [k2_part1_eq_skeleton]
    unfold owns
    iintro ⟨⟨%f0, %hf0, H0⟩, ⟨%f1, %hf1, H1⟩, ⟨%f2, %hf2, H2⟩, ⟨%d3, %f3, -, H3⟩, ⟨%fs0, %hfs0, HS0⟩, ⟨%fs1, %hfs1, HS1⟩, Hk⟩
    obtain rfl := harg2.eq_unread hf0; obtain rfl := harg3.eq_unread hf1; obtain rfl := harg4.eq_unread hf2; obtain rfl := harg6.eq_unread hfs0; obtain rfl := harg7.eq_unread hfs1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    isplitl [HS0]; · iexists _; iexact HS0
    iexists _; iexact HS1

end Cert.Kernel.Attn

end
-- ==== Proof.Word.AttnFrame.lean ====
/-
  The attention region's proof data. After the body at grid point t = 16·a + k (row block a, key tile k) the two
  scratch buffers hold the totals of s·S and of s² over the tiles 0..k of row block a; the output window's buffer is
  stored only at k = 15. `outsAt2` states this by recursion on the point — the first tile of a row block starts
  from zero, every later tile from what the tile before left —, the invariant `PhiS` carries the two scratch buffers
  at those contents from one point to the next, and the body obligation is a case split on k = 0 / 0 < k < 15 / k = 15.
-/
import proofs.«123942_j56169582297517_2_alg».proof.Proof.Word.AttnRunC

set_option maxRecDepth 16384

noncomputable section

namespace Cert.Kernel.Attn

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Each input window's current staging buffer holds its block at every point, fetched there or not. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-! ## What each case leaves -/

/-- First key tile: the totals after it (the pieces the run found, read back). -/
def accA (c : Dev nD) (t : Fin cfg2.N) (h0 : t.val % 16 = 0) (h1 : ¬t.val % 16 = 15) : Vec F S1024x512 .f32 :=
  VS2_0.read (Elt F) (VS2_0.writes (Elt F) VS2_0.junk (kernelRun2_A c (grid2.coords t) (ms2_0 t) (hs2_0 t) (ms2_1 t) (hs2_1 t) (ms2_2 t) (hs2_2 t) (ms2_3 t) (hs2_3 t) scM2_0 (Memref.isWhole_whole _) scM2_1 (Memref.isWhole_whole _) ((hcond2_0 t).mpr h0) (fun h => h1 ((hcond2_1 t).mp h)) (iblk2 V c 0 t) (iblk2 V c 1 t) (iblk2 V c 2 t)).2.1)
def ssA (c : Dev nD) (t : Fin cfg2.N) (h0 : t.val % 16 = 0) (h1 : ¬t.val % 16 = 15) : Vec F S1024x1 .f32 :=
  VS2_1.read (Elt F) (VS2_1.writes (Elt F) VS2_1.junk (kernelRun2_A c (grid2.coords t) (ms2_0 t) (hs2_0 t) (ms2_1 t) (hs2_1 t) (ms2_2 t) (hs2_2 t) (ms2_3 t) (hs2_3 t) scM2_0 (Memref.isWhole_whole _) scM2_1 (Memref.isWhole_whole _) ((hcond2_0 t).mpr h0) (fun h => h1 ((hcond2_1 t).mp h)) (iblk2 V c 0 t) (iblk2 V c 1 t) (iblk2 V c 2 t)).2.2.1)
theorem coverA0 (c : Dev nD) (t : Fin cfg2.N) (h0 : t.val % 16 = 0) (h1 : ¬t.val % 16 = 15) (y : S1024x512.Idx) :
    ∃ pc ∈ (kernelRun2_A c (grid2.coords t) (ms2_0 t) (hs2_0 t) (ms2_1 t) (hs2_1 t) (ms2_2 t) (hs2_2 t) (ms2_3 t) (hs2_3 t) scM2_0 (Memref.isWhole_whole _) scM2_1 (Memref.isWhole_whole _) ((hcond2_0 t).mpr h0) (fun h => h1 ((hcond2_1 t).mp h)) (iblk2 V c 0 t) (iblk2 V c 1 t) (iblk2 V c 2 t)).2.1, y ∈ pc.1.set :=
  View.cover_of_tiledL _ S1024x512.size (by sl_kernel_rfl) y
theorem coverA1 (c : Dev nD) (t : Fin cfg2.N) (h0 : t.val % 16 = 0) (h1 : ¬t.val % 16 = 15) (y : S1024x1.Idx) :
    ∃ pc ∈ (kernelRun2_A c (grid2.coords t) (ms2_0 t) (hs2_0 t) (ms2_1 t) (hs2_1 t) (ms2_2 t) (hs2_2 t) (ms2_3 t) (hs2_3 t) scM2_0 (Memref.isWhole_whole _) scM2_1 (Memref.isWhole_whole _) ((hcond2_0 t).mpr h0) (fun h => h1 ((hcond2_1 t).mp h)) (iblk2 V c 0 t) (iblk2 V c 1 t) (iblk2 V c 2 t)).2.2.1, y ∈ pc.1.set :=
  View.cover_of_tiledL _ S1024x1.size (by sl_kernel_rfl) y

/-- A middle key tile, over the totals `xs0`, `xs1` the tile before left. -/
def accB (c : Dev nD) (t : Fin cfg2.N) (h0 : ¬t.val % 16 = 0) (h1 : ¬t.val % 16 = 15) (xs0 : Vec F S1024x512 .f32) (xs1 : Vec F S1024x1 .f32) : Vec F S1024x512 .f32 :=
  VS2_0.read (Elt F) (VS2_0.writes (Elt F) VS2_0.junk (kernelRun2_B c (grid2.coords t) (ms2_0 t) (hs2_0 t) (ms2_1 t) (hs2_1 t) (ms2_2 t) (hs2_2 t) (ms2_3 t) (hs2_3 t) scM2_0 (Memref.isWhole_whole _) scM2_1 (Memref.isWhole_whole _) (fun h => h0 ((hcond2_0 t).mp h)) (fun h => h1 ((hcond2_1 t).mp h)) (iblk2 V c 0 t) (iblk2 V c 1 t) (iblk2 V c 2 t) xs0 xs1).2.1)
def ssB (c : Dev nD) (t : Fin cfg2.N) (h0 : ¬t.val % 16 = 0) (h1 : ¬t.val % 16 = 15) (xs0 : Vec F S1024x512 .f32) (xs1 : Vec F S1024x1 .f32) : Vec F S1024x1 .f32 :=
  VS2_1.read (Elt F) (VS2_1.writes (Elt F) VS2_1.junk (kernelRun2_B c (grid2.coords t) (ms2_0 t) (hs2_0 t) (ms2_1 t) (hs2_1 t) (ms2_2 t) (hs2_2 t) (ms2_3 t) (hs2_3 t) scM2_0 (Memref.isWhole_whole _) scM2_1 (Memref.isWhole_whole _) (fun h => h0 ((hcond2_0 t).mp h)) (fun h => h1 ((hcond2_1 t).mp h)) (iblk2 V c 0 t) (iblk2 V c 1 t) (iblk2 V c 2 t) xs0 xs1).2.2.1)
theorem coverB0 (c : Dev nD) (t : Fin cfg2.N) (h0 : ¬t.val % 16 = 0) (h1 : ¬t.val % 16 = 15) (xs0 : Vec F S1024x512 .f32) (xs1 : Vec F S1024x1 .f32) (y : S1024x512.Idx) :
    ∃ pc ∈ (kernelRun2_B c (grid2.coords t) (ms2_0 t) (hs2_0 t) (ms2_1 t) (hs2_1 t) (ms2_2 t) (hs2_2 t) (ms2_3 t) (hs2_3 t) scM2_0 (Memref.isWhole_whole _) scM2_1 (Memref.isWhole_whole _) (fun h => h0 ((hcond2_0 t).mp h)) (fun h => h1 ((hcond2_1 t).mp h)) (iblk2 V c 0 t) (iblk2 V c 1 t) (iblk2 V c 2 t) xs0 xs1).2.1, y ∈ pc.1.set :=
  View.cover_of_tiledL _ S1024x512.size (by sl_kernel_rfl) y
theorem coverB1 (c : Dev nD) (t : Fin cfg2.N) (h0 : ¬t.val % 16 = 0) (h1 : ¬t.val % 16 = 15) (xs0 : Vec F S1024x512 .f32) (xs1 : Vec F S1024x1 .f32) (y : S1024x1.Idx) :
    ∃ pc ∈ (kernelRun2_B c (grid2.coords t) (ms2_0 t) (hs2_0 t) (ms2_1 t) (hs2_1 t) (ms2_2 t) (hs2_2 t) (ms2_3 t) (hs2_3 t) scM2_0 (Memref.isWhole_whole _) scM2_1 (Memref.isWhole_whole _) (fun h => h0 ((hcond2_0 t).mp h)) (fun h => h1 ((hcond2_1 t).mp h)) (iblk2 V c 0 t) (iblk2 V c 1 t) (iblk2 V c 2 t) xs0 xs1).2.2.1, y ∈ pc.1.set :=
  View.cover_of_tiledL _ S1024x1.size (by sl_kernel_rfl) y

/-- The last key tile, over the totals the tile before left: the totals after it, and the quotient it stores. -/
def accC (c : Dev nD) (t : Fin cfg2.N) (h0 : ¬t.val % 16 = 0) (h1 : t.val % 16 = 15) (xs0 : Vec F S1024x512 .f32) (xs1 : Vec F S1024x1 .f32) : Vec F S1024x512 .f32 :=
  VS2_0.read (Elt F) (VS2_0.writes (Elt F) VS2_0.junk (kernelRun2_C c (grid2.coords t) (ms2_0 t) (hs2_0 t) (ms2_1 t) (hs2_1 t) (ms2_2 t) (hs2_2 t) (ms2_3 t) (hs2_3 t) scM2_0 (Memref.isWhole_whole _) scM2_1 (Memref.isWhole_whole _) (fun h => h0 ((hcond2_0 t).mp h)) ((hcond2_1 t).mpr h1) (iblk2 V c 0 t) (iblk2 V c 1 t) (iblk2 V c 2 t) xs0 xs1).2.1)
def ssC (c : Dev nD) (t : Fin cfg2.N) (h0 : ¬t.val % 16 = 0) (h1 : t.val % 16 = 15) (xs0 : Vec F S1024x512 .f32) (xs1 : Vec F S1024x1 .f32) : Vec F S1024x1 .f32 :=
  VS2_1.read (Elt F) (VS2_1.writes (Elt F) VS2_1.junk (kernelRun2_C c (grid2.coords t) (ms2_0 t) (hs2_0 t) (ms2_1 t) (hs2_1 t) (ms2_2 t) (hs2_2 t) (ms2_3 t) (hs2_3 t) scM2_0 (Memref.isWhole_whole _) scM2_1 (Memref.isWhole_whole _) (fun h => h0 ((hcond2_0 t).mp h)) ((hcond2_1 t).mpr h1) (iblk2 V c 0 t) (iblk2 V c 1 t) (iblk2 V c 2 t) xs0 xs1).2.2.1)
def outC (c : Dev nD) (t : Fin cfg2.N) (h0 : ¬t.val % 16 = 0) (h1 : t.val % 16 = 15) (xs0 : Vec F S1024x512 .f32) (xs1 : Vec F S1024x1 .f32) : Vec F S1024x512 .f32 :=
  VO2_3.read (Elt F) (VO2_3.writes (Elt F) VO2_3.junk (kernelRun2_C c (grid2.coords t) (ms2_0 t) (hs2_0 t) (ms2_1 t) (hs2_1 t) (ms2_2 t) (hs2_2 t) (ms2_3 t) (hs2_3 t) scM2_0 (Memref.isWhole_whole _) scM2_1 (Memref.isWhole_whole _) (fun h => h0 ((hcond2_0 t).mp h)) ((hcond2_1 t).mpr h1) (iblk2 V c 0 t) (iblk2 V c 1 t) (iblk2 V c 2 t) xs0 xs1).1)
theorem coverC0 (c : Dev nD) (t : Fin cfg2.N) (h0 : ¬t.val % 16 = 0) (h1 : t.val % 16 = 15) (xs0 : Vec F S1024x512 .f32) (xs1 : Vec F S1024x1 .f32) (y : S1024x512.Idx) :
    ∃ pc ∈ (kernelRun2_C c (grid2.coords t) (ms2_0 t) (hs2_0 t) (ms2_1 t) (hs2_1 t) (ms2_2 t) (hs2_2 t) (ms2_3 t) (hs2_3 t) scM2_0 (Memref.isWhole_whole _) scM2_1 (Memref.isWhole_whole _) (fun h => h0 ((hcond2_0 t).mp h)) ((hcond2_1 t).mpr h1) (iblk2 V c 0 t) (iblk2 V c 1 t) (iblk2 V c 2 t) xs0 xs1).2.1, y ∈ pc.1.set :=
  View.cover_of_tiledL _ S1024x512.size (by sl_kernel_rfl) y
theorem coverC1 (c : Dev nD) (t : Fin cfg2.N) (h0 : ¬t.val % 16 = 0) (h1 : t.val % 16 = 15) (xs0 : Vec F S1024x512 .f32) (xs1 : Vec F S1024x1 .f32) (y : S1024x1.Idx) :
    ∃ pc ∈ (kernelRun2_C c (grid2.coords t) (ms2_0 t) (hs2_0 t) (ms2_1 t) (hs2_1 t) (ms2_2 t) (hs2_2 t) (ms2_3 t) (hs2_3 t) scM2_0 (Memref.isWhole_whole _) scM2_1 (Memref.isWhole_whole _) (fun h => h0 ((hcond2_0 t).mp h)) ((hcond2_1 t).mpr h1) (iblk2 V c 0 t) (iblk2 V c 1 t) (iblk2 V c 2 t) xs0 xs1).2.2.1, y ∈ pc.1.set :=
  View.cover_of_tiledL _ S1024x1.size (by sl_kernel_rfl) y
theorem coverC3 (c : Dev nD) (t : Fin cfg2.N) (h0 : ¬t.val % 16 = 0) (h1 : t.val % 16 = 15) (xs0 : Vec F S1024x512 .f32) (xs1 : Vec F S1024x1 .f32) (y : S1024x512.Idx) :
    ∃ pc ∈ (kernelRun2_C c (grid2.coords t) (ms2_0 t) (hs2_0 t) (ms2_1 t) (hs2_1 t) (ms2_2 t) (hs2_2 t) (ms2_3 t) (hs2_3 t) scM2_0 (Memref.isWhole_whole _) scM2_1 (Memref.isWhole_whole _) (fun h => h0 ((hcond2_0 t).mp h)) ((hcond2_1 t).mpr h1) (iblk2 V c 0 t) (iblk2 V c 1 t) (iblk2 V c 2 t) xs0 xs1).1, y ∈ pc.1.set :=
  View.cover_of_tiledL _ S1024x512.size (by sl_kernel_rfl) y

/-- The output window's buffer where the body stores nothing: a placeholder nothing consults. -/
def idleOut : Vec F S1024x512 .f32 := VO2_3.read (Elt F) VO2_3.junk

/-! ## Point by point -/

/-- (the output window's buffer, the total of s·S, the total of s²) after the body at position `n`. -/
def outsAt2 (c : Dev nD) : (n : ℕ) → n < cfg2.N → Vec F S1024x512 .f32 × Vec F S1024x512 .f32 × Vec F S1024x1 .f32
  | 0, hn => (idleOut, accA V c ⟨0, hn⟩ (Nat.zero_mod _) (show ¬0 % 16 = 15 by decide), ssA V c ⟨0, hn⟩ (Nat.zero_mod _) (show ¬0 % 16 = 15 by decide))
  | n + 1, hn =>
    if h0 : (n + 1) % 16 = 0 then
      (idleOut, accA V c ⟨n + 1, hn⟩ h0 (show ¬(n + 1) % 16 = 15 by omega), ssA V c ⟨n + 1, hn⟩ h0 (show ¬(n + 1) % 16 = 15 by omega))
    else
      if h1 : (n + 1) % 16 = 15 then
        (outC V c ⟨n + 1, hn⟩ h0 h1 (outsAt2 c n (Nat.lt_of_succ_lt hn)).2.1 (outsAt2 c n (Nat.lt_of_succ_lt hn)).2.2,
         accC V c ⟨n + 1, hn⟩ h0 h1 (outsAt2 c n (Nat.lt_of_succ_lt hn)).2.1 (outsAt2 c n (Nat.lt_of_succ_lt hn)).2.2,
         ssC V c ⟨n + 1, hn⟩ h0 h1 (outsAt2 c n (Nat.lt_of_succ_lt hn)).2.1 (outsAt2 c n (Nat.lt_of_succ_lt hn)).2.2)
      else
        (idleOut,
         accB V c ⟨n + 1, hn⟩ h0 h1 (outsAt2 c n (Nat.lt_of_succ_lt hn)).2.1 (outsAt2 c n (Nat.lt_of_succ_lt hn)).2.2,
         ssB V c ⟨n + 1, hn⟩ h0 h1 (outsAt2 c n (Nat.lt_of_succ_lt hn)).2.1 (outsAt2 c n (Nat.lt_of_succ_lt hn)).2.2)

/-- At a first key tile. -/
theorem outsAt2_A (c : Dev nD) (t : Fin cfg2.N) (h0 : t.val % 16 = 0) (h1 : ¬t.val % 16 = 15) :
    outsAt2 V c t.val t.isLt = (idleOut, accA V c t h0 h1, ssA V c t h0 h1) := by
  obtain ⟨n, hn⟩ := t
  cases n with
  | zero => exact rfl
  | succ n => exact (dif_pos h0).trans rfl

/-- At a middle key tile: over what the point before left. -/
theorem outsAt2_B (c : Dev nD) (t : Fin cfg2.N) (h0 : ¬t.val % 16 = 0) (h1 : ¬t.val % 16 = 15) :
    outsAt2 V c t.val t.isLt = (idleOut,
      accB V c t h0 h1 (outsAt2 V c (t.val - 1) (Nat.lt_of_le_of_lt (Nat.sub_le _ _) t.isLt)).2.1 (outsAt2 V c (t.val - 1) (Nat.lt_of_le_of_lt (Nat.sub_le _ _) t.isLt)).2.2,
      ssB V c t h0 h1 (outsAt2 V c (t.val - 1) (Nat.lt_of_le_of_lt (Nat.sub_le _ _) t.isLt)).2.1 (outsAt2 V c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans ((dif_neg h1).trans rfl)

/-- At a last key tile: over what the point before left. -/
theorem outsAt2_C (c : Dev nD) (t : Fin cfg2.N) (h0 : ¬t.val % 16 = 0) (h1 : t.val % 16 = 15) :
    outsAt2 V c t.val t.isLt = (outC V c t h0 h1 (outsAt2 V c (t.val - 1) (Nat.lt_of_le_of_lt (Nat.sub_le _ _) t.isLt)).2.1 (outsAt2 V c (t.val - 1) (Nat.lt_of_le_of_lt (Nat.sub_le _ _) t.isLt)).2.2,
      accC V c t h0 h1 (outsAt2 V c (t.val - 1) (Nat.lt_of_le_of_lt (Nat.sub_le _ _) t.isLt)).2.1 (outsAt2 V c (t.val - 1) (Nat.lt_of_le_of_lt (Nat.sub_le _ _) t.isLt)).2.2,
      ssC V c t h0 h1 (outsAt2 V c (t.val - 1) (Nat.lt_of_le_of_lt (Nat.sub_le _ _) t.isLt)).2.1 (outsAt2 V c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans ((dif_pos h1).trans rfl)

/-! ## The invariant between points -/

/-- Before the first point the rest state as handed over; afterwards the two scratch buffers at the totals the point
    before left, beside the other regions' staging buffers and the generator register. -/
def PhiS (c : Dev nD) : (n : ℕ) → n ≤ cfg2.N → sProp 𝕄
  | 0, _ => Pipeline.ΦA spec2 c
  | n + 1, hn => iprop(stgRest (F := F) c ∗ owns (c : Thread nD τ) scM2_0 fullShare ((outsAt2 V c n hn).2.1) ∗ owns (c : Thread nD τ) scM2_1 fullShare ((outsAt2 V c n hn).2.2) ∗ (∃ r, prngReg c r))

theorem PhiS_zero (c : Dev nD) (n : ℕ) (h : n ≤ cfg2.N) (hz : n = 0) : PhiS V c n h = Pipeline.ΦA spec2 c := by
  subst hz; rfl
theorem PhiS_succ (c : Dev nD) (n : ℕ) (hn : n < cfg2.N) :
    PhiS V c (n + 1) hn = iprop(stgRest (F := F) c ∗ owns (c : Thread nD τ) scM2_0 fullShare ((outsAt2 V c n hn).2.1) ∗ owns (c : Thread nD τ) scM2_1 fullShare ((outsAt2 V c n hn).2.2) ∗ (∃ r, prngReg c r)) := rfl
theorem PhiS_pos (c : Dev nD) (n : ℕ) (h : n ≤ cfg2.N) (hz : n ≠ 0) :
    PhiS V c n h = iprop(stgRest (F := F) c ∗ owns (c : Thread nD τ) scM2_0 fullShare ((outsAt2 V c (n - 1) (by omega)).2.1) ∗ owns (c : Thread nD τ) scM2_1 fullShare ((outsAt2 V c (n - 1) (by omega)).2.2) ∗ (∃ r, prngReg c r)) := by
  cases n with
  | zero => exact absurd rfl hz
  | succ n => rfl

/-! ## The proof data -/

/-- The arrays as the region finds them; after the body each input's buffer at its block and the output's at
    `outsAt2`'s first component; the invariant `PhiS`; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => (outsAt2 V c t.val t.isLt).1
  Φ t := PhiS V c t.val (Nat.le_of_lt_succ t.isLt)
  q _ := fullShare
  owed _ := 0

theorem A_eq2 (c : Dev nD) (w : Fin cfg2.W) : (dat2 V c).A w = V c (Pipeline.arrRef spec2 w) := by
  dsimp only [dat2]
theorem PhiS_castSucc (c : Dev nD) (t : Fin cfg2.N) :
    (dat2 V c).Φ t.castSucc = PhiS V c t.val (Nat.le_of_lt t.isLt) := by
  dsimp only [dat2]; simp only [Fin.coe_castSucc]
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = (outsAt2 V c t.val t.isLt).1 := by dsimp only [dat2]
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d

/-- An input window's buffer is handed back at its block. -/
theorem leaves2_0 (c : Dev nD) (t : Fin cfg2.N) : (dat2 V c).leavesExact 0 t = owns (c : Thread nD τ) (ms2_0 t) fullShare (iblk2 V c 0 t) := by
  have h : (dat2 V c).leavesExact 0 t = owns (c : Thread nD τ) (ms2_0 t) fullShare ((dat2 V c).after 0 t) := by
    unfold Dat.leavesExact; rw [liveAt2_0 t]
  rw [h, after2_0]
theorem leaves2_1 (c : Dev nD) (t : Fin cfg2.N) : (dat2 V c).leavesExact 1 t = owns (c : Thread nD τ) (ms2_1 t) fullShare (iblk2 V c 1 t) := by
  have h : (dat2 V c).leavesExact 1 t = owns (c : Thread nD τ) (ms2_1 t) fullShare ((dat2 V c).after 1 t) := by
    unfold Dat.leavesExact; rw [liveAt2_1 t]
  rw [h, after2_1]
theorem leaves2_2 (c : Dev nD) (t : Fin cfg2.N) : (dat2 V c).leavesExact 2 t = owns (c : Thread nD τ) (ms2_2 t) fullShare (iblk2 V c 2 t) := by
  have h : (dat2 V c).leavesExact 2 t = owns (c : Thread nD τ) (ms2_2 t) fullShare ((dat2 V c).after 2 t) := by
    unfold Dat.leavesExact; rw [liveAt2_2 t]
  rw [h, after2_2]
/-- At a last key tile the output window's buffer is handed back at what the point stored. -/
theorem leaves2_3_last (c : Dev nD) (t : Fin cfg2.N) (h1 : cond2_1 (grid2.coords t)) :
    (dat2 V c).leavesExact 3 t = owns (c : Thread nD τ) (ms2_3 t) fullShare ((outsAt2 V c t.val t.isLt).1) := by
  have h : (dat2 V c).leavesExact 3 t = owns (c : Thread nD τ) (ms2_3 t) fullShare ((dat2 V c).after 3 t) := by
    unfold Dat.leavesExact; rw [liveAt2_3 t h1]
  rw [h, after2_3]

/-! ## The body obligation -/

def bodyPre2 (c : Dev nD) (t : Fin cfg2.N) : sProp 𝕄 :=
  iprop((dat2 V c).Φ t.castSucc ∗ (dat2 V c).owesAt () t.castSucc
    ∗ (∃ d, owns (c : Thread nD τ) (ms2_0 t) fullShare ((dat2 V c).before 0 t d))
    ∗ (∃ d, owns (c : Thread nD τ) (ms2_1 t) fullShare ((dat2 V c).before 1 t d))
    ∗ (∃ d, owns (c : Thread nD τ) (ms2_2 t) fullShare ((dat2 V c).before 2 t d))
    ∗ (∃ d, owns (c : Thread nD τ) (ms2_3 t) fullShare ((dat2 V c).before 3 t d)))

def bodyPost2 (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t
    ∗ (dat2 V c).leavesExact 3 t)

set_option maxHeartbeats 8000000 in
/-- The body at any point: the inputs' buffers hold their blocks; the point's key tile says which case it is in; the
    invariant hands the body the two scratch totals at what the point before left (at anything before the very first
    point) and takes them back at this point's. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2]
  rw [show (dat2 V c).owesAt () t.succ = (dat2 V c).owesAt () t.castSucc from rfl]
  rw [show (dat2 V c).Φ t.succ = PhiS V c (t.val + 1) t.isLt from rfl, PhiS_succ]
  have hN : t.val < 128 := lt_of_lt_of_eq t.isLt (show cfg2.N = 128 from N_2)
  by_cases h0 : t.val % 16 = 0
  · have h1 : ¬t.val % 16 = 15 := by omega
    rw [leaves2_0, leaves2_1, leaves2_2]
    rw [Dat.leavesExact_idle (dat2 V c) 3 t (idleAt2_3 t (fun h => h1 ((hcond2_1 t).mp h))) (noFlush2_3 t (fun h => h1 ((hcond2_1 t).mp h)))]
    rw [outsAt2_A V c t h0 h1]
    unfold accA ssA; (try dsimp only)
    by_cases hz : t.val = 0
    · rw [PhiS_castSucc V c t, PhiS_zero V c _ _ hz]
      iintro ⟨HΦ, Ho, ⟨%d0, H0⟩, ⟨%d1, H1⟩, ⟨%d2, H2⟩, ⟨%d3, H3⟩⟩
      ihave HΦ' := (PhiA_split (F := F) c) $$ HΦ
      icases HΦ' with ⟨HR, HS0, HS1, Hg⟩
      iapply ((kernelRun2_A c (grid2.coords t) (ms2_0 t) (hs2_0 t) (ms2_1 t) (hs2_1 t) (ms2_2 t) (hs2_2 t) (ms2_3 t) (hs2_3 t) scM2_0 (Memref.isWhole_whole _) scM2_1 (Memref.isWhole_whole _) ((hcond2_0 t).mpr h0) (fun h => h1 ((hcond2_1 t).mp h)) (iblk2 V c 0 t) (iblk2 V c 1 t) (iblk2 V c 2 t)).2.2.2 _ Set.univ _)
      isplitl [H0]; · iexact H0
      isplitl [H1]; · iexact H1
      isplitl [H2]; · iexact H2
      isplitl [H3]; · iexact H3
      isplitl [HS0]; · iexact HS0
      isplitl [HS1]; · iexact HS1
      iintro ⟨H0, H1, H2, H3, ⟨%es0, HS0⟩, ⟨%es1, HS1⟩⟩
      isplitl [HR HS0 HS1 Hg]
      · isplitl [HR]; · iexact HR
        isplitl [HS0]
        · unfold owns; iexists _; isplitr
          swap; · iexact HS0
          ipureintro; exact View.read_writes_of_cover _ _ _ _ _ (coverA0 V c t h0 h1)
        isplitl [HS1]
        · unfold owns; iexists _; isplitr
          swap; · iexact HS1
          ipureintro; exact View.read_writes_of_cover _ _ _ _ _ (coverA1 V c t h0 h1)
        iexact Hg
      isplitl [Ho]; · iexact Ho
      isplitl [H0]; · iexact H0
      isplitl [H1]; · iexact H1
      isplitl [H2]; · iexact H2
      iexists _; iexact H3
    · rw [PhiS_castSucc V c t, PhiS_pos V c _ _ hz]
      iintro ⟨⟨HR, HS0, HS1, Hg⟩, Ho, ⟨%d0, H0⟩, ⟨%d1, H1⟩, ⟨%d2, H2⟩, ⟨%d3, H3⟩⟩
      iapply ((kernelRun2_A c (grid2.coords t) (ms2_0 t) (hs2_0 t) (ms2_1 t) (hs2_1 t) (ms2_2 t) (hs2_2 t) (ms2_3 t) (hs2_3 t) scM2_0 (Memref.isWhole_whole _) scM2_1 (Memref.isWhole_whole _) ((hcond2_0 t).mpr h0) (fun h => h1 ((hcond2_1 t).mp h)) (iblk2 V c 0 t) (iblk2 V c 1 t) (iblk2 V c 2 t)).2.2.2 _ Set.univ _)
      isplitl [H0]; · iexact H0
      isplitl [H1]; · iexact H1
      isplitl [H2]; · iexact H2
      isplitl [H3]; · iexact H3
      isplitl [HS0]; · iexists _; iexact HS0
      isplitl [HS1]; · iexists _; iexact HS1
      iintro ⟨H0, H1, H2, H3, ⟨%es0, HS0⟩, ⟨%es1, HS1⟩⟩
      isplitl [HR HS0 HS1 Hg]
      · isplitl [HR]; · iexact HR
        isplitl [HS0]
        · unfold owns; iexists _; isplitr
          swap; · iexact HS0
          ipureintro; exact View.read_writes_of_cover _ _ _ _ _ (coverA0 V c t h0 h1)
        isplitl [HS1]
        · unfold owns; iexists _; isplitr
          swap; · iexact HS1
          ipureintro; exact View.read_writes_of_cover _ _ _ _ _ (coverA1 V c t h0 h1)
        iexact Hg
      isplitl [Ho]; · iexact Ho
      isplitl [H0]; · iexact H0
      isplitl [H1]; · iexact H1
      isplitl [H2]; · iexact H2
      iexists _; iexact H3
  · have hz : t.val ≠ 0 := fun h => h0 (by rw [h])
    by_cases h1 : t.val % 16 = 15
    · rw [leaves2_0, leaves2_1, leaves2_2]
      rw [leaves2_3_last V c t ((hcond2_1 t).mpr h1)]
      rw [outsAt2_C V c t h0 h1]
      unfold outC accC ssC; (try dsimp only)
      rw [PhiS_castSucc V c t, PhiS_pos V c _ _ hz]
      iintro ⟨⟨HR, HS0, HS1, Hg⟩, Ho, ⟨%d0, H0⟩, ⟨%d1, H1⟩, ⟨%d2, H2⟩, ⟨%d3, H3⟩⟩
      iapply ((kernelRun2_C c (grid2.coords t) (ms2_0 t) (hs2_0 t) (ms2_1 t) (hs2_1 t) (ms2_2 t) (hs2_2 t) (ms2_3 t) (hs2_3 t) scM2_0 (Memref.isWhole_whole _) scM2_1 (Memref.isWhole_whole _) (fun h => h0 ((hcond2_0 t).mp h)) ((hcond2_1 t).mpr h1) (iblk2 V c 0 t) (iblk2 V c 1 t) (iblk2 V c 2 t) _ _).2.2.2 Set.univ _)
      isplitl [H0]; · iexact H0
      isplitl [H1]; · iexact H1
      isplitl [H2]; · iexact H2
      isplitl [H3]; · iexists _; iexact H3
      isplitl [HS0]; · iexact HS0
      isplitl [HS1]; · iexact HS1
      iintro ⟨H0, H1, H2, ⟨%e3, H3⟩, ⟨%es0, HS0⟩, ⟨%es1, HS1⟩⟩
      isplitl [HR HS0 HS1 Hg]
      · isplitl [HR]; · iexact HR
        isplitl [HS0]
        · unfold owns; iexists _; isplitr
          swap; · iexact HS0
          ipureintro; exact View.read_writes_of_cover _ _ _ _ _ (coverC0 V c t h0 h1 _ _)
        isplitl [HS1]
        · unfold owns; iexists _; isplitr
          swap; · iexact HS1
          ipureintro; exact View.read_writes_of_cover _ _ _ _ _ (coverC1 V c t h0 h1 _ _)
        iexact Hg
      isplitl [Ho]; · iexact Ho
      isplitl [H0]; · iexact H0
      isplitl [H1]; · iexact H1
      isplitl [H2]; · iexact H2
      unfold owns; iexists _; isplitr
      swap; · iexact H3
      ipureintro; exact View.read_writes_of_cover _ _ _ _ _ (coverC3 V c t h0 h1 _ _)
    · rw [leaves2_0, leaves2_1, leaves2_2]
      rw [Dat.leavesExact_idle (dat2 V c) 3 t (idleAt2_3 t (fun h => h1 ((hcond2_1 t).mp h))) (noFlush2_3 t (fun h => h1 ((hcond2_1 t).mp h)))]
      rw [outsAt2_B V c t h0 h1]
      unfold accB ssB; (try dsimp only)
      rw [PhiS_castSucc V c t, PhiS_pos V c _ _ hz]
      iintro ⟨⟨HR, HS0, HS1, Hg⟩, Ho, ⟨%d0, H0⟩, ⟨%d1, H1⟩, ⟨%d2, H2⟩, ⟨%d3, H3⟩⟩
      iapply ((kernelRun2_B c (grid2.coords t) (ms2_0 t) (hs2_0 t) (ms2_1 t) (hs2_1 t) (ms2_2 t) (hs2_2 t) (ms2_3 t) (hs2_3 t) scM2_0 (Memref.isWhole_whole _) scM2_1 (Memref.isWhole_whole _) (fun h => h0 ((hcond2_0 t).mp h)) (fun h => h1 ((hcond2_1 t).mp h)) (iblk2 V c 0 t) (iblk2 V c 1 t) (iblk2 V c 2 t) _ _).2.2.2 _ Set.univ _)
      isplitl [H0]; · iexact H0
      isplitl [H1]; · iexact H1
      isplitl [H2]; · iexact H2
      isplitl [H3]; · iexact H3
      isplitl [HS0]; · iexact HS0
      isplitl [HS1]; · iexact HS1
      iintro ⟨H0, H1, H2, H3, ⟨%es0, HS0⟩, ⟨%es1, HS1⟩⟩
      isplitl [HR HS0 HS1 Hg]
      · isplitl [HR]; · iexact HR
        isplitl [HS0]
        · unfold owns; iexists _; isplitr
          swap; · iexact HS0
          ipureintro; exact View.read_writes_of_cover _ _ _ _ _ (coverB0 V c t h0 h1 _ _)
        isplitl [HS1]
        · unfold owns; iexists _; isplitr
          swap; · iexact HS1
          ipureintro; exact View.read_writes_of_cover _ _ _ _ _ (coverB1 V c t h0 h1 _ _)
        iexact Hg
      isplitl [Ho]; · iexact Ho
      isplitl [H0]; · iexact H0
      isplitl [H1]; · iexact H1
      isplitl [H2]; · iexact H2
      iexists _; iexact H3

/-- The library's body obligation, at every point. -/
theorem body_obligation2 (c : Dev nD) : BodyObligation (dat2 (F := F) V c) (defs₀ (F := F)) Variants.none () Set.univ := fun t => by
  rw [bigSep_W2, bigSep_W2]
  exact sound_body2 V c t

/-- What the region is handed is the invariant before the first point. -/
theorem hin2 (c : Dev nD) : Pipeline.ΦA spec2 c ⊢ (dat2 V c).Φ 0 := by
  rw [show (dat2 V c).Φ 0 = PhiS V c 0 (Nat.zero_le _) from rfl, PhiS_zero V c 0 _ rfl]
  try exact Idealize.SL.BI.Entails.refl _

/-- After the last point the invariant gives the rest state back: the totals' names are forgotten. -/
theorem hout2 (c : Dev nD) : (dat2 V c).Φ (Fin.last cfg2.N) ⊢ Pipeline.ΦA spec2 c := by
  rw [show (dat2 V c).Φ (Fin.last cfg2.N) = PhiS V c (Fin.last cfg2.N).val (Nat.le_of_lt_succ (Fin.last cfg2.N).isLt) from rfl,
    PhiS_pos V c _ _ (by rw [Fin.val_last]; have : cfg2.N = 128 := N_2; omega)]
  iintro ⟨HR, HS0, HS1, Hg⟩
  iapply (PhiA_join (F := F) c)
  isplitl [HR]; · iexact HR
  isplitl [HS0]; · iexists _; iexact HS0
  isplitl [HS1]; · iexists _; iexact HS1
  iexact Hg

end Cert.Kernel.Attn

end
-- ==== Proof.Word.Run.lean ====
/-
  The whole run of @main: projection region, projection region, one host conversion, attention region. The buffer
  contents at every boundary are a fold from the launch memory — a region's arrays at what its write-backs leave, a host
  stretch's result by the operations' composed term —; each region is a segment over the thread state "every unscoped
  buffer at the boundary's contents, the generator register at some state, nothing owed"; the launch over the four
  segments ends with every unscoped buffer at the last boundary's contents.
-/
import proofs.«123942_j56169582297517_2_alg».proof.Proof.Word.ProjFrame
import proofs.«123942_j56169582297517_2_alg».proof.Proof.Word.AttnFrame

set_option maxRecDepth 16384

noncomputable section

namespace Cert.Kernel.Run

open Cert.Kernel Cert.Kernel.Gen Cert.Kernel
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- Core `c`'s buffers at launch: the first projection region is entered from them. -/
abbrev W0 : Dev nD → Valuation τ sig (Elt F) := fun c b => (s₀ m ρ).mem ((c : Dev nD), b)
abbrev V0 : (c : Dev nD) → (b : Ref sig .tc) → Buf (Elt F) ((c : Thread nD τ).loc b) := fun c b => W0 m ρ c b
/-- After the first projection region: its arrays at what the pipeline leaves, every other buffer as entered. -/
def W1 (c : Dev nD) : Valuation τ sig (Elt F) :=
  Pipeline.withArrays spec0 c (W0 m ρ c) fun w => (Proj.dat0 (V0 m ρ) c).arrAt w cfg0.N
theorem W1_arr (c : Dev nD) (w : Fin cfg0.W) :
    W1 m ρ c (Proc.devRef .tc (Pipeline.arrRef spec0 w)) = (Proj.dat0 (V0 m ρ) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m ρ c (Proc.devRef .tc b) = W0 m ρ c (Proc.devRef .tc b) := by
  unfold W1; exact Pipeline.withArrays_of_ne spec0 c _ _ b hb
abbrev V1 : (c : Dev nD) → (b : Ref sig .tc) → Buf (Elt F) ((c : Thread nD τ).loc b) := fun c b => W1 m ρ c b
theorem hF0 (c : Dev nD) (w : Fin cfg0.W) : (Proj.dat0 (V0 m ρ) c).arrAt w cfg0.N = V1 m ρ c (Pipeline.arrRef spec0 w) :=
  (W1_arr m ρ c w).symm
theorem hrest0 (c : Dev nD) : ∀ b, b ∉ Finset.univ.image (Pipeline.arrRef spec0) → V1 m ρ c b = V0 m ρ c b :=
  fun b hb => W1_of_ne m ρ c b fun w e => hb (Finset.mem_image.mpr ⟨w, Finset.mem_univ _, e⟩)
/-- After the second projection region. -/
def W2 (c : Dev nD) : Valuation τ sig (Elt F) :=
  Pipeline.withArrays spec1 c (W1 m ρ c) fun w => (Proj.dat1 (V1 m ρ) c).arrAt w cfg1.N
theorem W2_arr (c : Dev nD) (w : Fin cfg1.W) :
    W2 m ρ c (Proc.devRef .tc (Pipeline.arrRef spec1 w)) = (Proj.dat1 (V1 m ρ) c).arrAt w cfg1.N := by
  unfold W2; exact Pipeline.withArrays_arr spec1 launch1.win.arr_inj c _ _ w
theorem W2_of_ne (c : Dev nD) (b : Ref sig .tc) (hb : ∀ w, Pipeline.arrRef spec1 w ≠ b) :
    W2 m ρ c (Proc.devRef .tc b) = W1 m ρ c (Proc.devRef .tc b) := by
  unfold W2; exact Pipeline.withArrays_of_ne spec1 c _ _ b hb
abbrev V2 : (c : Dev nD) → (b : Ref sig .tc) → Buf (Elt F) ((c : Thread nD τ).loc b) := fun c b => W2 m ρ c b
theorem hF1 (c : Dev nD) (w : Fin cfg1.W) : (Proj.dat1 (V1 m ρ) c).arrAt w cfg1.N = V2 m ρ c (Pipeline.arrRef spec1 w) :=
  (W2_arr m ρ c w).symm
theorem hrest1 (c : Dev nD) : ∀ b, b ∉ Finset.univ.image (Pipeline.arrRef spec1) → V2 m ρ c b = V1 m ρ c b :=
  fun b hb => W2_of_ne m ρ c b fun w e => hb (Finset.mem_image.mpr ⟨w, Finset.mem_univ _, e⟩)
/-- After the host conversion of the second argument (the attention region's entry). -/
abbrev W3 : Dev nD → Valuation τ sig (Elt F) := fun c => StableHlo.after hostOps2 (W2 m ρ c)
abbrev V3 : (c : Dev nD) → (b : Ref sig .tc) → Buf (Elt F) ((c : Thread nD τ).loc b) := fun c b => W3 m ρ c b
/-- After the attention region. -/
def W4 (c : Dev nD) : Valuation τ sig (Elt F) :=
  Pipeline.withArrays spec2 c (W3 m ρ c) fun w => (Attn.dat2 (V3 m ρ) c).arrAt w cfg2.N
theorem W4_arr (c : Dev nD) (w : Fin cfg2.W) :
    W4 m ρ c (Proc.devRef .tc (Pipeline.arrRef spec2 w)) = (Attn.dat2 (V3 m ρ) c).arrAt w cfg2.N := by
  unfold W4; exact Pipeline.withArrays_arr spec2 launch2.win.arr_inj c _ _ w
theorem W4_of_ne (c : Dev nD) (b : Ref sig .tc) (hb : ∀ w, Pipeline.arrRef spec2 w ≠ b) :
    W4 m ρ c (Proc.devRef .tc b) = W3 m ρ c (Proc.devRef .tc b) := by
  unfold W4; exact Pipeline.withArrays_of_ne spec2 c _ _ b hb
abbrev V4 : (c : Dev nD) → (b : Ref sig .tc) → Buf (Elt F) ((c : Thread nD τ).loc b) := fun c b => W4 m ρ c b
theorem hF2 (c : Dev nD) (w : Fin cfg2.W) : (Attn.dat2 (V3 m ρ) c).arrAt w cfg2.N = V4 m ρ c (Pipeline.arrRef spec2 w) :=
  (W4_arr m ρ c w).symm
theorem hrest2 (c : Dev nD) : ∀ b, b ∉ Finset.univ.image (Pipeline.arrRef spec2) → V4 m ρ c b = V3 m ρ c b :=
  fun b hb => W4_of_ne m ρ c b fun w e => hb (Finset.mem_image.mpr ⟨w, Finset.mem_univ _, e⟩)

/-! ## The arguments end as launched -/

theorem W1_main_arg0 (c : Dev nD) : W1 m ρ c (Proc.devRef .tc main_arg0) = m ((c : Thread nD τ).loc main_arg0) :=
  (W1_arr m ρ c 0).trans (((Proj.dat0 (V0 m ρ) c).arrAt_in 0 rfl _).trans (Proj.A_eq0 (V0 m ρ) c 0))
theorem W1_main_arg1 (c : Dev nD) : W1 m ρ c (Proc.devRef .tc main_arg1) = m ((c : Thread nD τ).loc main_arg1) :=
  W1_of_ne m ρ c main_arg1 (by decide)
theorem W1_main_arg2 (c : Dev nD) : W1 m ρ c (Proc.devRef .tc main_arg2) = m ((c : Thread nD τ).loc main_arg2) :=
  (W1_arr m ρ c 1).trans (((Proj.dat0 (V0 m ρ) c).arrAt_in 1 rfl _).trans (Proj.A_eq0 (V0 m ρ) c 1))
theorem W1_main_arg3 (c : Dev nD) : W1 m ρ c (Proc.devRef .tc main_arg3) = m ((c : Thread nD τ).loc main_arg3) :=
  (W1_arr m ρ c 2).trans (((Proj.dat0 (V0 m ρ) c).arrAt_in 2 rfl _).trans (Proj.A_eq0 (V0 m ρ) c 2))
theorem W2_main_arg0 (c : Dev nD) : W2 m ρ c (Proc.devRef .tc main_arg0) = m ((c : Thread nD τ).loc main_arg0) :=
  (W2_of_ne m ρ c main_arg0 (by decide)).trans (W1_main_arg0 m ρ c)
theorem W2_main_arg1 (c : Dev nD) : W2 m ρ c (Proc.devRef .tc main_arg1) = m ((c : Thread nD τ).loc main_arg1) :=
  ((W2_arr m ρ c 0).trans (((Proj.dat1 (V1 m ρ) c).arrAt_in 0 rfl _).trans (Proj.A_eq1 (V1 m ρ) c 0))).trans (W1_main_arg1 m ρ c)
theorem W2_main_arg2 (c : Dev nD) : W2 m ρ c (Proc.devRef .tc main_arg2) = m ((c : Thread nD τ).loc main_arg2) :=
  ((W2_arr m ρ c 1).trans (((Proj.dat1 (V1 m ρ) c).arrAt_in 1 rfl _).trans (Proj.A_eq1 (V1 m ρ) c 1))).trans (W1_main_arg2 m ρ c)
theorem W2_main_arg3 (c : Dev nD) : W2 m ρ c (Proc.devRef .tc main_arg3) = m ((c : Thread nD τ).loc main_arg3) :=
  ((W2_arr m ρ c 2).trans (((Proj.dat1 (V1 m ρ) c).arrAt_in 2 rfl _).trans (Proj.A_eq1 (V1 m ρ) c 2))).trans (W1_main_arg3 m ρ c)
/-- The host conversion writes only its own result buffer. -/
theorem W3_of_ne_v2 (c : Dev nD) (b : Ref sig .tc) (hb : b ≠ main_v2) : W3 m ρ c (Proc.devRef .tc b) = W2 m ρ c (Proc.devRef .tc b) :=
  StableHlo.after_of_forall_not_mem (b := Proc.devRef .tc b) _ _ (List.forall_iff_forall_mem.mp (by
    simp only [hostOps2, List.Forall, StableHlo.unary_writes, Finset.mem_singleton]
    exact StableHlo.devRef_ne_of_ne hb))
theorem W4_main_arg0 (c : Dev nD) : W4 m ρ c (Proc.devRef .tc main_arg0) = m ((c : Thread nD τ).loc main_arg0) :=
  (W4_of_ne m ρ c main_arg0 (by decide)).trans ((W3_of_ne_v2 m ρ c main_arg0 (by decide)).trans (W2_main_arg0 m ρ c))
theorem W4_main_arg1 (c : Dev nD) : W4 m ρ c (Proc.devRef .tc main_arg1) = m ((c : Thread nD τ).loc main_arg1) :=
  (W4_of_ne m ρ c main_arg1 (by decide)).trans ((W3_of_ne_v2 m ρ c main_arg1 (by decide)).trans (W2_main_arg1 m ρ c))
theorem W4_main_arg2 (c : Dev nD) : W4 m ρ c (Proc.devRef .tc main_arg2) = m ((c : Thread nD τ).loc main_arg2) :=
  (W4_of_ne m ρ c main_arg2 (by decide)).trans ((W3_of_ne_v2 m ρ c main_arg2 (by decide)).trans (W2_main_arg2 m ρ c))
theorem W4_main_arg3 (c : Dev nD) : W4 m ρ c (Proc.devRef .tc main_arg3) = m ((c : Thread nD τ).loc main_arg3) :=
  (W4_of_ne m ρ c main_arg3 (by decide)).trans ((W3_of_ne_v2 m ρ c main_arg3 (by decide)).trans (W2_main_arg3 m ρ c))

/-! ## The proof data family and the thread state -/

abbrev adm : (p : Fin 3) → (pcfgs (F := F) p).Adm := fun p => (cfgs p).toPCfg_adm
/-- Every pipeline's proof data, each at its region's entry contents. -/
def pdats : (p : Fin 3) → (c : Dev nD) → Dat τ (Elt F) Unit ℕ (UR sig nD τ) ℕ (Pipeline.pin (pcfgs (F := F)) adm p) c
  | ⟨0, _⟩ => fun c => Proj.dat0 (V0 m ρ) c
  | ⟨1, _⟩ => fun c => Proj.dat1 (V1 m ρ) c
  | ⟨2, _⟩ => fun c => Attn.dat2 (V3 m ρ) c
abbrev 𝒱₀ : Variants := Variants.none
abbrev L : GSem nD τ sig → Finset Unit := fun _ => ∅
abbrev lv : GSem nD τ sig → Unit → ℕ := fun _ _ => 0
/-- What rides beside the buffers through every segment: the generator register at some state and the core's `owes` at nothing. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem convert_fresh : (hostOps2 : List (HloOp τ sig (Elt F))).Forall fun op => op.fresh = ∅ := by
  simp only [List.Forall]; repeat' constructor
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W4 m ρ c) ∗ ∃ r, prngReg c r)

/-! ## The regions as segments -/

set_option backward.isDefEq.respectTransparency.types false in
/-- Region 0 over the thread state: entered with every unscoped buffer at `W0`, left with them at `W1`: its
    arrays split out of the unscoped buffers and put back at what the pipeline leaves; the generator register into the
    region's rest state and out; nothing owed; no semaphore of the kernel's own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (Proj.body_obligation0 (V0 m ρ) c).loose
  hwaits := Pipeline.hwaits_of_owed_zero _ _ _ _ L lv 0 fun _ _ => rfl
  pre c := iprop(StableHlo.held (c : Thread nD τ) (Pipeline.ucRefs τ sig) (W0 m ρ c) ∗ R c)
  post c := iprop(StableHlo.held (c : Thread nD τ) (Pipeline.ucRefs τ sig) (W1 m ρ c) ∗ R c)
  X c := iprop(∃ r, prngReg c r)
  Y c := iprop(∃ r, prngReg c r)
  Z c := Pipeline.unscopedRest (Ix := Unit) (Name := ℕ) (U := UR sig nD τ) (Lvl := ℕ) spec0 c (V0 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V0 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V0 m ρ c) (V1 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered with every unscoped buffer at `W1`, left with them at `W2`: its
    arrays split out of the unscoped buffers and put back at what the pipeline leaves; the generator register into the
    region's rest state and out; nothing owed; no semaphore of the kernel's own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (Proj.body_obligation1 (V1 m ρ) c).loose
  hwaits := Pipeline.hwaits_of_owed_zero _ _ _ _ L lv 1 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec1 c (V1 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V1 m ρ c) (V2 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 over the thread state: entered with every unscoped buffer at `W3`, left with them at `W4`: its
    arrays split out of the unscoped buffers and put back at what the pipeline leaves; the generator register into the
    region's rest state and out; nothing owed; no semaphore of the kernel's own. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (Attn.body_obligation2 (V3 m ρ) c).loose
  hwaits := Pipeline.hwaits_of_owed_zero _ _ _ _ L lv 2 fun _ _ => rfl
  pre c := iprop(StableHlo.held (c : Thread nD τ) (Pipeline.ucRefs τ sig) (W3 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec2 c (V3 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (Attn.hin2 (V3 m ρ) c); unfold Pipeline.ΦA
    iintro ⟨Hp, -, Hr⟩
    isplitl [Hr]; · iexact Hr
    iexact Hp
  hout c := by
    rw [Pipeline.ownSems0_none]; refine BIBase.Entails.trans (Attn.hout2 (V3 m ρ) c) ?_; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V3 m ρ c) (V4 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

abbrev segs : List (Pipeline.Seg (pcfgs (F := F)) adm (pdats m ρ) () defs₀ 𝒱₀ L lv) :=
  [ .region (reg0 m ρ),
    .region (reg1 m ρ),
    .host (hseg hostOps2 hostOps2_sub convert_fresh (W2 m ρ)),
    .region (reg2 m ρ) ]
theorem main_run (c : Dev nD) : main (F := F) c = Pipeline.Seg.run (segs m ρ) := (main_chain c).trans (by chain_rfl)

set_option backward.isDefEq.respectTransparency.types false in
/-- From any memory with zero counters every weakly fair execution of @main terminates, nothing faulting, and every
    final state holds every unscoped buffer at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W4 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c => h c)

/-- The frame: the run ends with every argument array as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨(h c _ (mem_uc main_arg0 (by decide))).trans (W4_main_arg0 m ρ c),
     (h c _ (mem_uc main_arg1 (by decide))).trans (W4_main_arg1 m ρ c),
     (h c _ (mem_uc main_arg2 (by decide))).trans (W4_main_arg2 m ρ c),
     (h c _ (mem_uc main_arg3 (by decide))).trans (W4_main_arg3 m ρ c)⟩) (run_all m ρ)

/-- The same run, with the result array named: what the attention region's write-backs leave. -/
theorem run_result : θ_run defs (onTc (τ := τ) (main (F := F))) ⟨m, fun _ => 0, ρ⟩ (fun r => ∀ c : Dev nD,
      r.2.mem ((c.tc : Thread nD τ).loc main_v3) = (Attn.dat2 (V3 m ρ) c).arrAt 3 cfg2.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨(h c _ (mem_uc main_v3 (by decide))).trans (W4_arr m ρ c 3),
     (h c _ (mem_uc main_arg0 (by decide))).trans (W4_main_arg0 m ρ c),
     (h c _ (mem_uc main_arg1 (by decide))).trans (W4_main_arg1 m ρ c),
     (h c _ (mem_uc main_arg2 (by decide))).trans (W4_main_arg2 m ρ c),
     (h c _ (mem_uc main_arg3 (by decide))).trans (W4_main_arg3 m ρ c)⟩) (run_all m ρ)

end Cert.Kernel.Run

end
-- ==== Proof.Spec.lean ====
/-
  The mathematics both programs compute, as functions of the four argument arrays over the extended reals.

  With P, S : 8192×512, W : 128×512, b : 128:
    q(n,l) = Σ_e P(n,e)·W(l,e) + b(l)      k(m,l) = Σ_e S(m,e)·W(l,e) + b(l)     (one projection, `qAt`, at P or at S)
    s(n,m) = max(Σ_l q(n,l)·k(m,l), 0)                                            (`sAt`)
    D(n)   = max(sqrt(Σ_m s(n,m)²), ε)                                            (ε the shared single-precision literal)
  The reference divides every score by D(n) and then contracts with S:  out(n,e) = Σ_m (s(n,m)/D(n))·S(m,e)   (`refOut`).
  The kernel walks the keys in 16 tiles of 512, adds each tile's Σ_j s·S and Σ_j s² onto running totals that start
  at zero, and divides the total by max(sqrt(total of squares), ε) once at the end                        (`kerOut`).
-/
import Idealize.ShloMosaic.PureOps.Ideal
import Idealize.ShloMosaic.Lib.ValueIdx

noncomputable section

open scoped BigOperators

namespace Cert.AttnSpec

open Idealize.ShloMosaic Idealize.ShloMosaic.ValueIdx

/-- A matrix of extended reals indexed by a literal rank-2 shape. -/
abbrev Mat (a b : Nat) : Type := (⟨2, ![a, b]⟩ : Shape).Idx → EReal
/-- A vector of extended reals indexed by a literal rank-1 shape. -/
abbrev Vc (a : Nat) : Type := (⟨1, ![a]⟩ : Shape).Idx → EReal

/-- The shared projection at row `n`, feature `l`: Σ_e X(n,e)·W(l,e) + b(l). -/
def qAt (X : Mat 8192 512) (W : Mat 128 512) (b : Vc 128) (n : Fin 8192) (l : Fin 128) : EReal :=
  (∑ e : Fin 512, X (ix2 n e) * W (ix2 l e)) + b (ix1 l)

/-- The rectified score of query row `n` against key row `m`. -/
def sAt (P S : Mat 8192 512) (W : Mat 128 512) (b : Vc 128) (n m : Fin 8192) : EReal :=
  max (∑ l : Fin 128, qAt P W b n l * qAt S W b m l) 0

/-- The lower bound of the row norm: the single-precision literal both programs print. -/
def eps : EReal := Ideal.ofBits .f32 0x2B8CBCCC#32

/-- Row `n`'s divisor in the reference: the Euclidean norm of its scores, bounded below by ε. -/
def denAt (P S : Mat 8192 512) (W : Mat 128 512) (b : Vc 128) (n : Fin 8192) : EReal :=
  max (Ideal.sqrt (∑ m : Fin 8192, sAt P S W b n m * sAt P S W b n m)) eps

/-- The reference's result: every score divided by its row's divisor, then contracted with S. -/
def refOut (P S : Mat 8192 512) (W : Mat 128 512) (b : Vc 128) : Mat 8192 512 :=
  fun i => ∑ m : Fin 8192, Ideal.div (sAt P S W b (i 0) m) (denAt P S W b (i 0)) * S (ix2 m (i 1))

/-- Key row `j` of tile `t` (tiles of 512 rows). -/
def keyRow (t : Fin 16) (j : Fin 512) : Fin 8192 := ⟨512 * t.val + j.val, by omega⟩

/-- The kernel's running total of s·S for row `n`, column `e`, over all 16 tiles. -/
def accAll (P S : Mat 8192 512) (W : Mat 128 512) (b : Vc 128) (n : Fin 8192) (e : Fin 512) : EReal :=
  ∑ t : Fin 16, ∑ j : Fin 512, sAt P S W b n (keyRow t j) * S (ix2 (keyRow t j) e)

/-- The kernel's running total of squared scores for row `n` over all 16 tiles. -/
def sqAll (P S : Mat 8192 512) (W : Mat 128 512) (b : Vc 128) (n : Fin 8192) : EReal :=
  ∑ t : Fin 16, ∑ j : Fin 512, sAt P S W b n (keyRow t j) * sAt P S W b n (keyRow t j)

/-- The kernel's result: the total divided once by max(sqrt(total of squares), ε). -/
def kerOut (P S : Mat 8192 512) (W : Mat 128 512) (b : Vc 128) : Mat 8192 512 :=
  fun i => Ideal.div (accAll P S W b (i 0) (i 1)) (max (Ideal.sqrt (sqAll P S W b (i 0))) eps)

/-- Every entry of an array is a real number. -/
def Fin2 {a b : Nat} (X : Mat a b) : Prop := ∀ i, ∃ r : ℝ, X i = (r : EReal)
/-- Every entry of a vector is a real number. -/
def Fin1 {a : Nat} (x : Vc a) : Prop := ∀ i, ∃ r : ℝ, x i = (r : EReal)

end Cert.AttnSpec

end
-- ==== Proof.SpecTiles.lean ====
/-
  The attention region's result as a function of the three arrays it is handed — the projected queries Q and keys K
  (8192×128 each) and the values Vv (8192×512) —, and that at Q = the projection of P, K = the projection of S and
  Vv = S it is the kernel's form of the whole result.
-/
import proofs.«123942_j56169582297517_2_alg».proof.Proof.Spec

noncomputable section

open scoped BigOperators

namespace Cert.AttnSpec

open Idealize.ShloMosaic Idealize.ShloMosaic.ValueIdx

/-- The rectified score of query row `n` against key row `m`, from the projected arrays. -/
def sQK (Q K : Mat 8192 128) (n m : Fin 8192) : EReal :=
  max (∑ l : Fin 128, Q (ix2 n l) * K (ix2 m l)) 0

/-- The total of s·Vv over the first `k` key tiles, for row `n`, column `e`. -/
def accUpTo (Q K : Mat 8192 128) (Vv : Mat 8192 512) (n : Fin 8192) (e : Fin 512) (k : ℕ) : EReal :=
  ∑ t ∈ Finset.univ.filter (fun t : Fin 16 => t.val < k), ∑ j : Fin 512, sQK Q K n (keyRow t j) * Vv (ix2 (keyRow t j) e)

/-- The total of s² over the first `k` key tiles, for row `n`. -/
def sqUpTo (Q K : Mat 8192 128) (n : Fin 8192) (k : ℕ) : EReal :=
  ∑ t ∈ Finset.univ.filter (fun t : Fin 16 => t.val < k), ∑ j : Fin 512, sQK Q K n (keyRow t j) * sQK Q K n (keyRow t j)

/-- The attention region's result: the total over all 16 tiles divided once by max(sqrt(total of squares), ε). -/
def kerQK (Q K : Mat 8192 128) (Vv : Mat 8192 512) : Mat 8192 512 :=
  fun i => Ideal.div (accUpTo Q K Vv (i 0) (i 1) 16) (max (Ideal.sqrt (sqUpTo Q K (i 0) 16)) eps)

/-- At the projections of P and S, with Vv = S, this is the kernel's form of the whole result. -/
theorem kerQK_proj (P S : Mat 8192 512) (W : Mat 128 512) (b : Vc 128) :
    kerQK (fun i => qAt P W b (i 0) (i 1)) (fun i => qAt S W b (i 0) (i 1)) S = kerOut P S W b := by
  funext i
  have hf : (Finset.univ.filter (fun t : Fin 16 => t.val < 16)) = Finset.univ :=
    Finset.filter_true_of_mem (fun t _ => t.isLt)
  simp only [kerQK, kerOut, accUpTo, sqUpTo, accAll, sqAll, sQK, sAt, hf]

end Cert.AttnSpec

end
-- ==== Proof.Algebra.lean ====
/-
  The kernel's closed form equals the reference's closed form on finite inputs.

  With every input entry a real number, every projection q(n,l) and every rectified score s(n,m) is a real
  number, and s(n,m) ≥ 0. The sixteen tiles of 512 keys enumerate the 8192 key rows exactly once, so the kernel's
  two running totals are Σ_m s(n,m)·S(m,e) and Σ_m s(n,m)². The divisor D = max(sqrt(Σ_m s²), ε) is a positive
  real because ε is one, and dividing a finite sum by a nonzero real is the sum of the divided terms:
  (Σ_m s·S)/D = Σ_m (s/D)·S.
-/
import proofs.«123942_j56169582297517_2_alg».proof.Proof.Spec

noncomputable section

open scoped BigOperators

namespace Cert.AttnAlgebra

open Idealize.ShloMosaic Idealize.ShloMosaic.ValueIdx Cert.AttnSpec

/-- The inclusion of the reals in the extended reals commutes with finite sums. -/
theorem coe_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The inclusion of the reals in the extended reals commutes with the maximum. -/
theorem coe_max (x y : ℝ) : ((max x y : ℝ) : EReal) = max (x : EReal) (y : EReal) :=
  EReal.coe_strictMono.monotone.map_max

/-- ε is a positive real number. -/
theorem eps_pos : ∃ r : ℝ, 0 < r ∧ eps = (r : EReal) := by
  unfold eps
  simp [Ideal.ofBits, Ideal.ieee, -EReal.coe_mul]

/-! ### The projections and the scores over the reals -/

/-- The projection over the reals. -/
def qR (x : (⟨2, ![8192, 512]⟩ : Shape).Idx → ℝ) (w : (⟨2, ![128, 512]⟩ : Shape).Idx → ℝ)
    (c : (⟨1, ![128]⟩ : Shape).Idx → ℝ) (n : Fin 8192) (l : Fin 128) : ℝ :=
  (∑ e : Fin 512, x (ix2 n e) * w (ix2 l e)) + c (ix1 l)

/-- The rectified score over the reals. -/
def sR (x y : (⟨2, ![8192, 512]⟩ : Shape).Idx → ℝ) (w : (⟨2, ![128, 512]⟩ : Shape).Idx → ℝ)
    (c : (⟨1, ![128]⟩ : Shape).Idx → ℝ) (n m : Fin 8192) : ℝ :=
  max (∑ l : Fin 128, qR x w c n l * qR y w c m l) 0

section Real
variable {X Y : Mat 8192 512} {W : Mat 128 512} {b : Vc 128}
variable {x y : (⟨2, ![8192, 512]⟩ : Shape).Idx → ℝ} {w : (⟨2, ![128, 512]⟩ : Shape).Idx → ℝ}
variable {c : (⟨1, ![128]⟩ : Shape).Idx → ℝ}

/-- On real inputs the projection is the real projection. -/
theorem qAt_coe (hX : ∀ i, X i = (x i : EReal)) (hW : ∀ i, W i = (w i : EReal)) (hb : ∀ i, b i = (c i : EReal))
    (n : Fin 8192) (l : Fin 128) : qAt X W b n l = (qR x w c n l : EReal) := by
  unfold qAt qR
  rw [EReal.coe_add, coe_sum]
  simp only [EReal.coe_mul, hX, hW, hb]

/-- On real inputs the score is the real score. -/
theorem sAt_coe (hX : ∀ i, X i = (x i : EReal)) (hY : ∀ i, Y i = (y i : EReal)) (hW : ∀ i, W i = (w i : EReal))
    (hb : ∀ i, b i = (c i : EReal)) (n m : Fin 8192) : sAt X Y W b n m = (sR x y w c n m : EReal) := by
  unfold sAt sR
  rw [coe_max, coe_sum, EReal.coe_zero]
  simp only [EReal.coe_mul, qAt_coe hX hW hb, qAt_coe hY hW hb]

end Real

/-! ### The tiles enumerate the key rows -/

/-- Tile and position within the tile, against the key row: a bijection. -/
def keyEquiv : Fin 16 × Fin 512 ≃ Fin 8192 where
  toFun p := keyRow p.1 p.2
  invFun m := (⟨m.val / 512, by omega⟩, ⟨m.val % 512, by omega⟩)
  left_inv := by
    rintro ⟨t, j⟩
    refine Prod.ext (Fin.ext ?_) (Fin.ext ?_)
    · show (512 * t.val + j.val) / 512 = t.val
      omega
    · show (512 * t.val + j.val) % 512 = j.val
      omega
  right_inv := by
    intro m
    refine Fin.ext ?_
    show 512 * (m.val / 512) + m.val % 512 = m.val
    omega

/-- A sum tile by tile is the sum over all key rows. -/
theorem sum_tiles {M : Type*} [AddCommMonoid M] (f : Fin 8192 → M) :
    ∑ t : Fin 16, ∑ j : Fin 512, f (keyRow t j) = ∑ m : Fin 8192, f m := by
  rw [← Fintype.sum_prod_type' (fun t j => f (keyRow t j))]
  exact Equiv.sum_comp keyEquiv f

/-! ### One row: dividing the total is dividing the terms -/

/-- For real scores `a`, real values `v` and a positive real lower bound `e`:
    (Σ a·v) / max(sqrt(Σ a²), e) = Σ (a / max(sqrt(Σ a²), e))·v. -/
theorem div_total {ι : Type*} [Fintype ι] (a v : ι → ℝ) (e : ℝ) (he : 0 < e) :
    Ideal.div (∑ m, (a m : EReal) * (v m : EReal))
        (max (Ideal.sqrt (∑ m, (a m : EReal) * (a m : EReal))) (e : EReal))
      = ∑ m, Ideal.div (a m : EReal) (max (Ideal.sqrt (∑ m, (a m : EReal) * (a m : EReal))) (e : EReal))
          * (v m : EReal) := by
  have hsq : (∑ m, (a m : EReal) * (a m : EReal)) = ((∑ m, a m * a m : ℝ) : EReal) := by
    rw [coe_sum]; simp only [EReal.coe_mul]
  have hav : (∑ m, (a m : EReal) * (v m : EReal)) = ((∑ m, a m * v m : ℝ) : EReal) := by
    rw [coe_sum]; simp only [EReal.coe_mul]
  have hnn : (0 : ℝ) ≤ ∑ m, a m * a m := Finset.sum_nonneg fun m _ => mul_self_nonneg _
  rw [hsq, hav, Ideal.sqrt_coe, if_neg (not_lt.mpr hnn), ← coe_max]
  generalize hD : max (Real.sqrt (∑ m, a m * a m)) e = D
  have hDpos : 0 < D := by rw [← hD]; exact lt_of_lt_of_le he (le_max_right _ _)
  have hterm : ∀ m, Ideal.div (a m : EReal) (D : EReal) * (v m : EReal) = ((a m * (1 / D) * v m : ℝ) : EReal) := by
    intro m
    rw [Ideal.div_coe hDpos.ne', EReal.coe_mul, EReal.coe_mul]
  rw [Ideal.div_coe hDpos.ne', ← EReal.coe_mul]
  simp only [hterm]
  rw [← coe_sum, Finset.sum_mul]
  refine congrArg _ (Finset.sum_congr rfl fun m _ => ?_)
  ring

/-! ### The two closed forms agree -/

theorem kerOut_eq_refOut (P S : Cert.AttnSpec.Mat 8192 512) (W : Cert.AttnSpec.Mat 128 512) (b : Cert.AttnSpec.Vc 128)
    (hP : Cert.AttnSpec.Fin2 P) (hS : Cert.AttnSpec.Fin2 S) (hW : Cert.AttnSpec.Fin2 W) (hb : Cert.AttnSpec.Fin1 b) :
    Cert.AttnSpec.kerOut P S W b = Cert.AttnSpec.refOut P S W b := by
  choose p hp using hP
  choose s hs using hS
  choose w hw using hW
  choose c hc using hb
  obtain ⟨e, he, hee⟩ := eps_pos
  funext i
  obtain ⟨n, k, rfl⟩ : ∃ (n : Fin 8192) (k : Fin 512), i = ix2 n k := ⟨i 0, i 1, eq_ix2 i⟩
  show Ideal.div (accAll P S W b n k) (max (Ideal.sqrt (sqAll P S W b n)) eps)
      = ∑ m : Fin 8192, Ideal.div (sAt P S W b n m) (denAt P S W b n) * S (ix2 m k)
  unfold accAll sqAll denAt
  rw [sum_tiles (fun m => sAt P S W b n m * S (ix2 m k)), sum_tiles (fun m => sAt P S W b n m * sAt P S W b n m)]
  simp only [sAt_coe hp hs hw hc, hs, hee]
  exact div_total (fun m => sR p s w c n m) (fun m => s (ix2 m k)) e he

end Cert.AttnAlgebra

end
-- ==== Proof.RefIsSpec.lean ====
/-
  The reference program computes the reference's closed form.

  Read one element at a time: the two projections are Σ_e X(n,e)·W(l,e) + b(l); their contraction over the 128
  features, bounded below by zero, is the score s(n,m); the row sum of squared scores (onto a zero initial value),
  its square root, and the maximum with ε give the divisor D(n); every score is divided by its row's divisor; and
  the last contraction over the key rows with S gives Σ_m (s(n,m)/D(n))·S(m,e).
-/
import proofs.«123942_j56169582297517_2_alg».proof.Proof.Spec
import proofs.«123942_j56169582297517_2_alg».proof.Proof.Gen.ReferenceIdeal.Read

noncomputable section

open scoped BigOperators

namespace Cert.AttnRef

open Cert.ReferenceIdeal Cert.ReferenceIdeal.Read Idealize.ShloMosaic Idealize.ShloMosaic.ValueIdx Cert.AttnSpec

/-- Two rank-2 indices with the same coordinates are equal. -/
local macro "idx2" : tactic =>
  `(tactic| (funext a; match a with | ⟨0, _⟩ => rfl | ⟨1, _⟩ => rfl))
/-- Two rank-1 indices with the same coordinate are equal. -/
local macro "idx1" : tactic =>
  `(tactic| (funext a; match a with | ⟨0, _⟩ => rfl))

variable (x0 x1 x : (⟨S8192x512, .f32⟩ : BufTy).Contents (Elt Ideal))
variable (x2 : (⟨S128x512, .f32⟩ : BufTy).Contents (Elt Ideal)) (x3 : (⟨S128, .f32⟩ : BufTy).Contents (Elt Ideal))

/-- The first projection, read at row `n`, feature `l`. -/
theorem proj0_eq (n : Fin 8192) (l : Fin 128) :
    val_main_v3 (F := Ideal) x x2 x3 (ix2 n l) = qAt x x2 x3 n l := by
  rw [val_main_v3_apply, val_main_v0_apply, val_main_v2_apply, val_main_v1_apply, Ideal.addf_def]
  unfold qAt
  rw [show idx_main_v1 (idx_main_v2 (ix2 n l)) = ix1 l by idx1]
  refine congrArg (· + x3 (ix1 l)) (Finset.sum_congr rfl fun k _ => ?_)
  rw [show lidx_main_v0 (ix2 n l) k = ix2 n k by idx2, show ridx_main_v0 (ix2 n l) k = ix2 l k by idx2]

/-- The second projection, read at row `n`, feature `l`. -/
theorem proj1_eq (n : Fin 8192) (l : Fin 128) :
    val_main_v7 (F := Ideal) x x2 x3 (ix2 n l) = qAt x x2 x3 n l := by
  rw [val_main_v7_apply, val_main_v4_apply, val_main_v6_apply, val_main_v5_apply, Ideal.addf_def]
  unfold qAt
  rw [show idx_main_v5 (idx_main_v6 (ix2 n l)) = ix1 l by idx1]
  refine congrArg (· + x3 (ix1 l)) (Finset.sum_congr rfl fun k _ => ?_)
  rw [show lidx_main_v4 (ix2 n l) k = ix2 n k by idx2, show ridx_main_v4 (ix2 n l) k = ix2 l k by idx2]

/-- The rectified score, read at query row `n`, key row `m`. -/
theorem score_eq (n m : Fin 8192) :
    val_main_v10 (F := Ideal) x0 x1 x2 x3 (ix2 n m) = sAt x0 x1 x2 x3 n m := by
  rw [val_main_v10_apply, val_main_v8_apply, val_main_v9_apply, val_main_cst_apply, Ideal.maximumf_def,
    Ideal.ofBits_def, Ideal.ofBits_zero_f32]
  unfold sAt
  refine congrArg (max · 0) (Finset.sum_congr rfl fun k _ => ?_)
  rw [show lidx_main_v8 (ix2 n m) k = ix2 n k by idx2, show ridx_main_v8 (ix2 n m) k = ix2 m k by idx2,
    proj0_eq, proj1_eq]

/-- The row divisor, read at row `n`. -/
theorem den_eq (n : Fin 8192) :
    val_main_v16 (F := Ideal) x0 x1 x2 x3 (ix2 n (0 : Fin 1)) = denAt x0 x1 x2 x3 n := by
  rw [val_main_v16_apply, val_main_v14_apply, val_main_v13_apply, val_main_v12_apply, val_main_v15_apply,
    val_main_cst_1_apply, val_main_cst_0_apply, Ideal.hostUnary_sqrt_def, Ideal.maximumf_def, Ideal.ofBits_def,
    Ideal.ofBits_def, Ideal.ofBits_zero_f32, zero_add]
  unfold denAt eps
  refine congrArg (fun t => max (Ideal.sqrt t) (Ideal.ofBits .f32 0x2B8CBCCC#32)) (Finset.sum_congr rfl fun k _ => ?_)
  rw [show idx_main_v12 (idx_main_v13 (ix2 n (0 : Fin 1))) k = ix2 n k by idx2, val_main_v11_apply, Ideal.mulf_def,
    score_eq]

/-- The divided score, read at query row `n`, key row `m`. -/
theorem quot_eq (n m : Fin 8192) :
    val_main_v18 (F := Ideal) x0 x1 x2 x3 (ix2 n m)
      = Ideal.div (sAt x0 x1 x2 x3 n m) (denAt x0 x1 x2 x3 n) := by
  rw [val_main_v18_apply, val_main_v17_apply, Ideal.hostDivf_def, score_eq,
    show idx_main_v17 (ix2 n m) = ix2 n (0 : Fin 1) by idx2, den_eq]

/-- The reference program's result is the reference's closed form. -/
theorem ref_eq (x0 x1 : (⟨Cert.ReferenceIdeal.S8192x512, .f32⟩ : BufTy).Contents (Elt Ideal))
    (x2 : (⟨Cert.ReferenceIdeal.S128x512, .f32⟩ : BufTy).Contents (Elt Ideal))
    (x3 : (⟨Cert.ReferenceIdeal.S128, .f32⟩ : BufTy).Contents (Elt Ideal)) :
    Cert.ReferenceIdeal.Read.val_main_v19 (F := Ideal) x0 x1 x2 x3 = Cert.AttnSpec.refOut x0 x1 x2 x3 := by
  funext i
  obtain ⟨n, k, rfl⟩ : ∃ (n : Fin 8192) (k : Fin 512), i = ix2 n k := ⟨i 0, i 1, eq_ix2 i⟩
  rw [val_main_v19_apply]
  show _ = ∑ m : Fin 8192, Ideal.div (sAt x0 x1 x2 x3 n m) (denAt x0 x1 x2 x3 n) * x1 (ix2 m k)
  refine Finset.sum_congr rfl fun m _ => ?_
  rw [show lidx_main_v19 (ix2 n k) m = ix2 n m by idx2, show ridx_main_v19 (ix2 n k) m = ix2 m k by idx2, quot_eq]

end Cert.AttnRef

end
-- ==== Proof.Finite.lean ====
/-
  The stated precondition says every input entry is a real number.

  The predicate is the conjunction, over the four arguments, of "every entry x has |x| < +∞". In the extended
  reals |x| = max x (−x) is +∞ exactly at the two infinities, so |x| < +∞ holds exactly when x is a real number.
-/
import proofs.«123942_j56169582297517_2_alg».proof.Proof.Spec
import proofs.«123942_j56169582297517_2_alg».proof.Pre_finite_inputs
import Idealize.ShloMosaic.Lib.ReduceAll

noncomputable section

namespace Cert.AttnFinite

open Idealize.ShloMosaic Idealize.ShloMosaic.ValueIdx Cert.AttnSpec Cert.Pre_finite_inputs

/-- The scalar shape has one index. -/
instance : Subsingleton Cert.Pre_finite_inputs.S_.Idx := ⟨fun _ _ => funext fun d => d.elim0⟩

/-- The single-precision pattern of +∞ denotes the top element. -/
theorem ofBits_inf : Ideal.ofBits .f32 0x7F800000#32 = (⊤ : EReal) := by
  simp [Ideal.ofBits, Ideal.ieee]

/-- An extended real whose absolute value is below +∞ is a real number. -/
theorem real_of_abs_lt_top (x : EReal) (h : Ideal.cmp .olt (max x (-x)) ⊤ = 1#1) : ∃ r : ℝ, x = (r : EReal) := by
  induction x using EReal.rec with
  | bot => simp [Ideal.cmp] at h
  | coe r => exact ⟨r, rfl⟩
  | top => simp [Ideal.cmp] at h

/-- One entry of the elementwise test "|a| < +∞" being true says that entry of `a` is a real number. -/
theorem elem_real {s : Shape} (a : FVec Ideal s .f32)
    (bc : Cert.Pre_finite_inputs.S_.BroadcastsInDim s (![] : Fin 0 → Fin s.rank)) (i : s.Idx)
    (h : cmpf .olt (Host.absf a)
          (broadcastInDim s ![] bc (constant (F := Ideal) Cert.Pre_finite_inputs.S_ .f32 0x7F800000#32)) i = 1#1) :
    ∃ r : ℝ, a i = (r : EReal) := by
  have h' : Ideal.cmp .olt (max (a i) (-(a i))) (Ideal.ofBits .f32 0x7F800000#32) = 1#1 := h
  rw [ofBits_inf] at h'
  exact real_of_abs_lt_top _ h'

/-- The precondition gives the four finiteness facts. -/
theorem finite_of_pre [Cert.Pre_finite_inputs.Facts]
    (a0 a1 : FVec Ideal Cert.Pre_finite_inputs.S8192x512 .f32) (a2 : FVec Ideal Cert.Pre_finite_inputs.S128x512 .f32)
    (a3 : FVec Ideal Cert.Pre_finite_inputs.S128 .f32)
    (h : Cert.Pre_finite_inputs.fn (F := Ideal) a0 a1 a2 a3 = (fun _ => 1#1)) :
    Cert.AttnSpec.Fin2 (a := 8192) (b := 512) a0 ∧ Cert.AttnSpec.Fin2 (a := 8192) (b := 512) a1
      ∧ Cert.AttnSpec.Fin2 (a := 128) (b := 512) a2 ∧ Cert.AttnSpec.Fin1 (a := 128) a3 := by
  have h0 := congrFun h ix0
  dsimp only [fn, fn_part1] at h0
  change IntOp.andi (IntOp.andi (IntOp.andi _ _) _) _ = 1#1 at h0
  rw [IntOp.andi_eq_one, IntOp.andi_eq_one, IntOp.andi_eq_one] at h0
  obtain ⟨⟨⟨e0, e1⟩, e2⟩, e3⟩ := h0
  exact ⟨fun i => elem_real a0 _ i (Host.reduce_andi_all _ _ _ _ _ e0 i),
    fun i => elem_real a1 _ i (Host.reduce_andi_all _ _ _ _ _ e1 i),
    fun i => elem_real a2 _ i (Host.reduce_andi_all _ _ _ _ _ e2 i),
    fun i => elem_real a3 _ i (Host.reduce_andi_all _ _ _ _ _ e3 i)⟩

end Cert.AttnFinite

end
-- ==== Proof.AttnPieces.lean ====
/-
  The attention kernel's body, case by case, as values: what each of the three control cases leaves in the two running
  totals and (at the last key tile) in the output block, as the body's arithmetic applied to the query block, the point's
  key tile and value tile, and the totals the tile before left. Stated over variable memrefs and contents, for any
  float values.
-/
import proofs.«123942_j56169582297517_2_alg».proof.Proof.AttnRunC
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.AttnValue

open Cert.KernelIdeal Cert.KernelIdeal.Gen Cert.KernelIdeal.Attn
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

theorem hz2 : (![0, 0] : Fin 2 → Nat) = fun _ => 0 := funext fun a => by fin_cases a <;> rfl

/-- The key tile of the point: 512 rows of the resident keys from the point's row offset. -/
abbrev keyTile (i : grid2.Coords) (x1 : Vec F S8192x128 .bf16) : Vec F S512x128 .bf16 :=
  View.ld x1 (Rect.unit (s := S8192x128) (k2_off1 i) S512x128.size (k2_off1_inb i))
/-- The value tile of the point: 512 rows of the resident values from the point's row offset. -/
abbrev valTile (i : grid2.Coords) (x2 : Vec F S8192x512 .bf16) : Vec F S512x512 .bf16 :=
  View.ld x2 (Rect.unit (s := S8192x512) (k2_off2 i) S512x512.size (k2_off2_inb i))

/-! ## First key tile: the totals are reset to zero, then this tile is added -/

theorem pieceA0 (c : Dev nD) (i : grid2.Coords) (arg2 : Memref sig .tc .vmem S1024x128 .bf16) (harg2 : arg2.IsWhole) (arg3 : Memref sig .tc .vmem S8192x128 .bf16) (harg3 : arg3.IsWhole) (arg4 : Memref sig .tc .vmem S8192x512 .bf16) (harg4 : arg4.IsWhole) (arg5 : Memref sig .tc .vmem S1024x512 .f32) (harg5 : arg5.IsWhole) (arg6 : Memref sig .tc .vmem S1024x512 .f32) (harg6 : arg6.IsWhole) (arg7 : Memref sig .tc .vmem S1024x1 .f32) (harg7 : arg7.IsWhole) (hc0 : cond2_0 i) (hc1 : ¬cond2_1 i) (x0 : Vec F S1024x128 .bf16) (x1 : Vec F S8192x128 .bf16) (x2 : Vec F S8192x512 .bf16)
    (V0 : View sig .tc .vmem S1024x512 .f32) :
    V0.read (Elt F) (V0.writes (Elt F) V0.junk (kernelRun2_A c i arg2 harg2 arg3 harg3 arg4 harg4 arg5 harg5 arg6 harg6 arg7 harg7 hc0 hc1 x0 x1 x2).2.1)
      = k2_pay6 (keyTile i x1) (valTile i x2) x0 k2_pay2 := by
  rw [View.read_writes_eq_canon _ _ _ (View.cover_of_tiledL _ S1024x512.size (by sl_kernel_rfl))]
  unfold kernelRun2_A
  dsimp only
  sl_unfold_run_names
  rw [View.canon_cons_unit_zero (S := S1024x512) hz2, View.readCov_unit_zero (S := S1024x512) _ hz2]
  simp only [View.readAt_eq_ld, harg2.read_unread, harg3.read_unread, harg4.read_unread, harg6.read_unread, harg7.read_unread,
    View.ld_unit_zero (S := S1024x128) hz2, View.ld_unit_zero (S := S1024x512) hz2, View.ld_unit_zero (S := S1024x1) hz2]

theorem pieceA1 (c : Dev nD) (i : grid2.Coords) (arg2 : Memref sig .tc .vmem S1024x128 .bf16) (harg2 : arg2.IsWhole) (arg3 : Memref sig .tc .vmem S8192x128 .bf16) (harg3 : arg3.IsWhole) (arg4 : Memref sig .tc .vmem S8192x512 .bf16) (harg4 : arg4.IsWhole) (arg5 : Memref sig .tc .vmem S1024x512 .f32) (harg5 : arg5.IsWhole) (arg6 : Memref sig .tc .vmem S1024x512 .f32) (harg6 : arg6.IsWhole) (arg7 : Memref sig .tc .vmem S1024x1 .f32) (harg7 : arg7.IsWhole) (hc0 : cond2_0 i) (hc1 : ¬cond2_1 i) (x0 : Vec F S1024x128 .bf16) (x1 : Vec F S8192x128 .bf16) (x2 : Vec F S8192x512 .bf16)
    (V1 : View sig .tc .vmem S1024x1 .f32) :
    V1.read (Elt F) (V1.writes (Elt F) V1.junk (kernelRun2_A c i arg2 harg2 arg3 harg3 arg4 harg4 arg5 harg5 arg6 harg6 arg7 harg7 hc0 hc1 x0 x1 x2).2.2.1)
      = k2_pay5 (keyTile i x1) x0 k2_pay3 := by
  rw [View.read_writes_eq_canon _ _ _ (View.cover_of_tiledL _ S1024x1.size (by sl_kernel_rfl))]
  unfold kernelRun2_A
  dsimp only
  sl_unfold_run_names
  rw [View.canon_cons_unit_zero (S := S1024x1) hz2, View.readCov_unit_zero (S := S1024x1) _ hz2]
  simp only [View.readAt_eq_ld, harg2.read_unread, harg3.read_unread, harg4.read_unread, harg6.read_unread, harg7.read_unread,
    View.ld_unit_zero (S := S1024x128) hz2, View.ld_unit_zero (S := S1024x512) hz2, View.ld_unit_zero (S := S1024x1) hz2]

/-! ## A middle key tile: this tile is added onto the totals the tile before left -/

theorem pieceB0 (c : Dev nD) (i : grid2.Coords) (arg2 : Memref sig .tc .vmem S1024x128 .bf16) (harg2 : arg2.IsWhole) (arg3 : Memref sig .tc .vmem S8192x128 .bf16) (harg3 : arg3.IsWhole) (arg4 : Memref sig .tc .vmem S8192x512 .bf16) (harg4 : arg4.IsWhole) (arg5 : Memref sig .tc .vmem S1024x512 .f32) (harg5 : arg5.IsWhole) (arg6 : Memref sig .tc .vmem S1024x512 .f32) (harg6 : arg6.IsWhole) (arg7 : Memref sig .tc .vmem S1024x1 .f32) (harg7 : arg7.IsWhole) (hc0 : ¬cond2_0 i) (hc1 : ¬cond2_1 i) (x0 : Vec F S1024x128 .bf16) (x1 : Vec F S8192x128 .bf16) (x2 : Vec F S8192x512 .bf16) (xs0 : Vec F S1024x512 .f32) (xs1 : Vec F S1024x1 .f32)
    (V0 : View sig .tc .vmem S1024x512 .f32) :
    V0.read (Elt F) (V0.writes (Elt F) V0.junk (kernelRun2_B c i arg2 harg2 arg3 harg3 arg4 harg4 arg5 harg5 arg6 harg6 arg7 harg7 hc0 hc1 x0 x1 x2 xs0 xs1).2.1)
      = k2_pay6 (keyTile i x1) (valTile i x2) x0 xs0 := by
  rw [View.read_writes_eq_canon _ _ _ (View.cover_of_tiledL _ S1024x512.size (by sl_kernel_rfl))]
  unfold kernelRun2_B
  dsimp only
  rw [View.canon_unit_zero hz2]
  simp only [View.readAt_eq_ld, harg2.read_unread, harg3.read_unread, harg4.read_unread, harg6.read_unread, harg7.read_unread,
    View.ld_unit_zero (S := S1024x128) hz2, View.ld_unit_zero (S := S1024x512) hz2, View.ld_unit_zero (S := S1024x1) hz2]

theorem pieceB1 (c : Dev nD) (i : grid2.Coords) (arg2 : Memref sig .tc .vmem S1024x128 .bf16) (harg2 : arg2.IsWhole) (arg3 : Memref sig .tc .vmem S8192x128 .bf16) (harg3 : arg3.IsWhole) (arg4 : Memref sig .tc .vmem S8192x512 .bf16) (harg4 : arg4.IsWhole) (arg5 : Memref sig .tc .vmem S1024x512 .f32) (harg5 : arg5.IsWhole) (arg6 : Memref sig .tc .vmem S1024x512 .f32) (harg6 : arg6.IsWhole) (arg7 : Memref sig .tc .vmem S1024x1 .f32) (harg7 : arg7.IsWhole) (hc0 : ¬cond2_0 i) (hc1 : ¬cond2_1 i) (x0 : Vec F S1024x128 .bf16) (x1 : Vec F S8192x128 .bf16) (x2 : Vec F S8192x512 .bf16) (xs0 : Vec F S1024x512 .f32) (xs1 : Vec F S1024x1 .f32)
    (V1 : View sig .tc .vmem S1024x1 .f32) :
    V1.read (Elt F) (V1.writes (Elt F) V1.junk (kernelRun2_B c i arg2 harg2 arg3 harg3 arg4 harg4 arg5 harg5 arg6 harg6 arg7 harg7 hc0 hc1 x0 x1 x2 xs0 xs1).2.2.1)
      = k2_pay5 (keyTile i x1) x0 xs1 := by
  rw [View.read_writes_eq_canon _ _ _ (View.cover_of_tiledL _ S1024x1.size (by sl_kernel_rfl))]
  unfold kernelRun2_B
  dsimp only
  rw [View.canon_unit_zero hz2]
  simp only [View.readAt_eq_ld, harg2.read_unread, harg3.read_unread, harg4.read_unread, harg6.read_unread, harg7.read_unread,
    View.ld_unit_zero (S := S1024x128) hz2, View.ld_unit_zero (S := S1024x512) hz2, View.ld_unit_zero (S := S1024x1) hz2]

/-! ## The last key tile: the totals as at a middle tile, and the quotient of the new totals is stored -/

theorem pieceC0 (c : Dev nD) (i : grid2.Coords) (arg2 : Memref sig .tc .vmem S1024x128 .bf16) (harg2 : arg2.IsWhole) (arg3 : Memref sig .tc .vmem S8192x128 .bf16) (harg3 : arg3.IsWhole) (arg4 : Memref sig .tc .vmem S8192x512 .bf16) (harg4 : arg4.IsWhole) (arg5 : Memref sig .tc .vmem S1024x512 .f32) (harg5 : arg5.IsWhole) (arg6 : Memref sig .tc .vmem S1024x512 .f32) (harg6 : arg6.IsWhole) (arg7 : Memref sig .tc .vmem S1024x1 .f32) (harg7 : arg7.IsWhole) (hc0 : ¬cond2_0 i) (hc1 : cond2_1 i) (x0 : Vec F S1024x128 .bf16) (x1 : Vec F S8192x128 .bf16) (x2 : Vec F S8192x512 .bf16) (xs0 : Vec F S1024x512 .f32) (xs1 : Vec F S1024x1 .f32)
    (V0 : View sig .tc .vmem S1024x512 .f32) :
    V0.read (Elt F) (V0.writes (Elt F) V0.junk (kernelRun2_C c i arg2 harg2 arg3 harg3 arg4 harg4 arg5 harg5 arg6 harg6 arg7 harg7 hc0 hc1 x0 x1 x2 xs0 xs1).2.1)
      = k2_pay6 (keyTile i x1) (valTile i x2) x0 xs0 := by
  rw [View.read_writes_eq_canon _ _ _ (View.cover_of_tiledL _ S1024x512.size (by sl_kernel_rfl))]
  unfold kernelRun2_C
  dsimp only
  sl_unfold_run_names
  rw [View.canon_unit_zero hz2]
  simp only [View.readAt_eq_ld, harg2.read_unread, harg3.read_unread, harg4.read_unread, harg6.read_unread, harg7.read_unread,
    View.ld_unit_zero (S := S1024x128) hz2, View.ld_unit_zero (S := S1024x512) hz2, View.ld_unit_zero (S := S1024x1) hz2]

theorem pieceC1 (c : Dev nD) (i : grid2.Coords) (arg2 : Memref sig .tc .vmem S1024x128 .bf16) (harg2 : arg2.IsWhole) (arg3 : Memref sig .tc .vmem S8192x128 .bf16) (harg3 : arg3.IsWhole) (arg4 : Memref sig .tc .vmem S8192x512 .bf16) (harg4 : arg4.IsWhole) (arg5 : Memref sig .tc .vmem S1024x512 .f32) (harg5 : arg5.IsWhole) (arg6 : Memref sig .tc .vmem S1024x512 .f32) (harg6 : arg6.IsWhole) (arg7 : Memref sig .tc .vmem S1024x1 .f32) (harg7 : arg7.IsWhole) (hc0 : ¬cond2_0 i) (hc1 : cond2_1 i) (x0 : Vec F S1024x128 .bf16) (x1 : Vec F S8192x128 .bf16) (x2 : Vec F S8192x512 .bf16) (xs0 : Vec F S1024x512 .f32) (xs1 : Vec F S1024x1 .f32)
    (V1 : View sig .tc .vmem S1024x1 .f32) :
    V1.read (Elt F) (V1.writes (Elt F) V1.junk (kernelRun2_C c i arg2 harg2 arg3 harg3 arg4 harg4 arg5 harg5 arg6 harg6 arg7 harg7 hc0 hc1 x0 x1 x2 xs0 xs1).2.2.1)
      = k2_pay5 (keyTile i x1) x0 xs1 := by
  rw [View.read_writes_eq_canon _ _ _ (View.cover_of_tiledL _ S1024x1.size (by sl_kernel_rfl))]
  unfold kernelRun2_C
  dsimp only
  sl_unfold_run_names
  rw [View.canon_unit_zero hz2]
  simp only [View.readAt_eq_ld, harg2.read_unread, harg3.read_unread, harg4.read_unread, harg6.read_unread, harg7.read_unread,
    View.ld_unit_zero (S := S1024x128) hz2, View.ld_unit_zero (S := S1024x512) hz2, View.ld_unit_zero (S := S1024x1) hz2]

theorem pieceC3 (c : Dev nD) (i : grid2.Coords) (arg2 : Memref sig .tc .vmem S1024x128 .bf16) (harg2 : arg2.IsWhole) (arg3 : Memref sig .tc .vmem S8192x128 .bf16) (harg3 : arg3.IsWhole) (arg4 : Memref sig .tc .vmem S8192x512 .bf16) (harg4 : arg4.IsWhole) (arg5 : Memref sig .tc .vmem S1024x512 .f32) (harg5 : arg5.IsWhole) (arg6 : Memref sig .tc .vmem S1024x512 .f32) (harg6 : arg6.IsWhole) (arg7 : Memref sig .tc .vmem S1024x1 .f32) (harg7 : arg7.IsWhole) (hc0 : ¬cond2_0 i) (hc1 : cond2_1 i) (x0 : Vec F S1024x128 .bf16) (x1 : Vec F S8192x128 .bf16) (x2 : Vec F S8192x512 .bf16) (xs0 : Vec F S1024x512 .f32) (xs1 : Vec F S1024x1 .f32)
    (V3 : View sig .tc .vmem S1024x512 .f32) :
    V3.read (Elt F) (V3.writes (Elt F) V3.junk (kernelRun2_C c i arg2 harg2 arg3 harg3 arg4 harg4 arg5 harg5 arg6 harg6 arg7 harg7 hc0 hc1 x0 x1 x2 xs0 xs1).1)
      = k2_pay1 (k2_pay5 (keyTile i x1) x0 xs1) (k2_pay6 (keyTile i x1) (valTile i x2) x0 xs0) := by
  rw [View.read_writes_eq_canon _ _ _ (View.cover_of_tiledL _ S1024x512.size (by sl_kernel_rfl))]
  unfold kernelRun2_C
  dsimp only
  sl_unfold_run_names
  rw [View.canon_unit_zero hz2, View.readCov_unit_zero (S := S1024x1) _ hz2, View.readCov_unit_zero (S := S1024x512) _ hz2]
  simp only [View.readAt_eq_ld, harg2.read_unread, harg3.read_unread, harg4.read_unread, harg6.read_unread, harg7.read_unread,
    View.ld_unit_zero (S := S1024x128) hz2, View.ld_unit_zero (S := S1024x512) hz2, View.ld_unit_zero (S := S1024x1) hz2]

end Cert.KernelIdeal.AttnValue
end
-- ==== Proof.LibKeepdimsCol.lean ====
/-
  Two layout operations read at an index, for a column kept by a row reduction: a vector of length a cast to an
  [a, 1] column reads the vector's entry, and an [a, 1] column broadcast to [a, b] reads the row's one entry.
-/
import Idealize.ShloMosaic.Lib.Pipeline.Value
import Idealize.ShloMosaic.Lib.ValueIdx

noncomputable section

namespace Cert.LibKeepdimsCol

open Idealize.ShloMosaic Idealize.ShloMosaic.ValueIdx

variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` array cast to `[a]` reads, at `i`, the operand at `(i, 0)`. -/
theorem shapeCast_a1_a_apply {a : ℕ} (x : (⟨2, ![a, 1]⟩ : Shape).Idx → α) (h : (⟨2, ![a, 1]⟩ : Shape).ShapeCasts ⟨1, ![a]⟩)
    (i : Fin a) : shapeCast ⟨1, ![a]⟩ x h (ix1 i) = x (ix2 i (0 : Fin 1)) :=
  shapeCast_apply x h _ _ (by
    rw [Shape.rowMajor_val_two, Shape.rowMajor_val_one]
    show i.val * 1 + 0 = i.val
    rw [Nat.mul_one, Nat.add_zero])

/-- An `[a, 1]` column broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ =>
    show (0 : ℕ) = if (1 : ℕ) = 1 then 0 else c.val
    rw [if_pos rfl]

end Cert.LibKeepdimsCol

end
-- ==== Proof.AttnPayloads.lean ====
/-
  The attention kernel's arithmetic read at an index, over the extended reals.

  A change of float format and a shape cast to the same shape are the identity; the product into the zero
  accumulator is the plain sum over the contracted axis; the lane sum of a [1024,512] array kept as a [1024,1]
  column is the row's sum over the 512 lanes; a [1024,1] column broadcast to [1024,512] reads the row's one entry.
  So with s(r,j) = max(Σ_l q(r,l)·kt(j,l), 0) the score of row r of the query block against row j of the key tile:
  the new total of squares at row r is the old one plus Σ_j s(r,j)², the new total at (r,e) is the old one plus
  Σ_j s(r,j)·vt(j,e), and the stored quotient at (r,e) is total(r,e) / max(sqrt(squares(r)), ε).
-/
import proofs.«123942_j56169582297517_2_alg».proof.Proof.Gen.KernelIdeal.Skeleton
import proofs.«123942_j56169582297517_2_alg».proof.Proof.Spec
import proofs.«123942_j56169582297517_2_alg».proof.Proof.LibKeepdimsCol
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.KernelIdeal.AttnValue

open Cert.KernelIdeal Cert.KernelIdeal.Gen Cert.AttnSpec
open Idealize.ShloMosaic Idealize.ShloMosaic.ValueIdx

/-! ## The two contractions' operand indices

The score product contracts axis 1 of both operands: at output index (r, j) and contraction coordinate k the left
operand is read at (r, k) and the right at (j, k). The value product contracts axis 1 of the left operand with axis 0
of the right: at output index (r, e) the left operand is read at (r, k) and the right at (k, e). -/

theorem dA_lhs_row (i : S1024x512.Idx) (k : dot_S1024x128_S512x128_S1024x512_1_1_0_0_n_n.contr.Idx) :
    (dot_S1024x128_S512x128_S1024x512_1_1_0_0_n_n.lhsIdx i k 0).val = (i 0).val := by
  unfold DotDims.lhsIdx
  rw [dif_neg (show ¬(0 : Fin S1024x128.rank) ∈ dot_S1024x128_S512x128_S1024x512_1_1_0_0_n_n.lhsBatch by decide), dif_pos (show (0 : Fin S1024x128.rank) ∈ dot_S1024x128_S512x128_S1024x512_1_1_0_0_n_n.lhsNonContracting by decide)]
  rfl
theorem dA_lhs_col (i : S1024x512.Idx) (k : dot_S1024x128_S512x128_S1024x512_1_1_0_0_n_n.contr.Idx) :
    (dot_S1024x128_S512x128_S1024x512_1_1_0_0_n_n.lhsIdx i k 1).val = (k ⟨0, by decide⟩).val :=
  dot_S1024x128_S512x128_S1024x512_1_1_0_0_n_n.lhsIdx_val_of_single rfl i k
theorem dA_rhs_row (i : S1024x512.Idx) (k : dot_S1024x128_S512x128_S1024x512_1_1_0_0_n_n.contr.Idx) :
    (dot_S1024x128_S512x128_S1024x512_1_1_0_0_n_n.rhsIdx i k 0).val = (i 1).val := by
  unfold DotDims.rhsIdx
  rw [dif_neg (show ¬(0 : Fin S512x128.rank) ∈ dot_S1024x128_S512x128_S1024x512_1_1_0_0_n_n.rhsBatch by decide), dif_pos (show (0 : Fin S512x128.rank) ∈ dot_S1024x128_S512x128_S1024x512_1_1_0_0_n_n.rhsNonContracting by decide)]
  rfl
theorem dA_rhs_col (i : S1024x512.Idx) (k : dot_S1024x128_S512x128_S1024x512_1_1_0_0_n_n.contr.Idx) :
    (dot_S1024x128_S512x128_S1024x512_1_1_0_0_n_n.rhsIdx i k 1).val = (k ⟨0, by decide⟩).val :=
  dot_S1024x128_S512x128_S1024x512_1_1_0_0_n_n.rhsIdx_val_of_single rfl i k

theorem dB_lhs_row (i : S1024x512.Idx) (k : dot_S1024x512_S512x512_S1024x512_1_0_0_1_n_n.contr.Idx) :
    (dot_S1024x512_S512x512_S1024x512_1_0_0_1_n_n.lhsIdx i k 0).val = (i 0).val := by
  unfold DotDims.lhsIdx
  rw [dif_neg (show ¬(0 : Fin S1024x512.rank) ∈ dot_S1024x512_S512x512_S1024x512_1_0_0_1_n_n.lhsBatch by decide), dif_pos (show (0 : Fin S1024x512.rank) ∈ dot_S1024x512_S512x512_S1024x512_1_0_0_1_n_n.lhsNonContracting by decide)]
  rfl
theorem dB_lhs_col (i : S1024x512.Idx) (k : dot_S1024x512_S512x512_S1024x512_1_0_0_1_n_n.contr.Idx) :
    (dot_S1024x512_S512x512_S1024x512_1_0_0_1_n_n.lhsIdx i k 1).val = (k ⟨0, by decide⟩).val :=
  dot_S1024x512_S512x512_S1024x512_1_0_0_1_n_n.lhsIdx_val_of_single rfl i k
theorem dB_rhs_row (i : S1024x512.Idx) (k : dot_S1024x512_S512x512_S1024x512_1_0_0_1_n_n.contr.Idx) :
    (dot_S1024x512_S512x512_S1024x512_1_0_0_1_n_n.rhsIdx i k 0).val = (k ⟨0, by decide⟩).val :=
  dot_S1024x512_S512x512_S1024x512_1_0_0_1_n_n.rhsIdx_val_of_single rfl i k
theorem dB_rhs_col (i : S1024x512.Idx) (k : dot_S1024x512_S512x512_S1024x512_1_0_0_1_n_n.contr.Idx) :
    (dot_S1024x512_S512x512_S1024x512_1_0_0_1_n_n.rhsIdx i k 1).val = (i 1).val := by
  unfold DotDims.rhsIdx
  rw [dif_neg (show ¬(1 : Fin S512x512.rank) ∈ dot_S1024x512_S512x512_S1024x512_1_0_0_1_n_n.rhsBatch by decide), dif_pos (show (1 : Fin S512x512.rank) ∈ dot_S1024x512_S512x512_S1024x512_1_0_0_1_n_n.rhsNonContracting by decide)]
  rfl

/-- The product of a [1024,128] block with the transpose of a [512,128] tile, into the zero accumulator, at (r, j). -/
theorem matmulA_at (l : FVec Ideal S1024x128 .bf16) (rr : FVec Ideal S512x128 .bf16) (r : Fin 1024) (j : Fin 512) :
    FloatOps.matmul dot_S1024x128_S512x128_S1024x512_1_1_0_0_n_n none l rr (constant S1024x512 .f32 0x00000000#32) (ix2 r j)
      = ∑ k : Fin 128, l (ix2 r k) * rr (ix2 j k) := by
  rw [Ideal.matmul_constant_zero_apply, ← Equiv.sum_comp (contrEquiv1 dot_S1024x128_S512x128_S1024x512_1_1_0_0_n_n 128 rfl rfl).symm]
  refine Finset.sum_congr rfl fun k _ => ?_
  have hk := contrEquiv1_symm_val dot_S1024x128_S512x128_S1024x512_1_1_0_0_n_n 128 rfl rfl k
  have el : dot_S1024x128_S512x128_S1024x512_1_1_0_0_n_n.lhsIdx (ix2 r j) ((contrEquiv1 dot_S1024x128_S512x128_S1024x512_1_1_0_0_n_n 128 rfl rfl).symm k) = ix2 r k := funext fun a => Fin.ext (by
    match a with
    | ⟨0, _⟩ => exact dA_lhs_row _ _
    | ⟨1, _⟩ => exact (dA_lhs_col _ _).trans hk)
  have er : dot_S1024x128_S512x128_S1024x512_1_1_0_0_n_n.rhsIdx (ix2 r j) ((contrEquiv1 dot_S1024x128_S512x128_S1024x512_1_1_0_0_n_n 128 rfl rfl).symm k) = ix2 j k := funext fun a => Fin.ext (by
    match a with
    | ⟨0, _⟩ => exact dA_rhs_row _ _
    | ⟨1, _⟩ => exact (dA_rhs_col _ _).trans hk)
  rw [el, er]

/-- The product of a [1024,512] block with a [512,512] tile, into the zero accumulator, at (r, e). -/
theorem matmulB_at (l : FVec Ideal S1024x512 .bf16) (rr : FVec Ideal S512x512 .bf16) (r : Fin 1024) (e : Fin 512) :
    FloatOps.matmul dot_S1024x512_S512x512_S1024x512_1_0_0_1_n_n none l rr (constant S1024x512 .f32 0x00000000#32) (ix2 r e)
      = ∑ k : Fin 512, l (ix2 r k) * rr (ix2 k e) := by
  rw [Ideal.matmul_constant_zero_apply, ← Equiv.sum_comp (contrEquiv1 dot_S1024x512_S512x512_S1024x512_1_0_0_1_n_n 512 rfl rfl).symm]
  refine Finset.sum_congr rfl fun k _ => ?_
  have hk := contrEquiv1_symm_val dot_S1024x512_S512x512_S1024x512_1_0_0_1_n_n 512 rfl rfl k
  have el : dot_S1024x512_S512x512_S1024x512_1_0_0_1_n_n.lhsIdx (ix2 r e) ((contrEquiv1 dot_S1024x512_S512x512_S1024x512_1_0_0_1_n_n 512 rfl rfl).symm k) = ix2 r k := funext fun a => Fin.ext (by
    match a with
    | ⟨0, _⟩ => exact dB_lhs_row _ _
    | ⟨1, _⟩ => exact (dB_lhs_col _ _).trans hk)
  have er : dot_S1024x512_S512x512_S1024x512_1_0_0_1_n_n.rhsIdx (ix2 r e) ((contrEquiv1 dot_S1024x512_S512x512_S1024x512_1_0_0_1_n_n 512 rfl rfl).symm k) = ix2 k e := funext fun a => Fin.ext (by
    match a with
    | ⟨0, _⟩ => exact (dB_rhs_row _ _).trans hk
    | ⟨1, _⟩ => exact dB_rhs_col _ _)
  rw [el, er]

/-! ## The score -/

/-- The rectified score of row `r` of the query block against row `j` of the key tile. -/
def tileScore (kt : Vec Ideal S512x128 .bf16) (q : Vec Ideal S1024x128 .bf16) (r : Fin 1024) (j : Fin 512) : EReal :=
  max (∑ l : Fin 128, q (ix2 r l) * kt (ix2 j l)) 0

/-- The body's rectified score product at (r, j) is the score. -/
theorem pay4_at (kt : Vec Ideal S512x128 .bf16) (q : Vec Ideal S1024x128 .bf16) (r : Fin 1024) (j : Fin 512) :
    k2_pay4 (F := Ideal) kt q (ix2 r j) = tileScore kt q r j := by
  unfold k2_pay4 tileScore
  refine (maximumf_apply (φ := .f32) _ _ (ix2 r j)).trans (congrArg₂ max ?_ Ideal.ofBits_zero_f32)
  rw [shapeCast_self, shapeCast_self]
  exact matmulA_at q kt r j

/-! ## The payloads -/

/-- The zero block the reset stores into the total of s·S. -/
theorem pay2_at (r : Fin 1024) (e : Fin 512) : k2_pay2 (F := Ideal) (ix2 r e) = 0 := by
  unfold k2_pay2
  rw [shapeCast_self]
  exact Ideal.ofBits_zero_f32

/-- The zero column the reset stores into the total of s². -/
theorem pay3_at (r : Fin 1024) : k2_pay3 (F := Ideal) (ix2 r (0 : Fin 1)) = 0 := by
  unfold k2_pay3
  rw [shapeCast_self]
  exact Ideal.ofBits_zero_f32

/-- The reduced index `r` with lane `k` put back is (r, k). -/
theorem lift_row (h : S1024x512.Reduces [1] S1024) (r : Fin 1024) (k : Fin (S1024x512.size 1)) :
    h.lift (ix1 r) k = ix2 r (⟨k.val, k.isLt⟩ : Fin 512) := by
  funext c; apply Fin.ext
  fin_cases c <;> rfl

/-- The lane sum from the zero word, at row `r`: the sum over the 512 lanes. -/
theorem laneSum_at (src : FVec Ideal S1024x512 .f32) (h : S1024x512.Reduces [1] S1024) (hφ : FKind.Formats .f32)
    (hacc : (0x00000000#32 : BitVec 32) = FKind.add.neutral .f32 hφ) (r : Fin 1024) :
    multiReduction .add [1] S1024 src 0x00000000#32 h hφ hacc (ix1 r) = ∑ j : Fin 512, src (ix2 r j) := by
  refine (Ideal.multiReduction_add_single src 0x00000000#32 h hφ hacc (ix1 r)).trans ?_
  exact Finset.sum_congr rfl fun k _ => congrArg src (lift_row h r k)

/-- The new total of squares at row `r`: the old one plus the tile's Σ_j s(r,j)². -/
theorem pay5_at (kt : Vec Ideal S512x128 .bf16) (q : Vec Ideal S1024x128 .bf16) (s1 : Vec Ideal S1024x1 .f32) (r : Fin 1024) :
    k2_pay5 (F := Ideal) kt q s1 (ix2 r (0 : Fin 1))
      = s1 (ix2 r (0 : Fin 1)) + ∑ j : Fin 512, tileScore kt q r j * tileScore kt q r j := by
  unfold k2_pay5
  rw [shapeCast_self]
  refine (addf_apply (φ := .f32) _ _ (ix2 r (0 : Fin 1))).trans (congrArg (s1 (ix2 r (0 : Fin 1)) + ·) ?_)
  refine (Cert.LibKeepdimsCol.shapeCast_a_a1_apply _ shapeCasts_S1024_S1024x1 r (0 : Fin 1)).trans ?_
  refine (laneSum_at _ reduces_S1024x512_S1024 (.inl rfl) rfl r).trans (Finset.sum_congr rfl fun j _ => ?_)
  exact (mulf_apply (φ := .f32) _ _ (ix2 r j)).trans (congrArg₂ (· * ·) (pay4_at kt q r j) (pay4_at kt q r j))

/-- The new total at (r, e): the old one plus the tile's Σ_j s(r,j)·vt(j,e). -/
theorem pay6_at (kt : Vec Ideal S512x128 .bf16) (vt : Vec Ideal S512x512 .bf16) (q : Vec Ideal S1024x128 .bf16)
    (a0 : Vec Ideal S1024x512 .f32) (r : Fin 1024) (e : Fin 512) :
    k2_pay6 (F := Ideal) kt vt q a0 (ix2 r e) = a0 (ix2 r e) + ∑ j : Fin 512, tileScore kt q r j * vt (ix2 j e) := by
  unfold k2_pay6
  rw [shapeCast_self, shapeCast_self]
  refine (addf_apply (φ := .f32) _ _ (ix2 r e)).trans (congrArg (a0 (ix2 r e) + ·) ?_)
  refine (matmulB_at _ vt r e).trans (Finset.sum_congr rfl fun j _ => ?_)
  exact congrArg (· * vt (ix2 j e)) (pay4_at kt q r j)

/-- The stored quotient at (r, e): the total there over max(sqrt(the row's total of squares), ε). -/
theorem pay1_at (s1 : Vec Ideal S1024x1 .f32) (a0 : Vec Ideal S1024x512 .f32) (r : Fin 1024) (e : Fin 512) :
    k2_pay1 (F := Ideal) s1 a0 (ix2 r e)
      = Ideal.div (a0 (ix2 r e)) (max (Ideal.sqrt (s1 (ix2 r (0 : Fin 1)))) Cert.AttnSpec.eps) := by
  unfold k2_pay1
  refine (divf_apply (φ := .f32) _ _ (ix2 r e)).trans (congrArg (Ideal.div (a0 (ix2 r e))) ?_)
  refine (Cert.LibKeepdimsCol.broadcastTo_a1_ab_apply _ broadcasts_S1024x1_S1024x512 r e).trans ?_
  rfl

end Cert.KernelIdeal.AttnValue
end
-- ==== Proof.AttnTile.lean ====
/-
  The attention region, one grid point at a time, against the specification. Point t = 16·a + k reads rows
  1024·a … of the projected queries, and of the resident keys and values the rows 512·k … of key tile k. So the
  body's score of block row r against tile row j is the specification's score s(1024·a + r, 512·k + j), and each
  control case leaves: the first tile, zero plus the tile's Σ_j s·Vv and Σ_j s²; a later tile, the totals the tile
  before left plus the same; the last tile moreover stores the new total over max(sqrt(the new total of squares), ε).
-/
import proofs.«123942_j56169582297517_2_alg».proof.Proof.AttnPieces
import proofs.«123942_j56169582297517_2_alg».proof.Proof.AttnPayloads
import proofs.«123942_j56169582297517_2_alg».proof.Proof.AttnFrame
import proofs.«123942_j56169582297517_2_alg».proof.Proof.SpecTiles
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.KernelIdeal.AttnValue

open Cert.KernelIdeal Cert.KernelIdeal.Gen Cert.KernelIdeal.Attn Cert.AttnSpec
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b)) (c : Dev nD)

/-! ## The arrays, the point's row block and key tile, one tile's contributions -/

/-- The projected queries, the projected keys and the values the region is handed, as the specification's matrices. -/
abbrev Qa : Mat 8192 128 := (V c main_v0 : S8192x128.Idx → EReal)
abbrev Ka : Mat 8192 128 := (V c main_v1 : S8192x128.Idx → EReal)
abbrev Va : Mat 8192 512 := (V c main_v2 : S8192x512.Idx → EReal)

/-- Row `r` of the query block of point `t` is this row of the whole array: the point's row block is `t / 16`. -/
def rowOf (t : Fin cfg2.N) (r : Fin 1024) : Fin 8192 :=
  ⟨1024 * (t.val / 16) + r.val, by
    have ht : t.val < 128 := lt_of_lt_of_eq t.isLt (show cfg2.N = 128 from N_2)
    have := r.isLt
    omega⟩

/-- The key tile of point `t`: `t mod 16`. -/
def tileOf (t : Fin cfg2.N) : Fin 16 := ⟨t.val % 16, Nat.mod_lt _ (by decide)⟩

/-- One key tile's contribution to the total of s·Vv, for row `n`, column `e`. -/
def tileAcc (Q K : Mat 8192 128) (Vv : Mat 8192 512) (n : Fin 8192) (e : Fin 512) (k : Fin 16) : EReal :=
  ∑ j : Fin 512, sQK Q K n (keyRow k j) * Vv (ix2 (keyRow k j) e)

/-- One key tile's contribution to the total of s², for row `n`. -/
def tileSq (Q K : Mat 8192 128) (n : Fin 8192) (k : Fin 16) : EReal :=
  ∑ j : Fin 512, sQK Q K n (keyRow k j) * sQK Q K n (keyRow k j)

/-! ## The blocks the body reads -/

/-- The index maps over the grid: the query window's row block is `t / 16`, the keys' and the values' windows hold
    the whole arrays, and the key-tile coordinate is `t mod 16`. -/
theorem index2 : ∀ t : Fin cfg2.N, win2_0.index t (0 : Fin 2) = t.val / 16 ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ (grid2.coords t 1).val = t.val % 16 :=
  (by decide +kernel : ∀ t : Fin grid2.N, _)

/-- The key tile's and the value tile's row offset at point `t`: 512 rows per tile. -/
theorem off2 (t : Fin cfg2.N) : k2_off1 (grid2.coords t) 0 = 512 * (t.val % 16) ∧ k2_off1 (grid2.coords t) 1 = 0
    ∧ k2_off2 (grid2.coords t) 0 = 512 * (t.val % 16) ∧ k2_off2 (grid2.coords t) 1 = 0 := by
  obtain ⟨-, -, -, -, -, -, ek⟩ := index2 t
  rw [k2_off1_eq, k2_off2_eq, ← ek]
  exact ⟨rfl, rfl, rfl, rfl⟩

/-- The query block of point `t` at (r, l) is the projected queries at row `rowOf t r`. -/
theorem qblock_at (t : Fin cfg2.N) (r : Fin 1024) (l : Fin 128) :
    (iblk2 V c 0 t : S1024x128.Idx → EReal) (ix2 r l) = Qa V c (ix2 (rowOf t r) l) := by
  obtain ⟨e00, e01, -⟩ := index2 t
  show (V c main_v0 : S8192x128.Idx → EReal) (((cfg2.win 0).blk t).view.emb (ix2 r l)) = _
  refine congrArg _ (funext fun a => Fin.ext ?_)
  match a with
  | ⟨0, _⟩ => show win2_0.index t (0 : Fin 2) * 1024 + 1 * r.val = 1024 * (t.val / 16) + r.val; omega
  | ⟨1, _⟩ => show win2_0.index t (1 : Fin 2) * 128 + 1 * l.val = l.val; omega

/-- The key tile of point `t` at (j, l) is the projected keys at key row `keyRow (tileOf t) j`. -/
theorem ktile_at (t : Fin cfg2.N) (j : Fin 512) (l : Fin 128) :
    keyTile (grid2.coords t) (iblk2 V c 1 t) (ix2 j l) = Ka V c (ix2 (keyRow (tileOf t) j) l) := by
  obtain ⟨-, -, e10, e11, -, -, -⟩ := index2 t
  obtain ⟨o0, o1, -, -⟩ := off2 t
  show (V c main_v1 : S8192x128.Idx → EReal) (((cfg2.win 1).blk t).view.emb
    ((Rect.unit (s := S8192x128) (k2_off1 (grid2.coords t)) S512x128.size (k2_off1_inb (grid2.coords t))).idx (ix2 j l))) = _
  refine congrArg _ (funext fun a => Fin.ext ?_)
  match a with
  | ⟨0, _⟩ => show win2_1.index t (0 : Fin 2) * 8192 + 1 * (k2_off1 (grid2.coords t) 0 + 1 * j.val) = 512 * (t.val % 16) + j.val; omega
  | ⟨1, _⟩ => show win2_1.index t (1 : Fin 2) * 128 + 1 * (k2_off1 (grid2.coords t) 1 + 1 * l.val) = l.val; omega

/-- The value tile of point `t` at (j, e) is the values at key row `keyRow (tileOf t) j`. -/
theorem vtile_at (t : Fin cfg2.N) (j : Fin 512) (e : Fin 512) :
    valTile (grid2.coords t) (iblk2 V c 2 t) (ix2 j e) = Va V c (ix2 (keyRow (tileOf t) j) e) := by
  obtain ⟨-, -, -, -, e20, e21, -⟩ := index2 t
  obtain ⟨-, -, o0, o1⟩ := off2 t
  show (V c main_v2 : S8192x512.Idx → EReal) (((cfg2.win 2).blk t).view.emb
    ((Rect.unit (s := S8192x512) (k2_off2 (grid2.coords t)) S512x512.size (k2_off2_inb (grid2.coords t))).idx (ix2 j e))) = _
  refine congrArg _ (funext fun a => Fin.ext ?_)
  match a with
  | ⟨0, _⟩ => show win2_2.index t (0 : Fin 2) * 8192 + 1 * (k2_off2 (grid2.coords t) 0 + 1 * j.val) = 512 * (t.val % 16) + j.val; omega
  | ⟨1, _⟩ => show win2_2.index t (1 : Fin 2) * 512 + 1 * (k2_off2 (grid2.coords t) 1 + 1 * e.val) = e.val; omega

/-! ## The tile's sums through the blocks -/

/-- The body's score of row `r` of the query block against row `j` of the key tile is the specification's score of
    query row `rowOf t r` against key row `keyRow (tileOf t) j`. -/
theorem score_at (t : Fin cfg2.N) (r : Fin 1024) (j : Fin 512) :
    tileScore (keyTile (grid2.coords t) (iblk2 V c 1 t)) (iblk2 V c 0 t) r j = sQK (Qa V c) (Ka V c) (rowOf t r) (keyRow (tileOf t) j) := by
  unfold tileScore sQK
  refine congrArg (max · 0) (Finset.sum_congr rfl fun l _ => ?_)
  exact congrArg₂ (· * ·) (qblock_at V c t r l) (ktile_at V c t j l)

theorem sq_at (t : Fin cfg2.N) (r : Fin 1024) :
    (∑ j : Fin 512, tileScore (keyTile (grid2.coords t) (iblk2 V c 1 t)) (iblk2 V c 0 t) r j * tileScore (keyTile (grid2.coords t) (iblk2 V c 1 t)) (iblk2 V c 0 t) r j)
      = tileSq (Qa V c) (Ka V c) (rowOf t r) (tileOf t) := by
  unfold tileSq
  exact Finset.sum_congr rfl fun j _ => congrArg₂ (· * ·) (score_at V c t r j) (score_at V c t r j)

theorem acc_at (t : Fin cfg2.N) (r : Fin 1024) (e : Fin 512) :
    (∑ j : Fin 512, tileScore (keyTile (grid2.coords t) (iblk2 V c 1 t)) (iblk2 V c 0 t) r j * (valTile (grid2.coords t) (iblk2 V c 2 t)) (ix2 j e))
      = tileAcc (Qa V c) (Ka V c) (Va V c) (rowOf t r) e (tileOf t) := by
  unfold tileAcc
  exact Finset.sum_congr rfl fun j _ => congrArg₂ (· * ·) (score_at V c t r j) (vtile_at V c t j e)

/-! ## What each case leaves, as the body's arithmetic on the point's blocks -/

theorem accA_eq (t : Fin cfg2.N) (h0 : t.val % 16 = 0) (h1 : ¬t.val % 16 = 15) :
    Attn.accA V c t h0 h1 = k2_pay6 (F := Ideal) (keyTile (grid2.coords t) (iblk2 V c 1 t)) (valTile (grid2.coords t) (iblk2 V c 2 t)) (iblk2 V c 0 t) (k2_pay2 (F := Ideal)) := by
  unfold Attn.accA
  exact pieceA0 (F := Ideal) c (grid2.coords t) (ms2_0 t) (hs2_0 t) (ms2_1 t) (hs2_1 t) (ms2_2 t) (hs2_2 t) (ms2_3 t) (hs2_3 t) scM2_0 (Memref.isWhole_whole _) scM2_1 (Memref.isWhole_whole _) ((hcond2_0 t).mpr h0) (fun h => h1 ((hcond2_1 t).mp h)) (iblk2 V c 0 t) (iblk2 V c 1 t) (iblk2 V c 2 t) VS2_0

theorem ssA_eq (t : Fin cfg2.N) (h0 : t.val % 16 = 0) (h1 : ¬t.val % 16 = 15) :
    Attn.ssA V c t h0 h1 = k2_pay5 (F := Ideal) (keyTile (grid2.coords t) (iblk2 V c 1 t)) (iblk2 V c 0 t) (k2_pay3 (F := Ideal)) := by
  unfold Attn.ssA
  exact pieceA1 (F := Ideal) c (grid2.coords t) (ms2_0 t) (hs2_0 t) (ms2_1 t) (hs2_1 t) (ms2_2 t) (hs2_2 t) (ms2_3 t) (hs2_3 t) scM2_0 (Memref.isWhole_whole _) scM2_1 (Memref.isWhole_whole _) ((hcond2_0 t).mpr h0) (fun h => h1 ((hcond2_1 t).mp h)) (iblk2 V c 0 t) (iblk2 V c 1 t) (iblk2 V c 2 t) VS2_1

theorem accB_eq (t : Fin cfg2.N) (h0 : ¬t.val % 16 = 0) (h1 : ¬t.val % 16 = 15) (xs0 : Vec Ideal S1024x512 .f32) (xs1 : Vec Ideal S1024x1 .f32) :
    Attn.accB V c t h0 h1 xs0 xs1 = k2_pay6 (F := Ideal) (keyTile (grid2.coords t) (iblk2 V c 1 t)) (valTile (grid2.coords t) (iblk2 V c 2 t)) (iblk2 V c 0 t) xs0 := by
  unfold Attn.accB
  exact pieceB0 (F := Ideal) c (grid2.coords t) (ms2_0 t) (hs2_0 t) (ms2_1 t) (hs2_1 t) (ms2_2 t) (hs2_2 t) (ms2_3 t) (hs2_3 t) scM2_0 (Memref.isWhole_whole _) scM2_1 (Memref.isWhole_whole _) (fun h => h0 ((hcond2_0 t).mp h)) (fun h => h1 ((hcond2_1 t).mp h)) (iblk2 V c 0 t) (iblk2 V c 1 t) (iblk2 V c 2 t) xs0 xs1 VS2_0

theorem ssB_eq (t : Fin cfg2.N) (h0 : ¬t.val % 16 = 0) (h1 : ¬t.val % 16 = 15) (xs0 : Vec Ideal S1024x512 .f32) (xs1 : Vec Ideal S1024x1 .f32) :
    Attn.ssB V c t h0 h1 xs0 xs1 = k2_pay5 (F := Ideal) (keyTile (grid2.coords t) (iblk2 V c 1 t)) (iblk2 V c 0 t) xs1 := by
  unfold Attn.ssB
  exact pieceB1 (F := Ideal) c (grid2.coords t) (ms2_0 t) (hs2_0 t) (ms2_1 t) (hs2_1 t) (ms2_2 t) (hs2_2 t) (ms2_3 t) (hs2_3 t) scM2_0 (Memref.isWhole_whole _) scM2_1 (Memref.isWhole_whole _) (fun h => h0 ((hcond2_0 t).mp h)) (fun h => h1 ((hcond2_1 t).mp h)) (iblk2 V c 0 t) (iblk2 V c 1 t) (iblk2 V c 2 t) xs0 xs1 VS2_1

theorem accC_eq (t : Fin cfg2.N) (h0 : ¬t.val % 16 = 0) (h1 : t.val % 16 = 15) (xs0 : Vec Ideal S1024x512 .f32) (xs1 : Vec Ideal S1024x1 .f32) :
    Attn.accC V c t h0 h1 xs0 xs1 = k2_pay6 (F := Ideal) (keyTile (grid2.coords t) (iblk2 V c 1 t)) (valTile (grid2.coords t) (iblk2 V c 2 t)) (iblk2 V c 0 t) xs0 := by
  unfold Attn.accC
  exact pieceC0 (F := Ideal) c (grid2.coords t) (ms2_0 t) (hs2_0 t) (ms2_1 t) (hs2_1 t) (ms2_2 t) (hs2_2 t) (ms2_3 t) (hs2_3 t) scM2_0 (Memref.isWhole_whole _) scM2_1 (Memref.isWhole_whole _) (fun h => h0 ((hcond2_0 t).mp h)) ((hcond2_1 t).mpr h1) (iblk2 V c 0 t) (iblk2 V c 1 t) (iblk2 V c 2 t) xs0 xs1 VS2_0

theorem ssC_eq (t : Fin cfg2.N) (h0 : ¬t.val % 16 = 0) (h1 : t.val % 16 = 15) (xs0 : Vec Ideal S1024x512 .f32) (xs1 : Vec Ideal S1024x1 .f32) :
    Attn.ssC V c t h0 h1 xs0 xs1 = k2_pay5 (F := Ideal) (keyTile (grid2.coords t) (iblk2 V c 1 t)) (iblk2 V c 0 t) xs1 := by
  unfold Attn.ssC
  exact pieceC1 (F := Ideal) c (grid2.coords t) (ms2_0 t) (hs2_0 t) (ms2_1 t) (hs2_1 t) (ms2_2 t) (hs2_2 t) (ms2_3 t) (hs2_3 t) scM2_0 (Memref.isWhole_whole _) scM2_1 (Memref.isWhole_whole _) (fun h => h0 ((hcond2_0 t).mp h)) ((hcond2_1 t).mpr h1) (iblk2 V c 0 t) (iblk2 V c 1 t) (iblk2 V c 2 t) xs0 xs1 VS2_1

theorem outC_eq (t : Fin cfg2.N) (h0 : ¬t.val % 16 = 0) (h1 : t.val % 16 = 15) (xs0 : Vec Ideal S1024x512 .f32) (xs1 : Vec Ideal S1024x1 .f32) :
    Attn.outC V c t h0 h1 xs0 xs1
      = k2_pay1 (F := Ideal) (k2_pay5 (F := Ideal) (keyTile (grid2.coords t) (iblk2 V c 1 t)) (iblk2 V c 0 t) xs1) (k2_pay6 (F := Ideal) (keyTile (grid2.coords t) (iblk2 V c 1 t)) (valTile (grid2.coords t) (iblk2 V c 2 t)) (iblk2 V c 0 t) xs0) := by
  unfold Attn.outC
  exact pieceC3 (F := Ideal) c (grid2.coords t) (ms2_0 t) (hs2_0 t) (ms2_1 t) (hs2_1 t) (ms2_2 t) (hs2_2 t) (ms2_3 t) (hs2_3 t) scM2_0 (Memref.isWhole_whole _) scM2_1 (Memref.isWhole_whole _) (fun h => h0 ((hcond2_0 t).mp h)) ((hcond2_1 t).mpr h1) (iblk2 V c 0 t) (iblk2 V c 1 t) (iblk2 V c 2 t) xs0 xs1 VO2_3

/-! ## What each case leaves, at an index, against the specification -/

/-- First key tile: the total of s·Vv is zero plus this tile's contribution. -/
theorem accA_at (t : Fin cfg2.N) (h0 : t.val % 16 = 0) (h1 : ¬t.val % 16 = 15) (r : Fin 1024) (e : Fin 512) :
    Attn.accA V c t h0 h1 (ix2 r e) = 0 + tileAcc (Qa V c) (Ka V c) (Va V c) (rowOf t r) e (tileOf t) :=
  (congrFun (accA_eq V c t h0 h1) (ix2 r e)).trans
    ((pay6_at (keyTile (grid2.coords t) (iblk2 V c 1 t)) (valTile (grid2.coords t) (iblk2 V c 2 t)) (iblk2 V c 0 t) (k2_pay2 (F := Ideal)) r e).trans (congrArg₂ (· + ·) (pay2_at r e) (acc_at V c t r e)))

/-- First key tile: the total of s² is zero plus this tile's contribution. -/
theorem ssA_at (t : Fin cfg2.N) (h0 : t.val % 16 = 0) (h1 : ¬t.val % 16 = 15) (r : Fin 1024) :
    Attn.ssA V c t h0 h1 (ix2 r (0 : Fin 1)) = 0 + tileSq (Qa V c) (Ka V c) (rowOf t r) (tileOf t) :=
  (congrFun (ssA_eq V c t h0 h1) (ix2 r (0 : Fin 1))).trans
    ((pay5_at (keyTile (grid2.coords t) (iblk2 V c 1 t)) (iblk2 V c 0 t) (k2_pay3 (F := Ideal)) r).trans (congrArg₂ (· + ·) (pay3_at r) (sq_at V c t r)))

/-- A middle key tile: the total of s·Vv the tile before left plus this tile's contribution. -/
theorem accB_at (t : Fin cfg2.N) (h0 : ¬t.val % 16 = 0) (h1 : ¬t.val % 16 = 15) (xs0 : Vec Ideal S1024x512 .f32) (xs1 : Vec Ideal S1024x1 .f32)
    (r : Fin 1024) (e : Fin 512) :
    Attn.accB V c t h0 h1 xs0 xs1 (ix2 r e) = xs0 (ix2 r e) + tileAcc (Qa V c) (Ka V c) (Va V c) (rowOf t r) e (tileOf t) :=
  (congrFun (accB_eq V c t h0 h1 xs0 xs1) (ix2 r e)).trans
    ((pay6_at (keyTile (grid2.coords t) (iblk2 V c 1 t)) (valTile (grid2.coords t) (iblk2 V c 2 t)) (iblk2 V c 0 t) xs0 r e).trans (congrArg (xs0 (ix2 r e) + ·) (acc_at V c t r e)))

/-- A middle key tile: the total of s² the tile before left plus this tile's contribution. -/
theorem ssB_at (t : Fin cfg2.N) (h0 : ¬t.val % 16 = 0) (h1 : ¬t.val % 16 = 15) (xs0 : Vec Ideal S1024x512 .f32) (xs1 : Vec Ideal S1024x1 .f32)
    (r : Fin 1024) :
    Attn.ssB V c t h0 h1 xs0 xs1 (ix2 r (0 : Fin 1)) = xs1 (ix2 r (0 : Fin 1)) + tileSq (Qa V c) (Ka V c) (rowOf t r) (tileOf t) :=
  (congrFun (ssB_eq V c t h0 h1 xs0 xs1) (ix2 r (0 : Fin 1))).trans
    ((pay5_at (keyTile (grid2.coords t) (iblk2 V c 1 t)) (iblk2 V c 0 t) xs1 r).trans (congrArg (xs1 (ix2 r (0 : Fin 1)) + ·) (sq_at V c t r)))

/-- The last key tile: the totals as at a middle tile. -/
theorem accC_at (t : Fin cfg2.N) (h0 : ¬t.val % 16 = 0) (h1 : t.val % 16 = 15) (xs0 : Vec Ideal S1024x512 .f32) (xs1 : Vec Ideal S1024x1 .f32)
    (r : Fin 1024) (e : Fin 512) :
    Attn.accC V c t h0 h1 xs0 xs1 (ix2 r e) = xs0 (ix2 r e) + tileAcc (Qa V c) (Ka V c) (Va V c) (rowOf t r) e (tileOf t) :=
  (congrFun (accC_eq V c t h0 h1 xs0 xs1) (ix2 r e)).trans
    ((pay6_at (keyTile (grid2.coords t) (iblk2 V c 1 t)) (valTile (grid2.coords t) (iblk2 V c 2 t)) (iblk2 V c 0 t) xs0 r e).trans (congrArg (xs0 (ix2 r e) + ·) (acc_at V c t r e)))

theorem ssC_at (t : Fin cfg2.N) (h0 : ¬t.val % 16 = 0) (h1 : t.val % 16 = 15) (xs0 : Vec Ideal S1024x512 .f32) (xs1 : Vec Ideal S1024x1 .f32)
    (r : Fin 1024) :
    Attn.ssC V c t h0 h1 xs0 xs1 (ix2 r (0 : Fin 1)) = xs1 (ix2 r (0 : Fin 1)) + tileSq (Qa V c) (Ka V c) (rowOf t r) (tileOf t) :=
  (congrFun (ssC_eq V c t h0 h1 xs0 xs1) (ix2 r (0 : Fin 1))).trans
    ((pay5_at (keyTile (grid2.coords t) (iblk2 V c 1 t)) (iblk2 V c 0 t) xs1 r).trans (congrArg (xs1 (ix2 r (0 : Fin 1)) + ·) (sq_at V c t r)))

/-- The last key tile: the stored quotient is the new total over max(sqrt(the new total of squares), ε). -/
theorem outC_at (t : Fin cfg2.N) (h0 : ¬t.val % 16 = 0) (h1 : t.val % 16 = 15) (xs0 : Vec Ideal S1024x512 .f32) (xs1 : Vec Ideal S1024x1 .f32)
    (r : Fin 1024) (e : Fin 512) :
    Attn.outC V c t h0 h1 xs0 xs1 (ix2 r e)
      = Ideal.div (xs0 (ix2 r e) + tileAcc (Qa V c) (Ka V c) (Va V c) (rowOf t r) e (tileOf t))
          (max (Ideal.sqrt (xs1 (ix2 r (0 : Fin 1)) + tileSq (Qa V c) (Ka V c) (rowOf t r) (tileOf t))) Cert.AttnSpec.eps) :=
  (congrFun (outC_eq V c t h0 h1 xs0 xs1) (ix2 r e)).trans
    ((pay1_at (k2_pay5 (F := Ideal) (keyTile (grid2.coords t) (iblk2 V c 1 t)) (iblk2 V c 0 t) xs1) (k2_pay6 (F := Ideal) (keyTile (grid2.coords t) (iblk2 V c 1 t)) (valTile (grid2.coords t) (iblk2 V c 2 t)) (iblk2 V c 0 t) xs0) r e).trans
      (congrArg₂ (fun a s => Ideal.div a (max (Ideal.sqrt s) Cert.AttnSpec.eps))
        ((pay6_at (keyTile (grid2.coords t) (iblk2 V c 1 t)) (valTile (grid2.coords t) (iblk2 V c 2 t)) (iblk2 V c 0 t) xs0 r e).trans (congrArg (xs0 (ix2 r e) + ·) (acc_at V c t r e)))
        ((pay5_at (keyTile (grid2.coords t) (iblk2 V c 1 t)) (iblk2 V c 0 t) xs1 r).trans (congrArg (xs1 (ix2 r (0 : Fin 1)) + ·) (sq_at V c t r)))))

end Cert.KernelIdeal.AttnValue
end
-- ==== Proof.AttnValue.lean ====
/- What the attention region leaves in its output array, at the extended reals.
   The grid point t = 16·a + k handles row block a (rows 1024·a …) and key tile k. After the body at that point the
   two running totals hold, for every row of the block, the sums of s·Vv and of s² over the key tiles 0..k: the first
   tile of a row block starts them from zero and every later tile adds its own contribution onto what the tile before
   left, the row block being the same. At k = 15 the totals run over all sixteen tiles and the body stores their
   quotient, which that point writes back; the eight row blocks tile the 8192 rows. -/
import proofs.«123942_j56169582297517_2_alg».proof.Proof.AttnFrame
import proofs.«123942_j56169582297517_2_alg».proof.Proof.AttnTile
import proofs.«123942_j56169582297517_2_alg».proof.Proof.SpecTiles
import Idealize.ShloMosaic.Lib.Pipeline.Value
import Idealize.ShloMosaic.Lib.ValueIdx

set_option maxRecDepth 16384

noncomputable section

open scoped BigOperators

namespace Cert.KernelIdeal.AttnValue

open Cert.KernelIdeal Cert.KernelIdeal.Gen Cert.KernelIdeal.Attn Cert.AttnSpec
open Idealize.ShloMosaic Idealize.ShloMosaic.TcCoe Idealize.ShloMosaic.ValueIdx Idealize.SL.Sem
open Idealize.ShloMosaic.Pipeline (Dat)

/-! ## Totals over the first tiles -/

/-- A sum over the tiles below `k + 1` is the sum over the tiles below `k` plus the term at `k`. -/
theorem sum_below_succ (f : Fin 16 → EReal) (k : Fin 16) :
    ∑ t ∈ Finset.univ.filter (fun t : Fin 16 => t.val < k.val + 1), f t
      = (∑ t ∈ Finset.univ.filter (fun t : Fin 16 => t.val < k.val), f t) + f k := by
  have hs : Finset.univ.filter (fun t : Fin 16 => t.val < k.val + 1) = insert k (Finset.univ.filter (fun t : Fin 16 => t.val < k.val)) := by
    ext t
    simp only [Finset.mem_filter, Finset.mem_univ, true_and, Finset.mem_insert]
    constructor
    · intro h
      by_cases e : t = k
      · exact Or.inl e
      · exact Or.inr (by have : t.val ≠ k.val := fun h' => e (Fin.ext h'); omega)
    · rintro (rfl | h) <;> omega
  rw [hs, Finset.sum_insert (by simp), add_comm]

/-- No tile is below 0. -/
theorem sum_below_zero (f : Fin 16 → EReal) : ∑ t ∈ Finset.univ.filter (fun t : Fin 16 => t.val < 0), f t = 0 := by
  rw [Finset.filter_false_of_mem (fun t _ => Nat.not_lt_zero _), Finset.sum_empty]

theorem accUpTo_zero (Q K : Mat 8192 128) (Vv : Mat 8192 512) (n : Fin 8192) (e : Fin 512) : accUpTo Q K Vv n e 0 = 0 := by
  unfold accUpTo; exact sum_below_zero _
theorem sqUpTo_zero (Q K : Mat 8192 128) (n : Fin 8192) : sqUpTo Q K n 0 = 0 := by
  unfold sqUpTo; exact sum_below_zero _

/-- A running total of s·Vv that stands at the tiles below `k`, plus tile `k`'s contribution, stands at the tiles below `k + 1`. -/
theorem acc_next (Q K : Mat 8192 128) (Vv : Mat 8192 512) (n : Fin 8192) (e : Fin 512) (k : Fin 16) (x : EReal)
    (hx : x = accUpTo Q K Vv n e k.val) : x + tileAcc Q K Vv n e k = accUpTo Q K Vv n e (k.val + 1) := by
  rw [hx]; unfold accUpTo tileAcc
  exact (sum_below_succ (fun t => ∑ j : Fin 512, sQK Q K n (keyRow t j) * Vv (ix2 (keyRow t j) e)) k).symm
/-- The same for the running total of s². -/
theorem sq_next (Q K : Mat 8192 128) (n : Fin 8192) (k : Fin 16) (x : EReal)
    (hx : x = sqUpTo Q K n k.val) : x + tileSq Q K n k = sqUpTo Q K n (k.val + 1) := by
  rw [hx]; unfold sqUpTo tileSq
  exact (sum_below_succ (fun t => ∑ j : Fin 512, sQK Q K n (keyRow t j) * sQK Q K n (keyRow t j)) k).symm

/-- The region's result at row `n`, column `e`: the totals over all sixteen tiles, divided. -/
theorem kerQK_at (Q K : Mat 8192 128) (Vv : Mat 8192 512) (n : Fin 8192) (e : Fin 512) :
    kerQK Q K Vv (ix2 n e) = Ideal.div (accUpTo Q K Vv n e 16) (max (Ideal.sqrt (sqUpTo Q K n 16)) eps) := rfl

/-! ## The totals after each point -/

/-- The components of a triple that is known as a tuple. -/
theorem comp1 {α β γ : Type} {p : α × β × γ} {a : α} {b : β} {d : γ} (h : p = (a, b, d)) : p.1 = a := by subst h; rfl
theorem comp21 {α β γ : Type} {p : α × β × γ} {a : α} {b : β} {d : γ} (h : p = (a, b, d)) : p.2.1 = b := by subst h; rfl
theorem comp22 {α β γ : Type} {p : α × β × γ} {a : α} {b : β} {d : γ} (h : p = (a, b, d)) : p.2.2 = d := by subst h; rfl

variable (V : (c : Dev nD) → (b : Ref sig .tc) → Buf (Elt Ideal) ((c : Thread nD τ).loc b))

/-- Within a row block the point before has the same rows. -/
theorem rowOf_pred (n : ℕ) (hn : n + 1 < cfg2.N) (h0 : ¬(n + 1) % 16 = 0) (r : Fin 1024) :
    rowOf ⟨n, Nat.lt_of_succ_lt hn⟩ r = rowOf ⟨n + 1, hn⟩ r :=
  Fin.ext (by show 1024 * (n / 16) + r.val = 1024 * ((n + 1) / 16) + r.val; omega)

/-- After the body at position `n` of the grid: the two totals stand at the key tiles up to and including the
    point's own, for every row of its row block; at a last key tile the stored block is the region's result on
    those rows. -/
theorem totals (c : Dev nD) : ∀ (n : ℕ) (hn : n < cfg2.N),
    (∀ (r : Fin 1024) (e : Fin 512), (outsAt2 V c n hn).2.1 (ix2 r e)
        = accUpTo (Qa V c) (Ka V c) (Va V c) (rowOf ⟨n, hn⟩ r) e ((tileOf ⟨n, hn⟩).val + 1))
    ∧ (∀ r : Fin 1024, (outsAt2 V c n hn).2.2 (ix2 r (0 : Fin 1))
        = sqUpTo (Qa V c) (Ka V c) (rowOf ⟨n, hn⟩ r) ((tileOf ⟨n, hn⟩).val + 1))
    ∧ (n % 16 = 15 → ∀ (r : Fin 1024) (e : Fin 512), (outsAt2 V c n hn).1 (ix2 r e)
        = kerQK (Qa V c) (Ka V c) (Va V c) (ix2 (rowOf ⟨n, hn⟩ r) e)) := by
  intro n
  induction n with
  | zero =>
    intro hn
    have h0 : (⟨0, hn⟩ : Fin cfg2.N).val % 16 = 0 := Nat.zero_mod _
    have h1 : ¬(⟨0, hn⟩ : Fin cfg2.N).val % 16 = 15 := by show ¬0 % 16 = 15; decide
    have hA := outsAt2_A V c ⟨0, hn⟩ h0 h1
    refine ⟨fun r e => ?_, fun r => ?_, fun h => absurd h (by decide)⟩
    · rw [comp21 hA, accA_at V c ⟨0, hn⟩ h0 h1 r e]
      exact acc_next _ _ _ _ _ (tileOf ⟨0, hn⟩) 0 (accUpTo_zero _ _ _ _ _).symm
    · rw [comp22 hA, ssA_at V c ⟨0, hn⟩ h0 h1 r]
      exact sq_next _ _ _ (tileOf ⟨0, hn⟩) 0 (sqUpTo_zero _ _ _).symm
  | succ n ih =>
    intro hn
    have hn' : n < cfg2.N := Nat.lt_of_succ_lt hn
    obtain ⟨ih0, ih1, -⟩ := ih hn'
    by_cases h0 : (n + 1) % 16 = 0
    · have h1 : ¬(n + 1) % 16 = 15 := by omega
      have hA := outsAt2_A V c ⟨n + 1, hn⟩ h0 h1
      refine ⟨fun r e => ?_, fun r => ?_, fun h => absurd h h1⟩
      · rw [comp21 hA, accA_at V c ⟨n + 1, hn⟩ h0 h1 r e]
        exact acc_next _ _ _ _ _ (tileOf ⟨n + 1, hn⟩) 0 ((accUpTo_zero _ _ _ _ _).symm.trans (by rw [show (tileOf ⟨n + 1, hn⟩).val = 0 from h0]))
      · rw [comp22 hA, ssA_at V c ⟨n + 1, hn⟩ h0 h1 r]
        exact sq_next _ _ _ (tileOf ⟨n + 1, hn⟩) 0 ((sqUpTo_zero _ _ _).symm.trans (by rw [show (tileOf ⟨n + 1, hn⟩).val = 0 from h0]))
    · have hk : (tileOf ⟨n, hn'⟩).val + 1 = (tileOf ⟨n + 1, hn⟩).val := by show n % 16 + 1 = (n + 1) % 16; omega
      -- what the point before left, on this point's rows and up to the tile before this point's
      have hx0 : ∀ (r : Fin 1024) (e : Fin 512), (outsAt2 V c n hn').2.1 (ix2 r e)
          = accUpTo (Qa V c) (Ka V c) (Va V c) (rowOf ⟨n + 1, hn⟩ r) e (tileOf ⟨n + 1, hn⟩).val := fun r e => by
        rw [← rowOf_pred n hn h0 r, ← hk]; exact ih0 r e
      have hx1 : ∀ r : Fin 1024, (outsAt2 V c n hn').2.2 (ix2 r (0 : Fin 1))
          = sqUpTo (Qa V c) (Ka V c) (rowOf ⟨n + 1, hn⟩ r) (tileOf ⟨n + 1, hn⟩).val := fun r => by
        rw [← rowOf_pred n hn h0 r, ← hk]; exact ih1 r
      by_cases h1 : (n + 1) % 16 = 15
      · have hC := outsAt2_C V c ⟨n + 1, hn⟩ h0 h1
        refine ⟨fun r e => ?_, fun r => ?_, fun _ r e => ?_⟩
        · rw [comp21 hC, accC_at V c ⟨n + 1, hn⟩ h0 h1 _ _ r e]
          exact acc_next _ _ _ _ _ (tileOf ⟨n + 1, hn⟩) _ (hx0 r e)
        · rw [comp22 hC, ssC_at V c ⟨n + 1, hn⟩ h0 h1 _ _ r]
          exact sq_next _ _ _ (tileOf ⟨n + 1, hn⟩) _ (hx1 r)
        · rw [comp1 hC, outC_at V c ⟨n + 1, hn⟩ h0 h1 _ _ r e, kerQK_at]
          have h16 : (tileOf ⟨n + 1, hn⟩).val + 1 = 16 := by show (n + 1) % 16 + 1 = 16; omega
          have ea := acc_next (Qa V c) (Ka V c) (Va V c) (rowOf ⟨n + 1, hn⟩ r) e (tileOf ⟨n + 1, hn⟩) _ (hx0 r e)
          have es := sq_next (Qa V c) (Ka V c) (rowOf ⟨n + 1, hn⟩ r) (tileOf ⟨n + 1, hn⟩) _ (hx1 r)
          rw [h16] at ea es
          exact congrArg₂ (fun a s => Ideal.div a (max (Ideal.sqrt s) eps)) ea es
      · have hB := outsAt2_B V c ⟨n + 1, hn⟩ h0 h1
        refine ⟨fun r e => ?_, fun r => ?_, fun h => absurd h h1⟩
        · rw [comp21 hB, accB_at V c ⟨n + 1, hn⟩ h0 h1 _ _ r e]
          exact acc_next _ _ _ _ _ (tileOf ⟨n + 1, hn⟩) _ (hx0 r e)
        · rw [comp22 hB, ssB_at V c ⟨n + 1, hn⟩ h0 h1 _ _ r]
          exact sq_next _ _ _ (tileOf ⟨n + 1, hn⟩) _ (hx1 r)

/-! ## From blocks to the array -/

/-- The output window's block index over the grid: the point's row block, and column block zero. -/
theorem index2_3 : ∀ t : Fin cfg2.N, win2_3.index t (0 : Fin 2) = t.val / 16 ∧ win2_3.index t (1 : Fin 2) = 0 :=
  (by decide +kernel : ∀ t : Fin grid2.N, _)

/-- What a last-key-tile point writes back is its row block of the region's result. -/
theorem flushed2_eq (c : Dev nD) (t : Fin cfg2.N) (hf : (cfg2.win 3).flush t = true) :
    (dat2 (F := Ideal) V c).flushed 3 t = ((cfg2.win 3).blk t).view.read (Elt Ideal) (kerQK (Qa V c) (Ka V c) (Va V c)) := by
  have h15 : t.val % 16 = 15 := (flush2_3 t).mp hf
  show (cfg2.win 3).cut (grid2.coords t) ((dat2 V c).after 3 t) = _
  rw [after2_3]
  obtain ⟨e0, e1⟩ := index2_3 t
  funext j
  obtain ⟨r, e, rfl⟩ : ∃ (r : Fin 1024) (e : Fin 512), j = ix2 r e := ⟨j 0, j 1, eq_ix2 j⟩
  show (outsAt2 V c t.val t.isLt).1 (ix2 r e) = kerQK (Qa V c) (Ka V c) (Va V c) (((cfg2.win 3).blk t).view.emb (ix2 r e))
  rw [(totals V c t.val t.isLt).2.2 h15 r e]
  refine congrArg (kerQK (Qa V c) (Ka V c) (Va V c)) (funext fun a => Fin.ext ?_)
  match a with
  | ⟨0, _⟩ => show 1024 * (t.val / 16) + r.val = win2_3.index t (0 : Fin 2) * 1024 + 1 * r.val; omega
  | ⟨1, _⟩ => show e.val = win2_3.index t (1 : Fin 2) * 512 + 1 * e.val; omega

/-- An index of the output array is in point `t`'s block iff each coordinate is in the block's range on its axis. -/
theorem mem_blk2 (t : Fin cfg2.N) (i : S8192x512.Idx) :
    i ∈ ((cfg2.win 3).blk t).view.set ↔ ∀ a : Fin 2, win2_3.index t a * S1024x512.size a ≤ (i a).val ∧ (i a).val < win2_3.index t a * S1024x512.size a + S1024x512.size a := by
  show i ∈ ((View.whole main_v3).slice (win2_3.rect t)).set ↔ _
  rw [View.set_slice_whole, Rect.mem_set_unit]
  exact Iff.rfl

/-- The eight row blocks tile the 8192 rows: row `n` is in the block that the last-key-tile point of row block
    `n / 1024` writes back. -/
theorem cover2 (i : S8192x512.Idx) : ∃ t : Fin cfg2.N, (cfg2.win 3).flush t = true ∧ i ∈ ((cfg2.win 3).blk t).view.set := by
  have hi0 : (i 0).val < 8192 := idx2_lt0 i
  have hi1 : (i 1).val < 512 := idx2_lt1 i
  have hN : grid2.N = 128 := N_2
  have hlt : 16 * ((i 0).val / 1024) + 15 < grid2.N := by rw [hN]; omega
  refine ⟨⟨16 * ((i 0).val / 1024) + 15, hlt⟩, (flush2_3 _).mpr (by show (16 * ((i 0).val / 1024) + 15) % 16 = 15; omega), ?_⟩
  obtain ⟨e0, e1⟩ := index2_3 ⟨16 * ((i 0).val / 1024) + 15, hlt⟩
  have e0' : win2_3.index ⟨16 * ((i 0).val / 1024) + 15, hlt⟩ (0 : Fin 2) = (16 * ((i 0).val / 1024) + 15) / 16 := e0
  rw [mem_blk2]
  intro a
  match a with
  | ⟨0, _⟩ => show win2_3.index ⟨16 * ((i 0).val / 1024) + 15, hlt⟩ (0 : Fin 2) * 1024 ≤ (i 0).val ∧ (i 0).val < win2_3.index ⟨16 * ((i 0).val / 1024) + 15, hlt⟩ (0 : Fin 2) * 1024 + 1024; omega
  | ⟨1, _⟩ => show win2_3.index ⟨16 * ((i 0).val / 1024) + 15, hlt⟩ (1 : Fin 2) * 512 ≤ (i 1).val ∧ (i 1).val < win2_3.index ⟨16 * ((i 0).val / 1024) + 15, hlt⟩ (1 : Fin 2) * 512 + 512; omega

/-- The output array after the region: the region's result of the three arrays it is entered with. -/
theorem arr2_eq (V : (c : Dev nD) → (b : Ref sig .tc) → Buf (Elt Ideal) ((c : Thread nD τ).loc b)) (c : Dev nD) :
    (Cert.KernelIdeal.Attn.dat2 (F := Ideal) V c).arrAt 3 cfg2.N = Cert.AttnSpec.kerQK (V c main_v0) (V c main_v1) (V c main_v2) :=
  (dat2 (F := Ideal) V c).arrAt_eq_of_cover 3 (kerQK (Qa V c) (Ka V c) (Va V c)) (fun t hf => flushed2_eq V c t hf) cover2

end Cert.KernelIdeal.AttnValue

end
-- ==== Proof.ProjValue.lean ====
/- What the two projection kernels leave in their output arrays, at the extended reals.
   The body's payload at row `p`, feature `q` of a block is `Σ_e x(p,e)·w(q,e) + b(q)`: a change of float format is
   the identity on extended reals, the product into the zero accumulator is the plain sum over the contracted axis,
   and the bias is read through a leading unit axis and a row broadcast. Point `t` of the grid reads rows
   `1024·t … 1024·t + 1023` of the activations and the whole weight matrix and bias, and writes back the same rows
   of the output; the eight row blocks tile the 8192 rows, so the array ends holding the projection everywhere. -/
import proofs.«123942_j56169582297517_2_alg».proof.Proof.ProjFrame
import proofs.«123942_j56169582297517_2_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.KernelIdeal.Proj

open Gen Cert.AttnSpec
open Idealize.ShloMosaic Idealize.ShloMosaic.TcCoe Idealize.ShloMosaic.ValueIdx Idealize.SL.Sem
open Idealize.ShloMosaic.Pipeline (Dat)

/-! ## The contraction's operand indices

The product contracts axis 1 of both operands: at output index `(r, c)` and contraction coordinate `k` the left
operand is read at `(r, k)` and the right at `(c, k)`. -/

theorem lhs_row (i : S1024x128.Idx) (k : dot_S1024x512_S128x512_S1024x128_1_1_0_0_n_n.contr.Idx) :
    (dot_S1024x512_S128x512_S1024x128_1_1_0_0_n_n.lhsIdx i k 0).val = (i 0).val := by
  unfold DotDims.lhsIdx
  rw [dif_neg (show ¬(0 : Fin S1024x512.rank) ∈ dot_S1024x512_S128x512_S1024x128_1_1_0_0_n_n.lhsBatch by decide), dif_pos (show (0 : Fin S1024x512.rank) ∈ dot_S1024x512_S128x512_S1024x128_1_1_0_0_n_n.lhsNonContracting by decide)]
  rfl
theorem lhs_col (i : S1024x128.Idx) (k : dot_S1024x512_S128x512_S1024x128_1_1_0_0_n_n.contr.Idx) :
    (dot_S1024x512_S128x512_S1024x128_1_1_0_0_n_n.lhsIdx i k 1).val = (k ⟨0, by decide⟩).val :=
  dot_S1024x512_S128x512_S1024x128_1_1_0_0_n_n.lhsIdx_val_of_single rfl i k
theorem rhs_row (i : S1024x128.Idx) (k : dot_S1024x512_S128x512_S1024x128_1_1_0_0_n_n.contr.Idx) :
    (dot_S1024x512_S128x512_S1024x128_1_1_0_0_n_n.rhsIdx i k 0).val = (i 1).val := by
  unfold DotDims.rhsIdx
  rw [dif_neg (show ¬(0 : Fin S128x512.rank) ∈ dot_S1024x512_S128x512_S1024x128_1_1_0_0_n_n.rhsBatch by decide), dif_pos (show (0 : Fin S128x512.rank) ∈ dot_S1024x512_S128x512_S1024x128_1_1_0_0_n_n.rhsNonContracting by decide)]
  rfl
theorem rhs_col (i : S1024x128.Idx) (k : dot_S1024x512_S128x512_S1024x128_1_1_0_0_n_n.contr.Idx) :
    (dot_S1024x512_S128x512_S1024x128_1_1_0_0_n_n.rhsIdx i k 1).val = (k ⟨0, by decide⟩).val :=
  dot_S1024x512_S128x512_S1024x128_1_1_0_0_n_n.rhsIdx_val_of_single rfl i k

/-- The product of a [1024,512] block with the transpose of a [128,512] matrix, into the zero accumulator, at row
    `p` and feature `q`: the sum over the 512 contracted coordinates. -/
theorem matmul_at (l : FVec Ideal S1024x512 .bf16) (r : FVec Ideal S128x512 .bf16) (p : Fin 1024) (q : Fin 128) :
    FloatOps.matmul dot_S1024x512_S128x512_S1024x128_1_1_0_0_n_n none l r (constant S1024x128 .f32 0x00000000#32) (ix2 p q)
      = ∑ e : Fin 512, l (ix2 p e) * r (ix2 q e) := by
  rw [Ideal.matmul_constant_zero_apply, ← Equiv.sum_comp (contrEquiv1 dot_S1024x512_S128x512_S1024x128_1_1_0_0_n_n 512 rfl rfl).symm]
  refine Finset.sum_congr rfl fun e _ => ?_
  have he := contrEquiv1_symm_val dot_S1024x512_S128x512_S1024x128_1_1_0_0_n_n 512 rfl rfl e
  have el : dot_S1024x512_S128x512_S1024x128_1_1_0_0_n_n.lhsIdx (ix2 p q) ((contrEquiv1 dot_S1024x512_S128x512_S1024x128_1_1_0_0_n_n 512 rfl rfl).symm e) = ix2 p e := funext fun a => Fin.ext (by
    match a with
    | ⟨0, _⟩ => exact lhs_row _ _
    | ⟨1, _⟩ => exact (lhs_col _ _).trans he)
  have er : dot_S1024x512_S128x512_S1024x128_1_1_0_0_n_n.rhsIdx (ix2 p q) ((contrEquiv1 dot_S1024x512_S128x512_S1024x128_1_1_0_0_n_n 512 rfl rfl).symm e) = ix2 q e := funext fun a => Fin.ext (by
    match a with
    | ⟨0, _⟩ => exact rhs_row _ _
    | ⟨1, _⟩ => exact (rhs_col _ _).trans he)
  rw [el, er]

/-- The bias, given a leading unit axis and then repeated down the 1024 rows, read at `(p, q)`: its entry `q`. -/
theorem bias_at (b : Vec Ideal S128 .f32) (p : Fin 1024) (q : Fin 128) :
    broadcastTo S1024x128 (shapeCast S1x128 b shapeCasts_S128_S1x128) broadcasts_S1x128_S1024x128 (ix2 p q) = b (ix1 q) :=
  (broadcastTo_1b_ab_apply _ broadcasts_S1x128_S1024x128 p q).trans (shapeCast_a_1a_apply b shapeCasts_S128_S1x128 0 q)

/-- Region 0's payload at row `p`, feature `q`: `Σ_e x(p,e)·w(q,e) + b(q)`. The three changes of format are the
    identity on extended reals. -/
theorem pay0_at (x : Vec Ideal S1024x512 .f32) (w : Vec Ideal S128x512 .f32) (b : Vec Ideal S128 .f32) (p : Fin 1024) (q : Fin 128) :
    k0_pay1 (F := Ideal) x w b (ix2 p q) = (∑ e : Fin 512, x (ix2 p e) * w (ix2 q e)) + b (ix1 q) := by
  unfold k0_pay1
  refine (truncf_apply (ψ := .bf16) (φ := .f32) _ bitsLt_bf16_f32 (ix2 p q)).trans ((addf_apply (φ := .f32) _ _ (ix2 p q)).trans ?_)
  refine congrArg₂ (· + ·) ?_ (bias_at b p q)
  exact matmul_at (truncf .bf16 x bitsLt_bf16_f32) (truncf .bf16 w bitsLt_bf16_f32) p q

/-- The same against the specification: when the block's row `p` is row `n` of the activations `X`, and the other two
    blocks are the weight matrix and the bias themselves, the payload at `(p, q)` is the projection of row `n` at
    feature `q`. -/
theorem pay0_qAt (x : Vec Ideal S1024x512 .f32) (w : Vec Ideal S128x512 .f32) (b : Vec Ideal S128 .f32)
    (X : Mat 8192 512) (W : Mat 128 512) (B : Vc 128) (n : Fin 8192) (p : Fin 1024) (q : Fin 128)
    (hx : ∀ e : Fin 512, x (ix2 p e) = X (ix2 n e)) (hw : ∀ e : Fin 512, w (ix2 q e) = W (ix2 q e)) (hb : b (ix1 q) = B (ix1 q)) :
    k0_pay1 (F := Ideal) x w b (ix2 p q) = qAt X W B n q := by
  rw [pay0_at, hb]
  unfold qAt
  exact congrArg (· + B (ix1 q)) (Finset.sum_congr rfl fun e _ => by rw [hx e, hw e])

/-- Region 1's payload at row `p`, feature `q`: `Σ_e x(p,e)·w(q,e) + b(q)`. The three changes of format are the
    identity on extended reals. -/
theorem pay1_at (x : Vec Ideal S1024x512 .f32) (w : Vec Ideal S128x512 .f32) (b : Vec Ideal S128 .f32) (p : Fin 1024) (q : Fin 128) :
    k1_pay1 (F := Ideal) x w b (ix2 p q) = (∑ e : Fin 512, x (ix2 p e) * w (ix2 q e)) + b (ix1 q) := by
  unfold k1_pay1
  refine (truncf_apply (ψ := .bf16) (φ := .f32) _ bitsLt_bf16_f32 (ix2 p q)).trans ((addf_apply (φ := .f32) _ _ (ix2 p q)).trans ?_)
  refine congrArg₂ (· + ·) ?_ (bias_at b p q)
  exact matmul_at (truncf .bf16 x bitsLt_bf16_f32) (truncf .bf16 w bitsLt_bf16_f32) p q

/-- The same against the specification: when the block's row `p` is row `n` of the activations `X`, and the other two
    blocks are the weight matrix and the bias themselves, the payload at `(p, q)` is the projection of row `n` at
    feature `q`. -/
theorem pay1_qAt (x : Vec Ideal S1024x512 .f32) (w : Vec Ideal S128x512 .f32) (b : Vec Ideal S128 .f32)
    (X : Mat 8192 512) (W : Mat 128 512) (B : Vc 128) (n : Fin 8192) (p : Fin 1024) (q : Fin 128)
    (hx : ∀ e : Fin 512, x (ix2 p e) = X (ix2 n e)) (hw : ∀ e : Fin 512, w (ix2 q e) = W (ix2 q e)) (hb : b (ix1 q) = B (ix1 q)) :
    k1_pay1 (F := Ideal) x w b (ix2 p q) = qAt X W B n q := by
  rw [pay1_at, hb]
  unfold qAt
  exact congrArg (· + B (ix1 q)) (Finset.sum_congr rfl fun e _ => by rw [hx e, hw e])

/-! ## From blocks to the arrays -/

-- the core's buffer contents when a region is entered, at the extended reals
variable (V : (c : Dev nD) → (b : Ref sig .tc) → Buf (Elt Ideal) ((c : Thread nD τ).loc b))

theorem zero2 : (![0, 0] : Fin 2 → Nat) = fun _ => 0 := funext fun a => by fin_cases a <;> rfl
theorem zero1 : (![0] : Fin 1 → Nat) = fun _ => 0 := funext fun a => by fin_cases a <;> rfl

/-! ### Region 0 -/

/-- The index maps over the grid: the activations' and the output's row block is the point's number, every other
    block index is zero. -/
theorem index0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 1) = 0
    ∧ win0_3.index t (0 : Fin 2) = t.val ∧ win0_3.index t (1 : Fin 2) = 0 :=
  (by decide +kernel : ∀ t : Fin grid0.N, _)

/-- The projection of the region's activations, as a function on the output array's index. -/
def proj0 (c : Dev nD) : S8192x128.Idx → EReal :=
  fun i => qAt (V c main_arg0 : S8192x512.Idx → EReal) (V c main_arg2 : S128x512.Idx → EReal) (V c main_arg3 : S128.Idx → EReal) (i 0) (i 1)

/-- What point `t` writes back is block `t` of the projection: rows `1024·t …` of the output, each from the same row
    of the activations. -/
theorem flushed0_eq (c : Dev nD) (t : Fin cfg0.N) :
    (dat0 (F := Ideal) V c).flushed 3 t = ((cfg0.win 3).blk t).view.read (Elt Ideal) (proj0 V c) := by
  show (cfg0.win 3).cut (grid0.coords t) ((dat0 V c).after 3 t) = _
  rw [after0_3]
  unfold out0_3
  rw [View.canon_unit_zero zero2]
  simp only [View.ld_unit_zero (S := S1024x512) zero2, View.ld_unit_zero (S := S128x512) zero2, View.ld_unit_zero (S := S128) zero1]
  obtain ⟨e00, e01, e10, e11, e20, e30, e31⟩ := index0 t
  have hN : grid0.N = 8 := N_0
  have ht : t.val < 8 := hN ▸ t.isLt
  funext j
  obtain ⟨p, q, rfl⟩ : ∃ (p : Fin 1024) (q : Fin 128), j = ix2 p q := ⟨j 0, j 1, eq_ix2 j⟩
  show k0_pay1 (F := Ideal) (iblk0 V c 0 t) (iblk0 V c 1 t) (iblk0 V c 2 t) (ix2 p q) = proj0 V c (((cfg0.win 3).blk t).view.emb (ix2 p q))
  refine (pay0_qAt (iblk0 V c 0 t) (iblk0 V c 1 t) (iblk0 V c 2 t) (V c main_arg0) (V c main_arg2) (V c main_arg3)
    ⟨1024 * t.val + p.val, by omega⟩ p q ?_ ?_ ?_).trans ?_
  · intro e
    show (V c main_arg0 : S8192x512.Idx → EReal) (((cfg0.win 0).blk t).view.emb (ix2 p e)) = (V c main_arg0 : S8192x512.Idx → EReal) (ix2 ⟨1024 * t.val + p.val, by omega⟩ e)
    refine congrArg _ (funext fun a => Fin.ext ?_)
    match a with
    | ⟨0, _⟩ => show win0_0.index t (0 : Fin 2) * 1024 + 1 * p.val = 1024 * t.val + p.val; omega
    | ⟨1, _⟩ => show win0_0.index t (1 : Fin 2) * 512 + 1 * e.val = e.val; omega
  · intro e
    show (V c main_arg2 : S128x512.Idx → EReal) (((cfg0.win 1).blk t).view.emb (ix2 q e)) = (V c main_arg2 : S128x512.Idx → EReal) (ix2 q e)
    refine congrArg _ (funext fun a => Fin.ext ?_)
    match a with
    | ⟨0, _⟩ => show win0_1.index t (0 : Fin 2) * 128 + 1 * q.val = q.val; omega
    | ⟨1, _⟩ => show win0_1.index t (1 : Fin 2) * 512 + 1 * e.val = e.val; omega
  · show (V c main_arg3 : S128.Idx → EReal) (((cfg0.win 2).blk t).view.emb (ix1 q)) = (V c main_arg3 : S128.Idx → EReal) (ix1 q)
    refine congrArg _ (funext fun a => Fin.ext ?_)
    match a with
    | ⟨0, _⟩ => show win0_2.index t (0 : Fin 1) * 128 + 1 * q.val = q.val; omega
  · unfold proj0
    refine congrArg₂ (qAt (V c main_arg0) (V c main_arg2) (V c main_arg3)) (Fin.ext ?_) (Fin.ext ?_)
    · show 1024 * t.val + p.val = win0_3.index t (0 : Fin 2) * 1024 + 1 * p.val; omega
    · show q.val = win0_3.index t (1 : Fin 2) * 128 + 1 * q.val; omega

/-- An index of the output array is in point `t`'s block iff each coordinate is in the block's range on its axis. -/
theorem mem_blk0 (t : Fin cfg0.N) (i : S8192x128.Idx) :
    i ∈ ((cfg0.win 3).blk t).view.set ↔ ∀ a : Fin 2, win0_3.index t a * S1024x128.size a ≤ (i a).val ∧ (i a).val < win0_3.index t a * S1024x128.size a + S1024x128.size a := by
  show i ∈ ((View.whole main_v0).slice (win0_3.rect t)).set ↔ _
  rw [View.set_slice_whole, Rect.mem_set_unit]
  exact Iff.rfl

/-- The eight row blocks tile the 8192 rows: row `r` is in the block of point `r / 1024`, which writes back. -/
theorem cover0 (i : S8192x128.Idx) : ∃ t : Fin cfg0.N, (cfg0.win 3).flush t = true ∧ i ∈ ((cfg0.win 3).blk t).view.set := by
  have hi0 : (i 0).val < 8192 := idx2_lt0 i
  have hi1 : (i 1).val < 128 := idx2_lt1 i
  have hN : grid0.N = 8 := N_0
  have hlt : (i 0).val / 1024 < grid0.N := by rw [hN]; omega
  refine ⟨⟨(i 0).val / 1024, hlt⟩, flush0_3 _, ?_⟩
  obtain ⟨-, -, -, -, -, e30, e31⟩ := index0 ⟨(i 0).val / 1024, hlt⟩
  have e30' : win0_3.index ⟨(i 0).val / 1024, hlt⟩ (0 : Fin 2) = (i 0).val / 1024 := e30
  rw [mem_blk0]
  intro a
  match a with
  | ⟨0, _⟩ => show win0_3.index ⟨(i 0).val / 1024, hlt⟩ (0 : Fin 2) * 1024 ≤ (i 0).val ∧ (i 0).val < win0_3.index ⟨(i 0).val / 1024, hlt⟩ (0 : Fin 2) * 1024 + 1024; omega
  | ⟨1, _⟩ => show win0_3.index ⟨(i 0).val / 1024, hlt⟩ (1 : Fin 2) * 128 ≤ (i 1).val ∧ (i 1).val < win0_3.index ⟨(i 0).val / 1024, hlt⟩ (1 : Fin 2) * 128 + 128; omega

/-- The output array after the region: the projection of the region's activations, everywhere. -/
theorem arr0_eq (c : Dev nD) : (dat0 (F := Ideal) V c).arrAt 3 cfg0.N = fun i => Cert.AttnSpec.qAt (V c main_arg0) (V c main_arg2) (V c main_arg3) (i 0) (i 1) :=
  (dat0 (F := Ideal) V c).arrAt_eq_of_cover 3 (proj0 V c) (fun t _ => flushed0_eq V c t) (cover0)

/-! ### Region 1 -/

/-- The index maps over the grid: the activations' and the output's row block is the point's number, every other
    block index is zero. -/
theorem index1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 1) = 0
    ∧ win1_3.index t (0 : Fin 2) = t.val ∧ win1_3.index t (1 : Fin 2) = 0 :=
  (by decide +kernel : ∀ t : Fin grid1.N, _)

/-- The projection of the region's activations, as a function on the output array's index. -/
def proj1 (c : Dev nD) : S8192x128.Idx → EReal :=
  fun i => qAt (V c main_arg1 : S8192x512.Idx → EReal) (V c main_arg2 : S128x512.Idx → EReal) (V c main_arg3 : S128.Idx → EReal) (i 0) (i 1)

/-- What point `t` writes back is block `t` of the projection: rows `1024·t …` of the output, each from the same row
    of the activations. -/
theorem flushed1_eq (c : Dev nD) (t : Fin cfg1.N) :
    (dat1 (F := Ideal) V c).flushed 3 t = ((cfg1.win 3).blk t).view.read (Elt Ideal) (proj1 V c) := by
  show (cfg1.win 3).cut (grid1.coords t) ((dat1 V c).after 3 t) = _
  rw [after1_3]
  unfold out1_3
  rw [View.canon_unit_zero zero2]
  simp only [View.ld_unit_zero (S := S1024x512) zero2, View.ld_unit_zero (S := S128x512) zero2, View.ld_unit_zero (S := S128) zero1]
  obtain ⟨e00, e01, e10, e11, e20, e30, e31⟩ := index1 t
  have hN : grid1.N = 8 := N_1
  have ht : t.val < 8 := hN ▸ t.isLt
  funext j
  obtain ⟨p, q, rfl⟩ : ∃ (p : Fin 1024) (q : Fin 128), j = ix2 p q := ⟨j 0, j 1, eq_ix2 j⟩
  show k1_pay1 (F := Ideal) (iblk1 V c 0 t) (iblk1 V c 1 t) (iblk1 V c 2 t) (ix2 p q) = proj1 V c (((cfg1.win 3).blk t).view.emb (ix2 p q))
  refine (pay1_qAt (iblk1 V c 0 t) (iblk1 V c 1 t) (iblk1 V c 2 t) (V c main_arg1) (V c main_arg2) (V c main_arg3)
    ⟨1024 * t.val + p.val, by omega⟩ p q ?_ ?_ ?_).trans ?_
  · intro e
    show (V c main_arg1 : S8192x512.Idx → EReal) (((cfg1.win 0).blk t).view.emb (ix2 p e)) = (V c main_arg1 : S8192x512.Idx → EReal) (ix2 ⟨1024 * t.val + p.val, by omega⟩ e)
    refine congrArg _ (funext fun a => Fin.ext ?_)
    match a with
    | ⟨0, _⟩ => show win1_0.index t (0 : Fin 2) * 1024 + 1 * p.val = 1024 * t.val + p.val; omega
    | ⟨1, _⟩ => show win1_0.index t (1 : Fin 2) * 512 + 1 * e.val = e.val; omega
  · intro e
    show (V c main_arg2 : S128x512.Idx → EReal) (((cfg1.win 1).blk t).view.emb (ix2 q e)) = (V c main_arg2 : S128x512.Idx → EReal) (ix2 q e)
    refine congrArg _ (funext fun a => Fin.ext ?_)
    match a with
    | ⟨0, _⟩ => show win1_1.index t (0 : Fin 2) * 128 + 1 * q.val = q.val; omega
    | ⟨1, _⟩ => show win1_1.index t (1 : Fin 2) * 512 + 1 * e.val = e.val; omega
  · show (V c main_arg3 : S128.Idx → EReal) (((cfg1.win 2).blk t).view.emb (ix1 q)) = (V c main_arg3 : S128.Idx → EReal) (ix1 q)
    refine congrArg _ (funext fun a => Fin.ext ?_)
    match a with
    | ⟨0, _⟩ => show win1_2.index t (0 : Fin 1) * 128 + 1 * q.val = q.val; omega
  · unfold proj1
    refine congrArg₂ (qAt (V c main_arg1) (V c main_arg2) (V c main_arg3)) (Fin.ext ?_) (Fin.ext ?_)
    · show 1024 * t.val + p.val = win1_3.index t (0 : Fin 2) * 1024 + 1 * p.val; omega
    · show q.val = win1_3.index t (1 : Fin 2) * 128 + 1 * q.val; omega

/-- An index of the output array is in point `t`'s block iff each coordinate is in the block's range on its axis. -/
theorem mem_blk1 (t : Fin cfg1.N) (i : S8192x128.Idx) :
    i ∈ ((cfg1.win 3).blk t).view.set ↔ ∀ a : Fin 2, win1_3.index t a * S1024x128.size a ≤ (i a).val ∧ (i a).val < win1_3.index t a * S1024x128.size a + S1024x128.size a := by
  show i ∈ ((View.whole main_v1).slice (win1_3.rect t)).set ↔ _
  rw [View.set_slice_whole, Rect.mem_set_unit]
  exact Iff.rfl

/-- The eight row blocks tile the 8192 rows: row `r` is in the block of point `r / 1024`, which writes back. -/
theorem cover1 (i : S8192x128.Idx) : ∃ t : Fin cfg1.N, (cfg1.win 3).flush t = true ∧ i ∈ ((cfg1.win 3).blk t).view.set := by
  have hi0 : (i 0).val < 8192 := idx2_lt0 i
  have hi1 : (i 1).val < 128 := idx2_lt1 i
  have hN : grid1.N = 8 := N_1
  have hlt : (i 0).val / 1024 < grid1.N := by rw [hN]; omega
  refine ⟨⟨(i 0).val / 1024, hlt⟩, flush1_3 _, ?_⟩
  obtain ⟨-, -, -, -, -, e30, e31⟩ := index1 ⟨(i 0).val / 1024, hlt⟩
  have e30' : win1_3.index ⟨(i 0).val / 1024, hlt⟩ (0 : Fin 2) = (i 0).val / 1024 := e30
  rw [mem_blk1]
  intro a
  match a with
  | ⟨0, _⟩ => show win1_3.index ⟨(i 0).val / 1024, hlt⟩ (0 : Fin 2) * 1024 ≤ (i 0).val ∧ (i 0).val < win1_3.index ⟨(i 0).val / 1024, hlt⟩ (0 : Fin 2) * 1024 + 1024; omega
  | ⟨1, _⟩ => show win1_3.index ⟨(i 0).val / 1024, hlt⟩ (1 : Fin 2) * 128 ≤ (i 1).val ∧ (i 1).val < win1_3.index ⟨(i 0).val / 1024, hlt⟩ (1 : Fin 2) * 128 + 128; omega

/-- The output array after the region: the projection of the region's activations, everywhere. -/
theorem arr1_eq (c : Dev nD) : (dat1 (F := Ideal) V c).arrAt 3 cfg1.N = fun i => Cert.AttnSpec.qAt (V c main_arg1) (V c main_arg2) (V c main_arg3) (i 0) (i 1) :=
  (dat1 (F := Ideal) V c).arrAt_eq_of_cover 3 (proj1 V c) (fun t _ => flushed1_eq V c t) (cover1)

end Cert.KernelIdeal.Proj

end
-- ==== Proof.RunValue.lean ====
/- What the attention region is entered with, as functions of the launch memory, at the extended reals: its query
   operand is the projection of the first argument, its key operand the projection of the second (each left by one
   projection region and untouched afterwards), and its value operand is the second argument itself (the host's
   change of float format is the identity on extended reals). -/
import proofs.«123942_j56169582297517_2_alg».proof.Proof.Run
import proofs.«123942_j56169582297517_2_alg».proof.Proof.ProjValue
import proofs.«123942_j56169582297517_2_alg».proof.Proof.Spec
import Idealize.ShloMosaic.Lib.StableHlo.Run

set_option maxRecDepth 16384

noncomputable section

namespace Cert.KernelIdeal.RunValue

open Cert.KernelIdeal Cert.KernelIdeal.Gen Cert.KernelIdeal.Run Cert.AttnSpec
open Idealize.ShloMosaic Idealize.ShloMosaic.TcCoe Idealize.ShloMosaic.ValueIdx Idealize.SL.Sem

variable (m : (ℓ : Loc nD τ sig) → Buf (Elt Ideal) ℓ) (ρ : Dev nD → PrngReg) (c : Dev nD)

/-- The one host operation between the regions, over any contents `U`: its result buffer holds the second argument's
    contents with the format changed; nothing else is read. -/
theorem convert_result (U : Valuation τ sig (Elt Ideal)) :
    StableHlo.after (hostOps2 (F := Ideal)) U (Proc.devRef .tc main_v2)
      = (truncf .bf16 (U (Proc.devRef .tc main_arg1) : FVec Ideal S8192x512 .f32) bitsLt_bf16_f32 : FVec Ideal S8192x512 .bf16) := by
  after_results

/-- The query operand: the first projection region leaves the projection of the first argument in its output
    array; the second region and the host operation do not write it. -/
theorem entry_q : (Run.V3 (F := Ideal) m ρ c main_v0 : S8192x128.Idx → EReal)
    = fun i => qAt (m ((c : Thread nD τ).loc main_arg0)) (m ((c : Thread nD τ).loc main_arg2)) (m ((c : Thread nD τ).loc main_arg3)) (i 0) (i 1) := by
  show W3 m ρ c (Proc.devRef .tc main_v0) = _
  rw [W3_of_ne_v2 m ρ c main_v0 (by decide), W2_of_ne m ρ c main_v0 (by decide)]
  exact (W1_arr m ρ c 3).trans (Proj.arr0_eq (V0 m ρ) c)

/-- The key operand: the second projection region leaves the projection of the second argument; it is entered with
    the arguments as launched, and the host operation does not write its output. -/
theorem entry_k : (Run.V3 (F := Ideal) m ρ c main_v1 : S8192x128.Idx → EReal)
    = fun i => qAt (m ((c : Thread nD τ).loc main_arg1)) (m ((c : Thread nD τ).loc main_arg2)) (m ((c : Thread nD τ).loc main_arg3)) (i 0) (i 1) := by
  show W3 m ρ c (Proc.devRef .tc main_v1) = _
  rw [W3_of_ne_v2 m ρ c main_v1 (by decide)]
  refine (W2_arr m ρ c 3).trans ((Proj.arr1_eq (V1 m ρ) c).trans ?_)
  show (fun (i : S8192x128.Idx) => qAt (W1 m ρ c (Proc.devRef .tc main_arg1)) (W1 m ρ c (Proc.devRef .tc main_arg2)) (W1 m ρ c (Proc.devRef .tc main_arg3)) (i 0) (i 1)) = _
  rw [W1_main_arg1 m ρ c, W1_main_arg2 m ρ c, W1_main_arg3 m ρ c]
  rfl

/-- The value operand: the second argument itself. -/
theorem entry_v : (Run.V3 (F := Ideal) m ρ c main_v2 : S8192x512.Idx → EReal) = m ((c : Thread nD τ).loc main_arg1) := by
  show StableHlo.after (hostOps2 (F := Ideal)) (W2 m ρ c) (Proc.devRef .tc main_v2) = _
  rw [convert_result (W2 m ρ c), W2_main_arg1 m ρ c]
  funext i
  exact truncf_apply _ _ i

end Cert.KernelIdeal.RunValue

end
-- ==== Proof.lean ====
/-
  A jax program of three Pallas calls — two projections q = P·Wᵀ + b and k = S·Wᵀ + b, then a tiled pass computing
  relu(q kᵀ), its row norms and its product with S by running totals over 16 key tiles — against the jnp reference
  Σ_m (relu(q kᵀ)(n,m) / max(‖relu(q kᵀ)(n,·)‖, ε)) · S(m,e).
  The frames: each program of three regions runs region by region over the buffer contents at every boundary of @main
  (Proof/Run.lean for the kernel read over the extended reals, Proof/Word/Run.lean the same text for the word-level
  kernel); the attention region carries its two running totals from one grid point to the next in its invariant
  (Proof/AttnFrame.lean). The value: the projection regions leave q and k (Proof/ProjValue.lean), the attention region
  leaves (Σ_tiles Σ_j s·S) / max(sqrt(Σ s²), ε) (Proof/AttnValue.lean); that is the reference's form because, from finite
  inputs, every score is a real and the divisor a positive real, so dividing the sum is dividing each term
  (Proof/Algebra.lean); and the reference's composed term is that form index by index (Proof/RefIsSpec.lean).
-/
import proofs.«123942_j56169582297517_2_alg».proof.Defs
import proofs.«123942_j56169582297517_2_alg».proof.Proof.Gen.Kernel
import proofs.«123942_j56169582297517_2_alg».proof.Proof.Gen.KernelIdeal
import proofs.«123942_j56169582297517_2_alg».proof.Proof.Gen.ReferenceIdeal
import proofs.«123942_j56169582297517_2_alg».proof.Proof.Gen.ReferenceIdeal.Read
import proofs.«123942_j56169582297517_2_alg».proof.Proof.Gen.Pre_finite_inputs
import proofs.«123942_j56169582297517_2_alg».proof.Proof.Run
import proofs.«123942_j56169582297517_2_alg».proof.Proof.Word.Run
import proofs.«123942_j56169582297517_2_alg».proof.Proof.SpecTiles
import proofs.«123942_j56169582297517_2_alg».proof.Proof.Algebra
import proofs.«123942_j56169582297517_2_alg».proof.Proof.RefIsSpec
import proofs.«123942_j56169582297517_2_alg».proof.Proof.Finite
import proofs.«123942_j56169582297517_2_alg».proof.Proof.AttnValue
import proofs.«123942_j56169582297517_2_alg».proof.Proof.RunValue
import Idealize.ShloMosaic.Adequacy
import Idealize.ShloMosaic.Init

noncomputable section

namespace Cert.Proof

open Idealize.ShloMosaic Idealize.ShloMosaic.TcCoe Idealize.SL.Sem

/-- The word-level kernel runs to the end, faults nowhere and leaves its arguments as launched: the run over its three
    regions, read at the argument arrays. -/
theorem frame_kernel : Cert.frame_Kernel := fun m ρ _ => Cert.Kernel.Run.frame m ρ

/-- The same for the kernel read over the extended reals. -/
theorem frame_kernelIdeal : Cert.frame_KernelIdeal := fun m ρ _ => Cert.KernelIdeal.Run.frame m ρ

/-- The reference is host operations only: its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- No operation of the kernel was rewritten when it was read over the extended reals. -/
theorem preserves : Cert.preserves_Kernel_KernelIdeal := trivial

/-- Over the extended reals, from finite inputs, both programs end at Σ_m (s(n,m)/D(n))·S(m,e): the kernel's result array
    is (Σ_tiles Σ_j s·S) / max(sqrt(Σ s²), ε) of the projected arrays (the attention region's value over the two
    projection regions' values), which equals the reference's form because every score is a real number and the divisor
    a positive real; the reference's composed term is that form index by index. -/
theorem algebraic : Cert.algebraic_KernelIdeal_ReferenceIdeal := by
  intro m ρ m' ρ' hpre hagree
  refine ⟨fun c => Cert.AttnSpec.refOut (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)), ?_, ?_⟩
  · refine (θ_run Cert.KernelIdeal.defs _ _).mono (fun r h c => ⟨(h c).1.trans ?_, (h c).2⟩) (Cert.KernelIdeal.Run.run_result (F := Ideal) m ρ)
    obtain ⟨hP, hS, hW, hb⟩ := Cert.AttnFinite.finite_of_pre _ _ _ _ (hpre c)
    rw [Cert.KernelIdeal.AttnValue.arr2_eq, Cert.KernelIdeal.RunValue.entry_q, Cert.KernelIdeal.RunValue.entry_k, Cert.KernelIdeal.RunValue.entry_v]
    exact (Cert.AttnSpec.kerQK_proj _ _ _ _).trans (Cert.AttnAlgebra.kerOut_eq_refOut _ _ _ _ hP hS hW hb)
  · refine (θ_run Cert.ReferenceIdeal.defs _ _).mono (fun _ h c => ⟨(h c).1.trans ?_, (h c).2⟩) (Cert.ReferenceIdeal.Value.run (F := Ideal) m' ρ')
    rw [Cert.ReferenceIdeal.Read.val_main_v19_eq, Cert.AttnRef.ref_eq, (hagree c).1, (hagree c).2.1, (hagree c).2.2.1, (hagree c).2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
